-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32x1 .f32) (main_arg8 : FVec F S1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1000000 .f32) (main_arg1 : FVec F S1x32 .f32) (main_arg2 : FVec F S32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S2 : Shape := ⟨1, ![2]⟩
abbrev S_ : Shape := ⟨0, ![]⟩
abbrev S1007616 : Shape := ⟨1, ![1007616]⟩
abbrev S1x1007616 : Shape := ⟨2, ![1, 1007616]⟩
abbrev S1x1 : Shape := ⟨2, ![1, 1]⟩
abbrev S16x1 : Shape := ⟨2, ![16, 1]⟩
abbrev S1x4096 : Shape := ⟨2, ![1, 4096]⟩
abbrev S8x1 : Shape := ⟨2, ![8, 1]⟩
abbrev S32x4096 : Shape := ⟨2, ![32, 4096]⟩
abbrev S2x1 : Shape := ⟨2, ![2, 1]⟩
abbrev S2x32 : Shape := ⟨2, ![2, 32]⟩

abbrev nBuf : Space → Nat
  | .hbm => 63
  | .vmem => 13
  | .smem => 0
  | _ => 0

abbrev bufTy : (tb : Table) → Fin (tcTables nBuf tb) → BufTy
  | .hbm, ⟨0, _⟩ => ⟨S1000000, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2, .f32⟩
  | .hbm, ⟨10, _⟩ => ⟨S_, .i32⟩
  | .hbm, ⟨11, _⟩ => ⟨S_, .f32⟩
  | .hbm, ⟨12, _⟩ => ⟨S1007616, .f32⟩
  | .hbm, ⟨13, _⟩ => ⟨S1x1007616, .f32⟩
  | .hbm, ⟨14, _⟩ => ⟨S32x1, .f32⟩
  | .hbm, ⟨15, _⟩ => ⟨S32x1, .f32⟩
  | .hbm, ⟨16, _⟩ => ⟨S32x32, .f32⟩
  | .hbm, ⟨17, _⟩ => ⟨S32x32, .bf16⟩
  | .hbm, ⟨18, _⟩ => ⟨S32x1, .f32⟩
  | .hbm, ⟨19, _⟩ => ⟨S32x32, .f32⟩
  | .hbm, ⟨20, _⟩ => ⟨S32x32, .bf16⟩
  | .hbm, ⟨21, _⟩ => ⟨S32x1, .f32⟩
  | .hbm, ⟨22, _⟩ => ⟨S1x32, .f32⟩
  | .hbm, ⟨23, _⟩ => ⟨S1x32, .bf16⟩
  | .hbm, ⟨24, _⟩ => ⟨S1x1, .f32⟩
  | .hbm, ⟨25, _⟩ => ⟨S16x1, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x1, .f32⟩
  | .hbm, ⟨34, _⟩ => ⟨S2x32, .f32⟩
  | .hbm, ⟨35, _⟩ => ⟨S1x32, .f32⟩
  | .hbm, ⟨36, _⟩ => ⟨S2x32, .f32⟩
  | .hbm, ⟨37, _⟩ => ⟨S2x32, .f32⟩
  | .hbm, ⟨38, _⟩ => ⟨S2x32, .f32⟩
  | .hbm, ⟨39, _⟩ => ⟨S2x32, .f32⟩
  | .hbm, ⟨40, _⟩ => ⟨S1x32, .f32⟩
  | .hbm, ⟨41, _⟩ => ⟨S2x32, .f32⟩
  | .hbm, ⟨42, _⟩ => ⟨S2x32, .f32⟩
  | .hbm, ⟨43, _⟩ => ⟨S2x32, .f32⟩
  | .hbm, ⟨44, _⟩ => ⟨S2x32, .f32⟩
  | .hbm, ⟨45, _⟩ => ⟨S1x32, .f32⟩
  | .hbm, ⟨46, _⟩ => ⟨S2x32, .f32⟩
  | .hbm, ⟨47, _⟩ => ⟨S2x32, .f32⟩
  | .hbm, ⟨48, _⟩ => ⟨S2x32, .f32⟩
  | .hbm, ⟨49, _⟩ => ⟨S2x1, .f32⟩
  | .hbm, ⟨50, _⟩ => ⟨S1x1, .f32⟩
  | .hbm, ⟨51, _⟩ => ⟨S2x1, .f32⟩
  | .hbm, ⟨52, _⟩ => ⟨S2x1, .f32⟩
  | .hbm, ⟨53, _⟩ => ⟨S2x1, .f32⟩
  | .hbm, ⟨54, _⟩ => ⟨S2, .f32⟩
  | .hbm, ⟨55, _⟩ => ⟨S1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x4096, .f32⟩
  | .local _ .vmem, ⟨1, _⟩ => ⟨S1x4096, .f32⟩
  | .local _ .vmem, ⟨2, _⟩ => ⟨S32x1, .f32⟩
  | .local _ .vmem, ⟨3, _⟩ => ⟨S32x1, .f32⟩
  | .local _ .vmem, ⟨4, _⟩ => ⟨S32x32, .bf16⟩
  | .local _ .vmem, ⟨5, _⟩ => ⟨S32x1, .f32⟩
  | .local _ .vmem, ⟨6, _⟩ => ⟨S32x32, .bf16⟩
  | .local _ .vmem, ⟨7, _⟩ => ⟨S32x1, .f32⟩
  | .local _ .vmem, ⟨8, _⟩ => ⟨S1x32, .bf16⟩
  | .local _ .vmem, ⟨9, _⟩ => ⟨S1x1, .f32⟩
  | .local _ .vmem, ⟨10, _⟩ => ⟨S8x1, .f32⟩
  | .local _ .vmem, ⟨11, _⟩ => ⟨S8x1, .f32⟩
  | .local _ .vmem, ⟨12, _⟩ => ⟨S8x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 123], ![false, false]⟩

def k0_cond2 (i : grid0.Coords) : BitVec 1 :=
  let arg1 : BitVec 32 := BitVec.ofNat 32 (i 1).val
  let c122_i32 : BitVec 32 := 122#32
  let v124 : BitVec 1 := Scalar.cmpi .eq arg1 c122_i32
  let v125 : BitVec 32 := Scalar.extui v124
  let c0_i32_41 : BitVec 32 := 0#32
  let v126 : BitVec 1 := Scalar.cmpi .ne v125 c0_i32_41
  v126

def cc0_transform_0 (i : grid0.Coords) : Fin 2 → Nat :=
  let arg0 : BitVec 32 := BitVec.ofNat 32 (i 0).val
  let arg1 : BitVec 32 := BitVec.ofNat 32 (i 1).val
  let c123_i32 : BitVec 32 := 123#32
  let v0 : BitVec 32 := Scalar.muli arg0 c123_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  pads_S1000000_S1007616_076160 : S1000000.Pads (![0] : Fin 1 → Nat) ![7616] ![0] S1007616
  h_S_ : 0 < S_.numel
  shapeCasts_S1007616_S1x1007616 : S1007616.ShapeCasts S1x1007616
  transposes_S1x32_S32x1_1_0 : S1x32.Transposes [1, 0] S32x1
  shapeCasts_S32_S32x1 : S32.ShapeCasts S32x1
  transposes_S32x32_S32x32_1_0 : S32x32.Transposes [1, 0] S32x32
  bitsLt_bf16_f32 : FTy.bits .bf16 < FTy.bits .f32
  transposes_S32x1_S1x32_1_0 : S32x1.Transposes [1, 0] S1x32
  shapeCasts_S1_S1x1 : S1.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  broadcasts_S1x4096_S32x4096 : S1x4096.Broadcasts S32x4096
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  iota_S1x4096_d1_w32 : S1x4096.Iotas .tc 32 [1]
  reduces_S1x4096_S1 : S1x4096.Reduces [1] S1
  iota_S8x1_d0_w32 : S8x1.Iotas .tc 32 [0]
  natLt_1_32 : 1 < 32
  broadcasts_S1x1_S8x1 : S1x1.Broadcasts S8x1
  slices_S16x1_S1x1_0_0 : S16x1.Slices ![0, 0] S1x1
  shapeCasts_S1x1_S_ : S1x1.ShapeCasts S_
  slices_S16x1_S1x1_8_0 : S16x1.Slices ![8, 0] S1x1
  bcast_S2_S2x1_0 : S2.BroadcastsInDim S2x1 (![0] : Fin 1 → Fin S2x1.rank)
  bcast_S32_S1x32_1 : S32.BroadcastsInDim S1x32 (![1] : Fin 1 → Fin S1x32.rank)
  bcast_S1x32_S2x32_0_1 : S1x32.BroadcastsInDim S2x32 (![0, 1] : Fin 2 → Fin S2x32.rank)
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  shapeCasts_S2x1_S2 : S2x1.ShapeCasts S2
  slices_S2_S1_0 : S2.Slices ![0] S1
  shapeCasts_S1_S_ : S1.ShapeCasts S_
  slices_S2_S1_1 : S2.Slices ![1] S1
  dot_S32x32_S32x4096_S32x4096_1_0_0_1_n_n_wf : DotDims.WF S32x32 S32x4096 S32x4096 [1] [0] [0] [1] [] []
  dot_S1x32_S32x4096_S1x4096_1_0_0_1_n_n_wf : DotDims.WF S1x32 S32x4096 S1x4096 [1] [0] [0] [1] [] []
  dot_S2x1_S1x32_S2x32_1_0_0_1_n_n_wf : DotDims.WF S2x1 S1x32 S2x32 [1] [0] [0] [1] [] []
  dot_S2x32_S32x32_S2x32_1_0_0_1_n_n_wf : DotDims.WF S2x32 S32x32 S2x32 [1] [0] [0] [1] [] []
  dot_S2x32_S32x1_S2x1_1_0_0_1_n_n_wf : DotDims.WF S2x32 S32x1 S2x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x1007616.size a
  hwx0_0 : ∀ i : grid0.Coords, EltTy.bits .f32 = 32 ∨ (Rect.block (s := S1x1007616) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .bf16 = 32 ∨ (Rect.block (s := S1x32) S1x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S16x1.size a
  hwx0_9 : ∀ i : grid0.Coords, EltTy.bits .f32 = 32 ∨ (Rect.block (s := S16x1) S8x1.size (cc0_transform_9 i) (hinb0_9 i)).WholeWords (EltTy.packing .f32)

variable [Facts₀]

def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S1x32_S32x4096_S1x4096_1_0_0_1_n_n : DotDims S1x32 S32x4096 S1x4096 where
  lhsContracting := [1]
  rhsContracting := [0]
  lhsNonContracting := [0]
  rhsNonContracting := [1]
  lhsBatch := []
  rhsBatch := []
  wf := dot_S1x32_S32x4096_S1x4096_1_0_0_1_n_n_wf
def dot_S2x1_S1x32_S2x32_1_0_0_1_n_n : DotDims S2x1 S1x32 S2x32 where
  lhsContracting := [1]
  rhsContracting := [0]
  lhsNonContracting := [0]
  rhsNonContracting := [1]
  lhsBatch := []
  rhsBatch := []
  wf := dot_S2x1_S1x32_S2x32_1_0_0_1_n_n_wf
def dot_S2x32_S32x32_S2x32_1_0_0_1_n_n : DotDims S2x32 S32x32 S2x32 where
  lhsContracting := [1]
  rhsContracting := [0]
  lhsNonContracting := [0]
  rhsNonContracting := [1]
  lhsBatch := []
  rhsBatch := []
  wf := dot_S2x32_S32x32_S2x32_1_0_0_1_n_n_wf
def dot_S2x32_S32x1_S2x1_1_0_0_1_n_n : DotDims S2x32 S32x1 S2x1 where
  lhsContracting := [1]
  rhsContracting := [0]
  lhsNonContracting := [0]
  rhsNonContracting := [1]
  lhsBatch := []
  rhsBatch := []
  wf := dot_S2x32_S32x1_S2x1_1_0_0_1_n_n_wf

abbrev win0_0 : Pipeline.Window sig grid0 :=
  Pipeline.Window.ofSpec (Memref.whole main_v1) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S8x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1000000 : Shape := ⟨1, ![1000000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S2 : Shape := ⟨1, ![2]⟩
abbrev S_ : Shape := ⟨0, ![]⟩
abbrev S1000000x1 : Shape := ⟨2, ![1000000, 1]⟩
abbrev S1000000x32 : Shape := ⟨2, ![1000000, 32]⟩
abbrev S1x1 : Shape := ⟨2, ![1, 1]⟩
abbrev S2x1 : Shape := ⟨2, ![2, 1]⟩
abbrev S2x32 : Shape := ⟨2, ![2, 32]⟩

abbrev nBuf : Space → Nat
  | .hbm => 166
  | .vmem => 0
  | .smem => 0
  | _ => 0

abbrev hbmTy0_0 (i : Nat) : BufTy := match i % 128 with
  | 0 => ⟨S1000000, .f32⟩
  | 1 => ⟨S1x32, .f32⟩
  | 2 => ⟨S32, .f32⟩
  | 3 => ⟨S32x32, .f32⟩
  | 4 => ⟨S32, .f32⟩
  | 5 => ⟨S32x32, .f32⟩
  | 6 => ⟨S32, .f32⟩
  | 7 => ⟨S32x1, .f32⟩
  | 8 => ⟨S1, .f32⟩
  | 9 => ⟨S2, .f32⟩
  | 10 => ⟨S_, .f32⟩
  | 11 => ⟨S1000000, .f32⟩
  | 12 => ⟨S_, .f32⟩
  | 13 => ⟨S1000000, .f32⟩
  | 14 => ⟨S1000000x1, .f32⟩
  | 15 => ⟨S1000000x1, .f32⟩
  | 16 => ⟨S1000000x1, .f32⟩
  | 17 => ⟨S1000000x32, .f32⟩
  | 18 => ⟨S1000000x32, .f32⟩
  | 19 => ⟨S1000000x32, .f32⟩
  | 20 => ⟨S1x32, .f32⟩
  | 21 => ⟨S1000000x32, .f32⟩
  | 22 => ⟨S1000000x32, .f32⟩
  | 23 => ⟨S1000000x32, .f32⟩
  | 24 => ⟨S1000000x32, .f32⟩
  | 25 => ⟨S1000000x32, .f32⟩
  | 26 => ⟨S_, .f32⟩
  | 27 => ⟨S1000000x32, .f32⟩
  | 28 => ⟨S1000000x32, .f32⟩
  | 29 => ⟨S1000000x32, .f32⟩
  | 30 => ⟨S1000000x32, .f32⟩
  | 31 => ⟨S1000000x32, .f32⟩
  | 32 => ⟨S1000000x32, .f32⟩
  | 33 => ⟨S_, .f32⟩
  | 34 => ⟨S1000000x32, .f32⟩
  | 35 => ⟨S1000000x32, .f32⟩
  | 36 => ⟨S1000000x32, .f32⟩
  | 37 => ⟨S1000000x32, .f32⟩
  | 38 => ⟨S1000000x32, .f32⟩
  | 39 => ⟨S1000000x32, .f32⟩
  | 40 => ⟨S1000000x32, .f32⟩
  | 41 => ⟨S1000000x32, .f32⟩
  | 42 => ⟨S1000000x32, .f32⟩
  | 43 => ⟨S1000000x32, .f32⟩
  | 44 => ⟨S1000000x32, .f32⟩
  | 45 => ⟨S1x32, .f32⟩
  | 46 => ⟨S1000000x32, .f32⟩
  | 47 => ⟨S1000000x32, .f32⟩
  | 48 => ⟨S1000000x32, .f32⟩
  | 49 => ⟨S1000000x32, .f32⟩
  | 50 => ⟨S1000000x32, .f32⟩
  | 51 => ⟨S_, .f32⟩
  | 52 => ⟨S1000000x32, .f32⟩
  | 53 => ⟨S1000000x32, .f32⟩
  | 54 => ⟨S1000000x32, .f32⟩
  | 55 => ⟨S1000000x32, .f32⟩
  | 56 => ⟨S1000000x32, .f32⟩
  | 57 => ⟨S1000000x32, .f32⟩
  | 58 => ⟨S1000000x32, .f32⟩
  | 59 => ⟨S1000000x32, .f32⟩
  | 60 => ⟨S1000000x32, .f32⟩
  | 61 => ⟨S_, .f32⟩
  | 62 => ⟨S1000000x32, .f32⟩
  | 63 => ⟨S1000000x32, .f32⟩
  | 64 => ⟨S1000000x32, .f32⟩
  | 65 => ⟨S1000000x32, .f32⟩
  | 66 => ⟨S1000000x32, .f32⟩
  | 67 => ⟨S1000000x32, .f32⟩
  | 68 => ⟨S1000000x32, .f32⟩
  | 69 => ⟨S1000000x32, .f32⟩
  | 70 => ⟨S1000000x32, .f32⟩
  | 71 => ⟨S1000000x32, .f32⟩
  | 72 => ⟨S1000000x32, .f32⟩
  | 73 => ⟨S1x32, .f32⟩
  | 74 => ⟨S1000000x32, .f32⟩
  | 75 => ⟨S1000000x32, .f32⟩
  | 76 => ⟨S1000000x32, .f32⟩
  | 77 => ⟨S1000000x32, .f32⟩
  | 78 => ⟨S1000000x32, .f32⟩
  | 79 => ⟨S_, .f32⟩
  | 80 => ⟨S1000000x32, .f32⟩
  | 81 => ⟨S1000000x32, .f32⟩
  | 82 => ⟨S1000000x32, .f32⟩
  | 83 => ⟨S1000000x32, .f32⟩
  | 84 => ⟨S1000000x32, .f32⟩
  | 85 => ⟨S1000000x32, .f32⟩
  | 86 => ⟨S1000000x32, .f32⟩
  | 87 => ⟨S1000000x32, .f32⟩
  | 88 => ⟨S1000000x32, .f32⟩
  | 89 => ⟨S_, .f32⟩
  | 90 => ⟨S1000000x32, .f32⟩
  | 91 => ⟨S1000000x32, .f32⟩
  | 92 => ⟨S1000000x32, .f32⟩
  | 93 => ⟨S1000000x32, .f32⟩
  | 94 => ⟨S1000000x32, .f32⟩
  | 95 => ⟨S1000000x32, .f32⟩
  | 96 => ⟨S1000000x32, .f32⟩
  | 97 => ⟨S1000000x1, .f32⟩
  | 98 => ⟨S1000000x1, .f32⟩
  | 99 => ⟨S1000000x1, .f32⟩
  | 100 => ⟨S1000000x1, .f32⟩
  | 101 => ⟨S1x1, .f32⟩
  | 102 => ⟨S1000000x1, .f32⟩
  | 103 => ⟨S1000000x1, .f32⟩
  | 104 => ⟨S1000000x1, .f32⟩
  | 105 => ⟨S1000000x1, .f32⟩
  | 106 => ⟨S1000000x1, .f32⟩
  | 107 => ⟨S_, .f32⟩
  | 108 => ⟨S1000000x1, .f32⟩
  | 109 => ⟨S1000000x1, .f32⟩
  | 110 => ⟨S1000000x1, .f32⟩
  | 111 => ⟨S1000000x1, .f32⟩
  | 112 => ⟨S1000000x1, .f32⟩
  | 113 => ⟨S1000000x1, .f32⟩
  | 114 => ⟨S1000000x1, .f32⟩
  | 115 => ⟨S1000000x1, .f32⟩
  | 116 => ⟨S1000000x1, .f32⟩
  | 117 => ⟨S_, .f32⟩
  | 118 => ⟨S1000000x1, .f32⟩
  | 119 => ⟨S1000000x1, .f32⟩
  | 120 => ⟨S1000000x1, .f32⟩
  | 121 => ⟨S1000000x1, .f32⟩
  | 122 => ⟨S1000000x1, .f32⟩
  | 123 => ⟨S1000000x1, .f32⟩
  | 124 => ⟨S1000000x1, .f32⟩
  | 125 => ⟨S1000000, .f32⟩
  | 126 => ⟨S1000000, .f32⟩
  | 127 => ⟨S1000000, .f32⟩
  | _ => ⟨S1000000, .f32⟩

abbrev hbmTy0_1 (i : Nat) : BufTy := match i % 128 with
  | 0 => ⟨S1000000, .f32⟩
  | 1 => ⟨S1000000, .f32⟩
  | 2 => ⟨S1000000, .f32⟩
  | 3 => ⟨S1000000, .f32⟩
  | 4 => ⟨S_, .f32⟩
  | 5 => ⟨S_, .f32⟩
  | 6 => ⟨S_, .f32⟩
  | 7 => ⟨S_, .f32⟩
  | 8 => ⟨S2x1, .f32⟩
  | 9 => ⟨S2x32, .f32⟩
  | 10 => ⟨S1x32, .f32⟩
  | 11 => ⟨S2x32, .f32⟩
  | 12 => ⟨S2x32, .f32⟩
  | 13 => ⟨S2x32, .f32⟩
  | 14 => ⟨S2x32, .f32⟩
  | 15 => ⟨S1x32, .f32⟩
  | 16 => ⟨S2x32, .f32⟩
  | 17 => ⟨S2x32, .f32⟩
  | 18 => ⟨S2x32, .f32⟩
  | 19 => ⟨S2x32, .f32⟩
  | 20 => ⟨S1x32, .f32⟩
  | 21 => ⟨S2x32, .f32⟩
  | 22 => ⟨S2x32, .f32⟩
  | 23 => ⟨S2x32, .f32⟩
  | 24 => ⟨S2x1, .f32⟩
  | 25 => ⟨S1x1, .f32⟩
  | 26 => ⟨S2x1, .f32⟩
  | 27 => ⟨S2x1, .f32⟩
  | 28 => ⟨S2x1, .f32⟩
  | 29 => ⟨S2, .f32⟩
  | 30 => ⟨S1, .f32⟩
  | 31 => ⟨S_, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_8 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_10 : Ref sig .tc := ⟨.hbm, 132, rfl⟩
abbrev main_v112 : Ref sig .tc := ⟨.hbm, 133, rfl⟩
abbrev main_cst_11 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  reducesTo_S1000000_S_d0 : S1000000.ReducesTo [0] S_
  h_S_ : 0 < S_.numel
  bcast_S2_S2x1_0 : S2.BroadcastsInDim S2x1 (![0] : Fin 1 → Fin S2x1.rank)
  bcast_S1x32_S2x32_0_1 : S1x32.BroadcastsInDim S2x32 (![0, 1] : Fin 2 → Fin S2x32.rank)
  bcast_S1x1_S2x1_0_1 : S1x1.BroadcastsInDim S2x1 (![0, 1] : Fin 2 → Fin S2x1.rank)
  shapeCasts_S2x1_S2 : S2x1.ShapeCasts S2
  slices_S2_S1_0 : S2.Slices ![0] S1
  shapeCasts_S1_S_ : S1.ShapeCasts S_
  slices_S2_S1_1 : S2.Slices ![1] S1
  dot_S1000000x1_S1x32_S1000000x32_1_0_0_1_n_n_wf : DotDims.WF S1000000x1 S1x32 S1000000x32 [1] [0] [0] [1] [] []
  dot_S1000000x32_S32x32_S1000000x32_1_0_0_1_n_n_wf : DotDims.WF S1000000x32 S32x32 S1000000x32 [1] [0] [0] [1] [] []
  dot_S1000000x32_S32x1_S1000000x1_1_0_0_1_n_n_wf : DotDims.WF S1000000x32 S32x1 S1000000x1 [1] [0] [0] [1] [] []
  dot_S2x1_S1x32_S2x32_1_0_0_1_n_n_wf : DotDims.WF S2x1 S1x32 S2x32 [1] [0] [0] [1] [] []
  dot_S2x32_S32x32_S2x32_1_0_0_1_n_n_wf : DotDims.WF S2x32 S32x32 S2x32 [1] [0] [0] [1] [] []
  dot_S2x32_S32x1_S2x1_1_0_0_1_n_n_wf : DotDims.WF S2x32 S32x1 S2x1 [1] [0] [0] [1] [] []

variable [Facts₀]

def dot_S1000000x1_S1x32_S1000000x32_1_0_0_1_n_n : DotDims S1000000x1 S1x32 S1000000x32 where
  lhsContracting := [1]
  rhsContracting := [0]
  lhsNonContracting := [0]
  rhsNonContracting := [1]
  lhsBatch := []
  rhsBatch := []
  wf := dot_S1000000x1_S1x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def dot_S2x1_S1x32_S2x32_1_0_0_1_n_n : DotDims S2x1 S1x32 S2x32 where
  lhsContracting := [1]
  rhsContracting := [0]
  lhsNonContracting := [0]
  rhsNonContracting := [1]
  lhsBatch := []
  rhsBatch := []
  wf := dot_S2x1_S1x32_S2x32_1_0_0_1_n_n_wf
def dot_S2x32_S32x32_S2x32_1_0_0_1_n_n : DotDims S2x32 S32x32 S2x32 where
  lhsContracting := [1]
  rhsContracting := [0]
  lhsNonContracting := [0]
  rhsNonContracting := [1]
  lhsBatch := []
  rhsBatch := []
  wf := dot_S2x32_S32x32_S2x32_1_0_0_1_n_n_wf
def dot_S2x32_S32x1_S2x1_1_0_0_1_n_n : DotDims S2x32 S32x1 S2x1 where
  lhsContracting := [1]
  rhsContracting := [0]
  lhsNonContracting := [0]
  rhsNonContracting := [1]
  lhsBatch := []
  rhsBatch := []
  wf := dot_S2x32_S32x1_S2x1_1_0_0_1_n_n_wf

class Facts : Prop extends Facts₀ where

variable [Facts]
-- ==== Proof.RefOps.lean ====
/-
  The reference program's 157 operations as a list, cut into six consecutive pieces, and the program as the run of that list.

  The pieces follow the mathematics: one per layer of the network (each layer carries the activations, their derivative and
  their second derivative), then the residual and its sum of squares, then the mean and the two boundary terms. The buffer
  contents after a concatenation of lists are those after the second list from those after the first.
-/
import proofs.«115291_j3839700763115_2_alg».proof.ReferenceIdeal
import Idealize.ShloMosaic.Lib.StableHlo.Run
import Idealize.ShloMosaic.PureOps.Ideal

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Facts]

/-- %cst … %26: the first layer: the sample points times W1 plus b1, tanh, and the two derivatives of tanh along the unit direction. -/
abbrev C1 : List (HloOp τ sig (Elt F)) :=
  [ nullary main_cst (fun i => FloatOps.ofBits .f32 (lit0 (S2.rowMajor i))),
    nullary main_cst_0 (constant S_ .f32 0x3F800000#32),
    unary main_cst_0 main_v0 (broadcastInDim S1000000 ![] bcast_S_S1000000 : (⟨S_, .f32⟩ : BufTy).Contents (Elt F) → (⟨S1000000, .f32⟩ : BufTy).Contents (Elt F)),
    nullary main_cst_1 (constant S_ .f32 0x3F800000#32),
    unary main_cst_1 main_v1 (broadcastInDim S1000000 ![] bcast_S_S1000000 : (⟨S_, .f32⟩ : BufTy).Contents (Elt F) → (⟨S1000000, .f32⟩ : BufTy).Contents (Elt F)),
    unary main_arg0 main_v2 (broadcastInDim S1000000x1 ![0] bcast_S1000000_S1000000x1_0 : (⟨S1000000, .f32⟩ : BufTy).Contents (Elt F) → (⟨S1000000x1, .f32⟩ : BufTy).Contents (Elt F)),
    unary main_v0 main_v3 (broadcastInDim S1000000x1 ![0] bcast_S1000000_S1000000x1_0 : (⟨S1000000, .f32⟩ : BufTy).Contents (Elt F) → (⟨S1000000x1, .f32⟩ : BufTy).Contents (Elt F)),
    unary main_v1 main_v4 (broadcastInDim S1000000x1 ![0] bcast_S1000000_S1000000x1_0 : (⟨S1000000, .f32⟩ : BufTy).Contents (Elt F) → (⟨S1000000x1, .f32⟩ : BufTy).Contents (Elt F)),
    binary main_v2 main_arg1 main_v5 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    binary main_v3 main_arg1 main_v6 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    binary main_v4 main_arg1 main_v7 ((fun l r => Host.dotGeneral dot_S1000000x1_S1x32_S1000000x32_1_0_0_1_n_n none l r) : (⟨S1000000x1, .f32⟩ : BufTy).Contents (Elt F) → (⟨S1x32, .f32⟩ : BufTy).Contents (Elt F) → (⟨S1000000x32, .f32⟩ : BufTy).Contents (Elt F)),
    unary main_arg2 main_v8 (broadcastInDim S1x32 ![1] bcast_S32_S1x32_1 : (⟨S32, .f32⟩ : BufTy).Contents (Elt F) → (⟨S1x32, .f32⟩ : BufTy).Contents (Elt F)),
    unary main_v8 main_v9 (broadcastInDim S1000000x32 ![0, 1] bcast_S1x32_S1000000x32_0_1 : (⟨S1x32, .f32⟩ : BufTy).Contents (Elt F) → (⟨S1000000x32, .f32⟩ : BufTy).Contents (Elt F)),
    binary main_v5 main_v9 main_v10 (addf : (⟨S1000000x32, .f32⟩ : BufTy).Contents (Elt F) → (⟨S1000000x32, .f32⟩ : BufTy).Contents (Elt F) → (⟨S1000000x32, .f32⟩ : BufTy).Contents (Elt F)),
    unary main_v10 main_v11 (Host.tanh : (⟨S1000000x32, .f32⟩ : BufTy).Contents (Elt F) → (⟨S1000000x32, .f32⟩ : BufTy).Contents (Elt F)),
    binary main_v6 main_v11 main_v12 (mulf : (⟨S1000000x32, .f32⟩ : BufTy).Contents (Elt F) → (⟨S1000000x32, .f32⟩ : BufTy).Contents (Elt F) → (⟨S1000000x32, .f32⟩ : BufTy).Contents (Elt F)),
    binary main_v6 main_v12 main_v13 (addf : (⟨S1000000x32, .f32⟩ : BufTy).Contents (Elt F) → (⟨S1000000x32, .f32⟩ : BufTy).Contents (Elt F) → (⟨S1000000x32, .f32⟩ : BufTy).Contents (Elt F)),
    nullary main_cst_2 (constant S_ .f32 0x3F800000#32),
    unary main_cst_2 main_v14 (broadcastInDim S1000000x32 ![] bcast_S_S1000000x32 : (⟨S_, .f32⟩ : BufTy).Contents (Elt F) → (⟨S1000000x32, .f32⟩ : BufTy).Contents (Elt F)),
    binary main_v14 main_v11 main_v15 (subf : (⟨S1000000x32, .f32⟩ : BufTy).Contents (Elt F) → (⟨S1000000x32, .f32⟩ : BufTy).Contents (Elt F) → (⟨S1000000x32, .f32⟩ : BufTy).Contents (Elt F)),
    binary main_v13 main_v15 main_v16 (mulf : (⟨S1000000x32, .f32⟩ : BufTy).Contents (Elt F) → (⟨S1000000x32, .f32⟩ : BufTy).Contents (Elt F) → (⟨S1000000x32, .f32⟩ : BufTy).Contents (Elt F)),
    binary main_v7 main_v11 main_v17 (mulf : (⟨S1000000x32, .f32⟩ : BufTy).Contents (Elt F) → (⟨S1000000x32, .f32⟩ : BufTy).Contents (Elt F) → (⟨S1000000x32, .f32⟩ : BufTy).Contents (Elt F)),
    binary main_v7 main_v16 main_v18 (mulf : (⟨S1000000x32, .f32⟩ : BufTy).Contents (Elt F) → (⟨S1000000x32, .f32⟩ : BufTy).Contents (Elt F) → (⟨S1000000x32, .f32⟩ : BufTy).Contents (Elt F)),
    binary main_v7 main_v17 main_v19 (addf : (⟨S1000000x32, .f32⟩ : BufTy).Contents (Elt F) → (⟨S1000000x32, .f32⟩ : BufTy).Contents (Elt F) → (⟨S1000000x32, .f32⟩ : BufTy).Contents (Elt F)),
    nullary main_cst_3 (constant S_ .f32 0x3F800000#32),
    unary main_cst_3 main_v20 (broadcastInDim S1000000x32 ![] bcast_S_S1000000x32 : (⟨S_, .f32⟩ : BufTy).Contents (Elt F) → (⟨S1000000x32, .f32⟩ : BufTy).Contents (Elt F)),
    binary main_v20 main_v11 main_v21 (subf : (⟨S1000000x32, .f32⟩ : BufTy).Contents (Elt F) → (⟨S1000000x32, .f32⟩ : BufTy).Contents (Elt F) → (⟨S1000000x32, .f32⟩ : BufTy).Contents (Elt F)),
    unary main_v16 main_v22 (Host.negf : (⟨S1000000x32, .f32⟩ : BufTy).Contents (Elt F) → (⟨S1000000x32, .f32⟩ : BufTy).Contents (Elt F)),
    binary main_v19 main_v21 main_v23 (mulf : (⟨S1000000x32, .f32⟩ : BufTy).Contents (Elt F) → (⟨S1000000x32, .f32⟩ : BufTy).Contents (Elt F) → (⟨S1000000x32, .f32⟩ : BufTy).Contents (Elt F)),
    binary main_v18 main_v21 main_v24 (mulf : (⟨S1000000x32, .f32⟩ : BufTy).Contents (Elt F) → (⟨S1000000x32, .f32⟩ : BufTy).Contents (Elt F) → (⟨S1000000x32, .f32⟩ : BufTy).Contents (Elt F)),
    binary main_v19 main_v22 main_v25 (mulf : (⟨S1000000x32, .f32⟩ : BufTy).Contents (Elt F) → (⟨S1000000x32, .f32⟩ : BufTy).Contents (Elt F) → (⟨S1000000x32, .f32⟩ : BufTy).Contents (Elt F)),
    binary main_v24 main_v25 main_v26 (addf : (⟨S1000000x32, .f32⟩ : BufTy).Contents (Elt F) → (⟨S1000000x32, .f32⟩ : BufTy).Contents (Elt F) → (⟨S1000000x32, .f32⟩ : BufTy).Contents (Elt F)) ]

/-- %27 … %52: the second layer: the three arrays contracted with W2, the bias, tanh and its derivatives. -/
abbrev C2 : List (HloOp τ sig (Elt F)) :=
  [ binary main_v11 main_arg3 main_v27 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v16 main_arg3 main_v28 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v23 main_arg3 main_v29 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v26 main_arg3 main_v30 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    unary main_arg4 main_v31 (broadcastInDim S1x32 ![1] bcast_S32_S1x32_1 : (⟨S32, .f32⟩ : BufTy).Contents (Elt F) → (⟨S1x32, .f32⟩ : BufTy).Contents (Elt F)),
    unary main_v31 main_v32 (broadcastInDim S1000000x32 ![0, 1] bcast_S1x32_S1000000x32_0_1 : (⟨S1x32, .f32⟩ : BufTy).Contents (Elt F) → (⟨S1000000x32, .f32⟩ : BufTy).Contents (Elt F)),
    binary main_v27 main_v32 main_v33 (addf : (⟨S1000000x32, .f32⟩ : BufTy).Contents (Elt F) → (⟨S1000000x32, .f32⟩ : BufTy).Contents (Elt F) → (⟨S1000000x32, .f32⟩ : BufTy).Contents (Elt F)),
    unary main_v33 main_v34 (Host.tanh : (⟨S1000000x32, .f32⟩ : BufTy).Contents (Elt F) → (⟨S1000000x32, .f32⟩ : BufTy).Contents (Elt F)),
    binary main_v28 main_v34 main_v35 (mulf : (⟨S1000000x32, .f32⟩ : BufTy).Contents (Elt F) → (⟨S1000000x32, .f32⟩ : BufTy).Contents (Elt F) → (⟨S1000000x32, .f32⟩ : BufTy).Contents (Elt F)),
    binary main_v28 main_v35 main_v36 (addf : (⟨S1000000x32, .f32⟩ : BufTy).Contents (Elt F) → (⟨S1000000x32, .f32⟩ : BufTy).Contents (Elt F) → (⟨S1000000x32, .f32⟩ : BufTy).Contents (Elt F)),
    nullary main_cst_4 (constant S_ .f32 0x3F800000#32),
    unary main_cst_4 main_v37 (broadcastInDim S1000000x32 ![] bcast_S_S1000000x32 : (⟨S_, .f32⟩ : BufTy).Contents (Elt F) → (⟨S1000000x32, .f32⟩ : BufTy).Contents (Elt F)),
    binary main_v37 main_v34 main_v38 (subf : (⟨S1000000x32, .f32⟩ : BufTy).Contents (Elt F) → (⟨S1000000x32, .f32⟩ : BufTy).Contents (Elt F) → (⟨S1000000x32, .f32⟩ : BufTy).Contents (Elt F)),
    binary main_v36 main_v38 main_v39 (mulf : (⟨S1000000x32, .f32⟩ : BufTy).Contents (Elt F) → (⟨S1000000x32, .f32⟩ : BufTy).Contents (Elt F) → (⟨S1000000x32, .f32⟩ : BufTy).Contents (Elt F)),
    binary main_v29 main_v34 main_v40 (mulf : (⟨S1000000x32, .f32⟩ : BufTy).Contents (Elt F) → (⟨S1000000x32, .f32⟩ : BufTy).Contents (Elt F) → (⟨S1000000x32, .f32⟩ : BufTy).Contents (Elt F)),
    binary main_v30 main_v34 main_v41 (mulf : (⟨S1000000x32, .f32⟩ : BufTy).Contents (Elt F) → (⟨S1000000x32, .f32⟩ : BufTy).Contents (Elt F) → (⟨S1000000x32, .f32⟩ : BufTy).Contents (Elt F)),
    binary main_v29 main_v39 main_v42 (mulf : (⟨S1000000x32, .f32⟩ : BufTy).Contents (Elt F) → (⟨S1000000x32, .f32⟩ : BufTy).Contents (Elt F) → (⟨S1000000x32, .f32⟩ : BufTy).Contents (Elt F)),
    binary main_v41 main_v42 main_v43 (addf : (⟨S1000000x32, .f32⟩ : BufTy).Contents (Elt F) → (⟨S1000000x32, .f32⟩ : BufTy).Contents (Elt F) → (⟨S1000000x32, .f32⟩ : BufTy).Contents (Elt F)),
    binary main_v29 main_v40 main_v44 (addf : (⟨S1000000x32, .f32⟩ : BufTy).Contents (Elt F) → (⟨S1000000x32, .f32⟩ : BufTy).Contents (Elt F) → (⟨S1000000x32, .f32⟩ : BufTy).Contents (Elt F)),
    binary main_v30 main_v43 main_v45 (addf : (⟨S1000000x32, .f32⟩ : BufTy).Contents (Elt F) → (⟨S1000000x32, .f32⟩ : BufTy).Contents (Elt F) → (⟨S1000000x32, .f32⟩ : BufTy).Contents (Elt F)),
    nullary main_cst_5 (constant S_ .f32 0x3F800000#32),
    unary main_cst_5 main_v46 (broadcastInDim S1000000x32 ![] bcast_S_S1000000x32 : (⟨S_, .f32⟩ : BufTy).Contents (Elt F) → (⟨S1000000x32, .f32⟩ : BufTy).Contents (Elt F)),
    binary main_v46 main_v34 main_v47 (subf : (⟨S1000000x32, .f32⟩ : BufTy).Contents (Elt F) → (⟨S1000000x32, .f32⟩ : BufTy).Contents (Elt F) → (⟨S1000000x32, .f32⟩ : BufTy).Contents (Elt F)),
    unary main_v39 main_v48 (Host.negf : (⟨S1000000x32, .f32⟩ : BufTy).Contents (Elt F) → (⟨S1000000x32, .f32⟩ : BufTy).Contents (Elt F)),
    binary main_v44 main_v47 main_v49 (mulf : (⟨S1000000x32, .f32⟩ : BufTy).Contents (Elt F) → (⟨S1000000x32, .f32⟩ : BufTy).Contents (Elt F) → (⟨S1000000x32, .f32⟩ : BufTy).Contents (Elt F)),
    binary main_v45 main_v47 main_v50 (mulf : (⟨S1000000x32, .f32⟩ : BufTy).Contents (Elt F) → (⟨S1000000x32, .f32⟩ : BufTy).Contents (Elt F) → (⟨S1000000x32, .f32⟩ : BufTy).Contents (Elt F)),
    binary main_v44 main_v48 main_v51 (mulf : (⟨S1000000x32, .f32⟩ : BufTy).Contents (Elt F) → (⟨S1000000x32, .f32⟩ : BufTy).Contents (Elt F) → (⟨S1000000x32, .f32⟩ : BufTy).Contents (Elt F)),
    binary main_v50 main_v51 main_v52 (addf : (⟨S1000000x32, .f32⟩ : BufTy).Contents (Elt F) → (⟨S1000000x32, .f32⟩ : BufTy).Contents (Elt F) → (⟨S1000000x32, .f32⟩ : BufTy).Contents (Elt F)) ]

/-- %53 … %78: the third layer, the same operations with W3 and b3. -/
abbrev C3 : List (HloOp τ sig (Elt F)) :=
  [ binary main_v34 main_arg5 main_v53 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v39 main_arg5 main_v54 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v49 main_arg5 main_v55 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    binary main_v52 main_arg5 main_v56 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    unary main_arg6 main_v57 (broadcastInDim S1x32 ![1] bcast_S32_S1x32_1 : (⟨S32, .f32⟩ : BufTy).Contents (Elt F) → (⟨S1x32, .f32⟩ : BufTy).Contents (Elt F)),
    unary main_v57 main_v58 (broadcastInDim S1000000x32 ![0, 1] bcast_S1x32_S1000000x32_0_1 : (⟨S1x32, .f32⟩ : BufTy).Contents (Elt F) → (⟨S1000000x32, .f32⟩ : BufTy).Contents (Elt F)),
    binary main_v53 main_v58 main_v59 (addf : (⟨S1000000x32, .f32⟩ : BufTy).Contents (Elt F) → (⟨S1000000x32, .f32⟩ : BufTy).Contents (Elt F) → (⟨S1000000x32, .f32⟩ : BufTy).Contents (Elt F)),
    unary main_v59 main_v60 (Host.tanh : (⟨S1000000x32, .f32⟩ : BufTy).Contents (Elt F) → (⟨S1000000x32, .f32⟩ : BufTy).Contents (Elt F)),
    binary main_v54 main_v60 main_v61 (mulf : (⟨S1000000x32, .f32⟩ : BufTy).Contents (Elt F) → (⟨S1000000x32, .f32⟩ : BufTy).Contents (Elt F) → (⟨S1000000x32, .f32⟩ : BufTy).Contents (Elt F)),
    binary main_v54 main_v61 main_v62 (addf : (⟨S1000000x32, .f32⟩ : BufTy).Contents (Elt F) → (⟨S1000000x32, .f32⟩ : BufTy).Contents (Elt F) → (⟨S1000000x32, .f32⟩ : BufTy).Contents (Elt F)),
    nullary main_cst_6 (constant S_ .f32 0x3F800000#32),
    unary main_cst_6 main_v63 (broadcastInDim S1000000x32 ![] bcast_S_S1000000x32 : (⟨S_, .f32⟩ : BufTy).Contents (Elt F) → (⟨S1000000x32, .f32⟩ : BufTy).Contents (Elt F)),
    binary main_v63 main_v60 main_v64 (subf : (⟨S1000000x32, .f32⟩ : BufTy).Contents (Elt F) → (⟨S1000000x32, .f32⟩ : BufTy).Contents (Elt F) → (⟨S1000000x32, .f32⟩ : BufTy).Contents (Elt F)),
    binary main_v62 main_v64 main_v65 (mulf : (⟨S1000000x32, .f32⟩ : BufTy).Contents (Elt F) → (⟨S1000000x32, .f32⟩ : BufTy).Contents (Elt F) → (⟨S1000000x32, .f32⟩ : BufTy).Contents (Elt F)),
    binary main_v55 main_v60 main_v66 (mulf : (⟨S1000000x32, .f32⟩ : BufTy).Contents (Elt F) → (⟨S1000000x32, .f32⟩ : BufTy).Contents (Elt F) → (⟨S1000000x32, .f32⟩ : BufTy).Contents (Elt F)),
    binary main_v56 main_v60 main_v67 (mulf : (⟨S1000000x32, .f32⟩ : BufTy).Contents (Elt F) → (⟨S1000000x32, .f32⟩ : BufTy).Contents (Elt F) → (⟨S1000000x32, .f32⟩ : BufTy).Contents (Elt F)),
    binary main_v55 main_v65 main_v68 (mulf : (⟨S1000000x32, .f32⟩ : BufTy).Contents (Elt F) → (⟨S1000000x32, .f32⟩ : BufTy).Contents (Elt F) → (⟨S1000000x32, .f32⟩ : BufTy).Contents (Elt F)),
    binary main_v67 main_v68 main_v69 (addf : (⟨S1000000x32, .f32⟩ : BufTy).Contents (Elt F) → (⟨S1000000x32, .f32⟩ : BufTy).Contents (Elt F) → (⟨S1000000x32, .f32⟩ : BufTy).Contents (Elt F)),
    binary main_v55 main_v66 main_v70 (addf : (⟨S1000000x32, .f32⟩ : BufTy).Contents (Elt F) → (⟨S1000000x32, .f32⟩ : BufTy).Contents (Elt F) → (⟨S1000000x32, .f32⟩ : BufTy).Contents (Elt F)),
    binary main_v56 main_v69 main_v71 (addf : (⟨S1000000x32, .f32⟩ : BufTy).Contents (Elt F) → (⟨S1000000x32, .f32⟩ : BufTy).Contents (Elt F) → (⟨S1000000x32, .f32⟩ : BufTy).Contents (Elt F)),
    nullary main_cst_7 (constant S_ .f32 0x3F800000#32),
    unary main_cst_7 main_v72 (broadcastInDim S1000000x32 ![] bcast_S_S1000000x32 : (⟨S_, .f32⟩ : BufTy).Contents (Elt F) → (⟨S1000000x32, .f32⟩ : BufTy).Contents (Elt F)),
    binary main_v72 main_v60 main_v73 (subf : (⟨S1000000x32, .f32⟩ : BufTy).Contents (Elt F) → (⟨S1000000x32, .f32⟩ : BufTy).Contents (Elt F) → (⟨S1000000x32, .f32⟩ : BufTy).Contents (Elt F)),
    unary main_v65 main_v74 (Host.negf : (⟨S1000000x32, .f32⟩ : BufTy).Contents (Elt F) → (⟨S1000000x32, .f32⟩ : BufTy).Contents (Elt F)),
    binary main_v70 main_v73 main_v75 (mulf : (⟨S1000000x32, .f32⟩ : BufTy).Contents (Elt F) → (⟨S1000000x32, .f32⟩ : BufTy).Contents (Elt F) → (⟨S1000000x32, .f32⟩ : BufTy).Contents (Elt F)),
    binary main_v71 main_v73 main_v76 (mulf : (⟨S1000000x32, .f32⟩ : BufTy).Contents (Elt F) → (⟨S1000000x32, .f32⟩ : BufTy).Contents (Elt F) → (⟨S1000000x32, .f32⟩ : BufTy).Contents (Elt F)),
    binary main_v70 main_v74 main_v77 (mulf : (⟨S1000000x32, .f32⟩ : BufTy).Contents (Elt F) → (⟨S1000000x32, .f32⟩ : BufTy).Contents (Elt F) → (⟨S1000000x32, .f32⟩ : BufTy).Contents (Elt F)),
    binary main_v76 main_v77 main_v78 (addf : (⟨S1000000x32, .f32⟩ : BufTy).Contents (Elt F) → (⟨S1000000x32, .f32⟩ : BufTy).Contents (Elt F) → (⟨S1000000x32, .f32⟩ : BufTy).Contents (Elt F)) ]

/-- %79 … %108: the fourth layer, with the one-column W4 and b4, and the four results flattened to vectors. -/
abbrev C4 : List (HloOp τ sig (Elt F)) :=
  [ binary main_v60 main_arg7 main_v79 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    binary main_v65 main_arg7 main_v80 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    binary main_v75 main_arg7 main_v81 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    binary main_v78 main_arg7 main_v82 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    unary main_arg8 main_v83 (broadcastInDim S1x1 ![1] bcast_S1_S1x1_1 : (⟨S1, .f32⟩ : BufTy).Contents (Elt F) → (⟨S1x1, .f32⟩ : BufTy).Contents (Elt F)),
    unary main_v83 main_v84 (broadcastInDim S1000000x1 ![0, 1] bcast_S1x1_S1000000x1_0_1 : (⟨S1x1, .f32⟩ : BufTy).Contents (Elt F) → (⟨S1000000x1, .f32⟩ : BufTy).Contents (Elt F)),
    binary main_v79 main_v84 main_v85 (addf : (⟨S1000000x1, .f32⟩ : BufTy).Contents (Elt F) → (⟨S1000000x1, .f32⟩ : BufTy).Contents (Elt F) → (⟨S1000000x1, .f32⟩ : BufTy).Contents (Elt F)),
    unary main_v85 main_v86 (Host.tanh : (⟨S1000000x1, .f32⟩ : BufTy).Contents (Elt F) → (⟨S1000000x1, .f32⟩ : BufTy).Contents (Elt F)),
    binary main_v80 main_v86 main_v87 (mulf : (⟨S1000000x1, .f32⟩ : BufTy).Contents (Elt F) → (⟨S1000000x1, .f32⟩ : BufTy).Contents (Elt F) → (⟨S1000000x1, .f32⟩ : BufTy).Contents (Elt F)),
    binary main_v80 main_v87 main_v88 (addf : (⟨S1000000x1, .f32⟩ : BufTy).Contents (Elt F) → (⟨S1000000x1, .f32⟩ : BufTy).Contents (Elt F) → (⟨S1000000x1, .f32⟩ : BufTy).Contents (Elt F)),
    nullary main_cst_8 (constant S_ .f32 0x3F800000#32),
    unary main_cst_8 main_v89 (broadcastInDim S1000000x1 ![] bcast_S_S1000000x1 : (⟨S_, .f32⟩ : BufTy).Contents (Elt F) → (⟨S1000000x1, .f32⟩ : BufTy).Contents (Elt F)),
    binary main_v89 main_v86 main_v90 (subf : (⟨S1000000x1, .f32⟩ : BufTy).Contents (Elt F) → (⟨S1000000x1, .f32⟩ : BufTy).Contents (Elt F) → (⟨S1000000x1, .f32⟩ : BufTy).Contents (Elt F)),
    binary main_v88 main_v90 main_v91 (mulf : (⟨S1000000x1, .f32⟩ : BufTy).Contents (Elt F) → (⟨S1000000x1, .f32⟩ : BufTy).Contents (Elt F) → (⟨S1000000x1, .f32⟩ : BufTy).Contents (Elt F)),
    binary main_v81 main_v86 main_v92 (mulf : (⟨S1000000x1, .f32⟩ : BufTy).Contents (Elt F) → (⟨S1000000x1, .f32⟩ : BufTy).Contents (Elt F) → (⟨S1000000x1, .f32⟩ : BufTy).Contents (Elt F)),
    binary main_v82 main_v86 main_v93 (mulf : (⟨S1000000x1, .f32⟩ : BufTy).Contents (Elt F) → (⟨S1000000x1, .f32⟩ : BufTy).Contents (Elt F) → (⟨S1000000x1, .f32⟩ : BufTy).Contents (Elt F)),
    binary main_v81 main_v91 main_v94 (mulf : (⟨S1000000x1, .f32⟩ : BufTy).Contents (Elt F) → (⟨S1000000x1, .f32⟩ : BufTy).Contents (Elt F) → (⟨S1000000x1, .f32⟩ : BufTy).Contents (Elt F)),
    binary main_v93 main_v94 main_v95 (addf : (⟨S1000000x1, .f32⟩ : BufTy).Contents (Elt F) → (⟨S1000000x1, .f32⟩ : BufTy).Contents (Elt F) → (⟨S1000000x1, .f32⟩ : BufTy).Contents (Elt F)),
    binary main_v81 main_v92 main_v96 (addf : (⟨S1000000x1, .f32⟩ : BufTy).Contents (Elt F) → (⟨S1000000x1, .f32⟩ : BufTy).Contents (Elt F) → (⟨S1000000x1, .f32⟩ : BufTy).Contents (Elt F)),
    binary main_v82 main_v95 main_v97 (addf : (⟨S1000000x1, .f32⟩ : BufTy).Contents (Elt F) → (⟨S1000000x1, .f32⟩ : BufTy).Contents (Elt F) → (⟨S1000000x1, .f32⟩ : BufTy).Contents (Elt F)),
    nullary main_cst_9 (constant S_ .f32 0x3F800000#32),
    unary main_cst_9 main_v98 (broadcastInDim S1000000x1 ![] bcast_S_S1000000x1 : (⟨S_, .f32⟩ : BufTy).Contents (Elt F) → (⟨S1000000x1, .f32⟩ : BufTy).Contents (Elt F)),
    binary main_v98 main_v86 main_v99 (subf : (⟨S1000000x1, .f32⟩ : BufTy).Contents (Elt F) → (⟨S1000000x1, .f32⟩ : BufTy).Contents (Elt F) → (⟨S1000000x1, .f32⟩ : BufTy).Contents (Elt F)),
    unary main_v91 main_v100 (Host.negf : (⟨S1000000x1, .f32⟩ : BufTy).Contents (Elt F) → (⟨S1000000x1, .f32⟩ : BufTy).Contents (Elt F)),
    binary main_v96 main_v99 main_v101 (mulf : (⟨S1000000x1, .f32⟩ : BufTy).Contents (Elt F) → (⟨S1000000x1, .f32⟩ : BufTy).Contents (Elt F) → (⟨S1000000x1, .f32⟩ : BufTy).Contents (Elt F)),
    binary main_v97 main_v99 main_v102 (mulf : (⟨S1000000x1, .f32⟩ : BufTy).Contents (Elt F) → (⟨S1000000x1, .f32⟩ : BufTy).Contents (Elt F) → (⟨S1000000x1, .f32⟩ : BufTy).Contents (Elt F)),
    binary main_v96 main_v100 main_v103 (mulf : (⟨S1000000x1, .f32⟩ : BufTy).Contents (Elt F) → (⟨S1000000x1, .f32⟩ : BufTy).Contents (Elt F) → (⟨S1000000x1, .f32⟩ : BufTy).Contents (Elt F)),
    binary main_v102 main_v103 main_v104 (addf : (⟨S1000000x1, .f32⟩ : BufTy).Contents (Elt F) → (⟨S1000000x1, .f32⟩ : BufTy).Contents (Elt F) → (⟨S1000000x1, .f32⟩ : BufTy).Contents (Elt F)),
    reshape main_v86 main_v105 rfl shapeCasts_S1000000x1_S1000000,
    reshape main_v91 main_v106 rfl shapeCasts_S1000000x1_S1000000,
    reshape main_v101 main_v107 rfl shapeCasts_S1000000x1_S1000000,
    reshape main_v104 main_v108 rfl shapeCasts_S1000000x1_S1000000 ]

/-- %109 … %112: the sine of the sample points, the residual, its square and the sum over the samples. -/
abbrev C5 : List (HloOp τ sig (Elt F)) :=
  [ unary main_arg0 main_v109 (Host.sin : (⟨S1000000, .f32⟩ : BufTy).Contents (Elt F) → (⟨S1000000, .f32⟩ : BufTy).Contents (Elt F)),
    binary main_v108 main_v109 main_v110 (subf : (⟨S1000000, .f32⟩ : BufTy).Contents (Elt F) → (⟨S1000000, .f32⟩ : BufTy).Contents (Elt F) → (⟨S1000000, .f32⟩ : BufTy).Contents (Elt F)),
    binary main_v110 main_v110 main_v111 (mulf : (⟨S1000000, .f32⟩ : BufTy).Contents (Elt F) → (⟨S1000000, .f32⟩ : BufTy).Contents (Elt F) → (⟨S1000000, .f32⟩ : BufTy).Contents (Elt F)),
    nullary main_cst_10 (constant S_ .f32 0x00000000#32),
    binary main_v111 main_cst_10 main_v112 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)) ]

/-- %cst_11 … %143: the division by the sample count, the network at the two boundary points, and the final sum. -/
abbrev C6 : List (HloOp τ sig (Elt F)) :=
  [ nullary main_cst_11 (constant S_ .f32 0x49742400#32),
    binary main_v112 main_cst_11 main_v113 (Host.divf : (⟨S_, .f32⟩ : BufTy).Contents (Elt F) → (⟨S_, .f32⟩ : BufTy).Contents (Elt F) → (⟨S_, .f32⟩ : BufTy).Contents (Elt F)),
    unary main_cst main_v114 (broadcastInDim S2x1 ![0] bcast_S2_S2x1_0 : (⟨S2, .f32⟩ : BufTy).Contents (Elt F) → (⟨S2x1, .f32⟩ : BufTy).Contents (Elt F)),
    binary main_v114 main_arg1 main_v115 ((fun l r => Host.dotGeneral dot_S2x1_S1x32_S2x32_1_0_0_1_n_n none l r) : (⟨S2x1, .f32⟩ : BufTy).Contents (Elt F) → (⟨S1x32, .f32⟩ : BufTy).Contents (Elt F) → (⟨S2x32, .f32⟩ : BufTy).Contents (Elt F)),
    unary main_arg2 main_v116 (broadcastInDim S1x32 ![1] bcast_S32_S1x32_1 : (⟨S32, .f32⟩ : BufTy).Contents (Elt F) → (⟨S1x32, .f32⟩ : BufTy).Contents (Elt F)),
    unary main_v116 main_v117 (broadcastInDim S2x32 ![0, 1] bcast_S1x32_S2x32_0_1 : (⟨S1x32, .f32⟩ : BufTy).Contents (Elt F) → (⟨S2x32, .f32⟩ : BufTy).Contents (Elt F)),
    binary main_v115 main_v117 main_v118 (addf : (⟨S2x32, .f32⟩ : BufTy).Contents (Elt F) → (⟨S2x32, .f32⟩ : BufTy).Contents (Elt F) → (⟨S2x32, .f32⟩ : BufTy).Contents (Elt F)),
    unary main_v118 main_v119 (Host.tanh : (⟨S2x32, .f32⟩ : BufTy).Contents (Elt F) → (⟨S2x32, .f32⟩ : BufTy).Contents (Elt F)),
    binary main_v119 main_arg3 main_v120 ((fun l r => Host.dotGeneral dot_S2x32_S32x32_S2x32_1_0_0_1_n_n none l r) : (⟨S2x32, .f32⟩ : BufTy).Contents (Elt F) → (⟨S32x32, .f32⟩ : BufTy).Contents (Elt F) → (⟨S2x32, .f32⟩ : BufTy).Contents (Elt F)),
    unary main_arg4 main_v121 (broadcastInDim S1x32 ![1] bcast_S32_S1x32_1 : (⟨S32, .f32⟩ : BufTy).Contents (Elt F) → (⟨S1x32, .f32⟩ : BufTy).Contents (Elt F)),
    unary main_v121 main_v122 (broadcastInDim S2x32 ![0, 1] bcast_S1x32_S2x32_0_1 : (⟨S1x32, .f32⟩ : BufTy).Contents (Elt F) → (⟨S2x32, .f32⟩ : BufTy).Contents (Elt F)),
    binary main_v120 main_v122 main_v123 (addf : (⟨S2x32, .f32⟩ : BufTy).Contents (Elt F) → (⟨S2x32, .f32⟩ : BufTy).Contents (Elt F) → (⟨S2x32, .f32⟩ : BufTy).Contents (Elt F)),
    unary main_v123 main_v124 (Host.tanh : (⟨S2x32, .f32⟩ : BufTy).Contents (Elt F) → (⟨S2x32, .f32⟩ : BufTy).Contents (Elt F)),
    binary main_v124 main_arg5 main_v125 ((fun l r => Host.dotGeneral dot_S2x32_S32x32_S2x32_1_0_0_1_n_n none l r) : (⟨S2x32, .f32⟩ : BufTy).Contents (Elt F) → (⟨S32x32, .f32⟩ : BufTy).Contents (Elt F) → (⟨S2x32, .f32⟩ : BufTy).Contents (Elt F)),
    unary main_arg6 main_v126 (broadcastInDim S1x32 ![1] bcast_S32_S1x32_1 : (⟨S32, .f32⟩ : BufTy).Contents (Elt F) → (⟨S1x32, .f32⟩ : BufTy).Contents (Elt F)),
    unary main_v126 main_v127 (broadcastInDim S2x32 ![0, 1] bcast_S1x32_S2x32_0_1 : (⟨S1x32, .f32⟩ : BufTy).Contents (Elt F) → (⟨S2x32, .f32⟩ : BufTy).Contents (Elt F)),
    binary main_v125 main_v127 main_v128 (addf : (⟨S2x32, .f32⟩ : BufTy).Contents (Elt F) → (⟨S2x32, .f32⟩ : BufTy).Contents (Elt F) → (⟨S2x32, .f32⟩ : BufTy).Contents (Elt F)),
    unary main_v128 main_v129 (Host.tanh : (⟨S2x32, .f32⟩ : BufTy).Contents (Elt F) → (⟨S2x32, .f32⟩ : BufTy).Contents (Elt F)),
    binary main_v129 main_arg7 main_v130 ((fun l r => Host.dotGeneral dot_S2x32_S32x1_S2x1_1_0_0_1_n_n none l r) : (⟨S2x32, .f32⟩ : BufTy).Contents (Elt F) → (⟨S32x1, .f32⟩ : BufTy).Contents (Elt F) → (⟨S2x1, .f32⟩ : BufTy).Contents (Elt F)),
    unary main_arg8 main_v131 (broadcastInDim S1x1 ![1] bcast_S1_S1x1_1 : (⟨S1, .f32⟩ : BufTy).Contents (Elt F) → (⟨S1x1, .f32⟩ : BufTy).Contents (Elt F)),
    unary main_v131 main_v132 (broadcastInDim S2x1 ![0, 1] bcast_S1x1_S2x1_0_1 : (⟨S1x1, .f32⟩ : BufTy).Contents (Elt F) → (⟨S2x1, .f32⟩ : BufTy).Contents (Elt F)),
    binary main_v130 main_v132 main_v133 (addf : (⟨S2x1, .f32⟩ : BufTy).Contents (Elt F) → (⟨S2x1, .f32⟩ : BufTy).Contents (Elt F) → (⟨S2x1, .f32⟩ : BufTy).Contents (Elt F)),
    unary main_v133 main_v134 (Host.tanh : (⟨S2x1, .f32⟩ : BufTy).Contents (Elt F) → (⟨S2x1, .f32⟩ : BufTy).Contents (Elt F)),
    reshape main_v134 main_v135 rfl shapeCasts_S2x1_S2,
    unary main_v135 main_v136 ((extractStridedSlice S1 ![0] · slices_S2_S1_0) : (⟨S2, .f32⟩ : BufTy).Contents (Elt F) → (⟨S1, .f32⟩ : BufTy).Contents (Elt F)),
    reshape main_v136 main_v137 rfl shapeCasts_S1_S_,
    binary main_v137 main_v137 main_v138 (mulf : (⟨S_, .f32⟩ : BufTy).Contents (Elt F) → (⟨S_, .f32⟩ : BufTy).Contents (Elt F) → (⟨S_, .f32⟩ : BufTy).Contents (Elt F)),
    binary main_v113 main_v138 main_v139 (addf : (⟨S_, .f32⟩ : BufTy).Contents (Elt F) → (⟨S_, .f32⟩ : BufTy).Contents (Elt F) → (⟨S_, .f32⟩ : BufTy).Contents (Elt F)),
    unary main_v135 main_v140 ((extractStridedSlice S1 ![1] · slices_S2_S1_1) : (⟨S2, .f32⟩ : BufTy).Contents (Elt F) → (⟨S1, .f32⟩ : BufTy).Contents (Elt F)),
    reshape main_v140 main_v141 rfl shapeCasts_S1_S_,
    binary main_v141 main_v141 main_v142 (mulf : (⟨S_, .f32⟩ : BufTy).Contents (Elt F) → (⟨S_, .f32⟩ : BufTy).Contents (Elt F) → (⟨S_, .f32⟩ : BufTy).Contents (Elt F)),
    binary main_v139 main_v142 main_v143 (addf : (⟨S_, .f32⟩ : BufTy).Contents (Elt F) → (⟨S_, .f32⟩ : BufTy).Contents (Elt F) → (⟨S_, .f32⟩ : BufTy).Contents (Elt F)) ]

/-- The whole program's operations, in order. -/
abbrev ops : List (HloOp τ sig (Elt F)) := C1 ++ C2 ++ C3 ++ C4 ++ C5 ++ C6

/-- The buffer contents after two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole list, piece by piece. -/
theorem after_ops (V : Valuation τ sig (Elt F)) :
    after ops V = after C6 (after C5 (after C4 (after C3 (after C2 (after C1 V))))) := by
  simp only [ops, after_append]

set_option maxRecDepth 100000 in
/-- The program is the run of its list of operations: its three windows run one after the other. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- An operation whose one written buffer is the reference y, y in the list W, writes inside W. -/
theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

local macro "wr" : term => `(writes_sub_of_mem rfl (by decide))

theorem C1_sub : (C1 : List (HloOp τ sig (Elt F))).Forall fun op => op.bufs ⊆ tcRefs τ sig :=
  ⟨nullary_bufs_sub .., nullary_bufs_sub .., unary_bufs_sub .., nullary_bufs_sub .., unary_bufs_sub .., unary_bufs_sub .., unary_bufs_sub .., unary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

theorem C2_sub : (C2 : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

theorem C3_sub : (C3 : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub ..⟩

theorem C4_sub : (C4 : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., reshape_bufs_sub .., reshape_bufs_sub .., reshape_bufs_sub .., reshape_bufs_sub ..⟩

theorem C5_sub : (C5 : List (HloOp τ sig (Elt F))).Forall fun op => op.bufs ⊆ tcRefs τ sig :=
  ⟨unary_bufs_sub .., binary_bufs_sub .., binary_bufs_sub .., nullary_bufs_sub .., binary_bufs_sub ..⟩

theorem C6_sub : (C6 : List (HloOp τ sig (Elt F))).Forall fun op => op.bufs ⊆ tcRefs τ sig :=
  ⟨nullary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub ..⟩

/-- The buffers the piece C1 writes, in order. -/
abbrev W1 : List (Ref sig .tc) :=
  [main_cst, main_cst_0, main_v0, main_cst_1, main_v1, main_v2, main_v3, main_v4, main_v5, main_v6, main_v7, main_v8, main_v9, main_v10, main_v11, main_v12, main_v13, main_cst_2, main_v14, main_v15, main_v16, main_v17, main_v18, main_v19, main_cst_3, main_v20, main_v21, main_v22, main_v23, main_v24, main_v25, main_v26]

theorem C1_writes : (C1 : List (HloOp τ sig (Elt F))).Forall fun op => op.writes ⊆ (W1.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr⟩

/-- A buffer the piece C1 does not write keeps its contents. -/
theorem C1_keeps (V : Valuation τ sig (Elt F)) {r : Ref sig .tc} (hr : r ∉ W1) :
    after C1 V (Proc.devRef .tc r) = V (Proc.devRef .tc r) :=
  after_of_writes_sub C1 V C1_writes hr

/-- The buffers the piece C2 writes, in order. -/
abbrev W2 : List (Ref sig .tc) :=
  [main_v27, main_v28, main_v29, main_v30, main_v31, main_v32, main_v33, main_v34, main_v35, main_v36, main_cst_4, main_v37, main_v38, main_v39, main_v40, main_v41, main_v42, main_v43, main_v44, main_v45, main_cst_5, main_v46, main_v47, main_v48, main_v49, main_v50, main_v51, main_v52]

theorem C2_writes : (C2 : List (HloOp τ sig (Elt F))).Forall fun op => op.writes ⊆ (W2.map (Proc.devRef (τ := τ) .tc)).toFinset :=
  ⟨wr, wr, wr, wr, wr, wr, wr, wr, wr, wr, wr, wr, wr, wr, wr, wr, wr, wr, wr, wr, wr, wr, wr, wr, wr, wr, wr, wr⟩

/-- A buffer the piece C2 does not write keeps its contents. -/
theorem C2_keeps (V : Valuation τ sig (Elt F)) {r : Ref sig .tc} (hr : r ∉ W2) :
    after C2 V (Proc.devRef .tc r) = V (Proc.devRef .tc r) :=
  after_of_writes_sub C2 V C2_writes hr

/-- The buffers the piece C3 writes, in order. -/
abbrev W3 : List (Ref sig .tc) :=
  [main_v53, main_v54, main_v55, main_v56, main_v57, main_v58, main_v59, main_v60, main_v61, main_v62, main_cst_6, main_v63, main_v64, main_v65, main_v66, main_v67, main_v68, main_v69, main_v70, main_v71, main_cst_7, main_v72, main_v73, main_v74, main_v75, main_v76, main_v77, main_v78]

theorem C3_writes : (C3 : List (HloOp τ sig (Elt F))).Forall fun op => op.writes ⊆ (W3.map (Proc.devRef (τ := τ) .tc)).toFinset :=
  ⟨wr, wr, wr, wr, wr, wr, wr, wr, wr, wr, wr, wr, wr, wr, wr, wr, wr, wr, wr, wr, wr, wr, wr, wr, wr, wr, wr, wr⟩

/-- A buffer the piece C3 does not write keeps its contents. -/
theorem C3_keeps (V : Valuation τ sig (Elt F)) {r : Ref sig .tc} (hr : r ∉ W3) :
    after C3 V (Proc.devRef .tc r) = V (Proc.devRef .tc r) :=
  after_of_writes_sub C3 V C3_writes hr

/-- The buffers the piece C4 writes, in order. -/
abbrev W4 : List (Ref sig .tc) :=
  [main_v79, main_v80, main_v81, main_v82, main_v83, main_v84, main_v85, main_v86, main_v87, main_v88, main_cst_8, main_v89, main_v90, main_v91, main_v92, main_v93, main_v94, main_v95, main_v96, main_v97, main_cst_9, main_v98, main_v99, main_v100, main_v101, main_v102, main_v103, main_v104, main_v105, main_v106, main_v107, main_v108]

theorem C4_writes : (C4 : List (HloOp τ sig (Elt F))).Forall fun op => op.writes ⊆ (W4.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr⟩

/-- A buffer the piece C4 does not write keeps its contents. -/
theorem C4_keeps (V : Valuation τ sig (Elt F)) {r : Ref sig .tc} (hr : r ∉ W4) :
    after C4 V (Proc.devRef .tc r) = V (Proc.devRef .tc r) :=
  after_of_writes_sub C4 V C4_writes hr

/-- The buffers the piece C5 writes, in order. -/
abbrev W5 : List (Ref sig .tc) :=
  [main_v109, main_v110, main_v111, main_cst_10, main_v112]

theorem C5_writes : (C5 : List (HloOp τ sig (Elt F))).Forall fun op => op.writes ⊆ (W5.map (Proc.devRef (τ := τ) .tc)).toFinset :=
  ⟨wr, wr, wr, wr, wr⟩

/-- A buffer the piece C5 does not write keeps its contents. -/
theorem C5_keeps (V : Valuation τ sig (Elt F)) {r : Ref sig .tc} (hr : r ∉ W5) :
    after C5 V (Proc.devRef .tc r) = V (Proc.devRef .tc r) :=
  after_of_writes_sub C5 V C5_writes hr

/-- The buffers the piece C6 writes, in order. -/
abbrev W6 : List (Ref sig .tc) :=
  [main_cst_11, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143]

theorem C6_writes : (C6 : List (HloOp τ sig (Elt F))).Forall fun op => op.writes ⊆ (W6.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr⟩

/-- A buffer the piece C6 does not write keeps its contents. -/
theorem C6_keeps (V : Valuation τ sig (Elt F)) {r : Ref sig .tc} (hr : r ∉ W6) :
    after C6 V (Proc.devRef .tc r) = V (Proc.devRef .tc r) :=
  after_of_writes_sub C6 V C6_writes hr

theorem C1_fresh : (C1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem C2_fresh : (C2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem C3_fresh : (C3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem C4_fresh : (C4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem C5_fresh : (C5 : List (HloOp τ sig (Elt F))).Forall fun op => op.fresh = ∅ :=
  ⟨rfl, rfl, rfl, rfl, rfl⟩

theorem C6_fresh : (C6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore buffers only. -/
theorem ops_sub : (ops : List (HloOp τ sig (Elt F))).Forall fun op => op.bufs ⊆ tcRefs τ sig := by
  simp only [ops, List.forall_append]
  exact ⟨⟨⟨⟨⟨C1_sub, C2_sub⟩, C3_sub⟩, C4_sub⟩, C5_sub⟩, C6_sub⟩

/-- Every operation determines its results: none leaves a buffer's contents open. -/
theorem ops_fresh : ∀ op ∈ (ops : List (HloOp τ sig (Elt F))), op.fresh = ∅ := by
  refine List.forall_iff_forall_mem.mp ?_
  simp only [ops, List.forall_append]
  exact ⟨⟨⟨⟨⟨C1_fresh, C2_fresh⟩, C3_fresh⟩, C4_fresh⟩, C5_fresh⟩, C6_fresh⟩

end Cert.RefSide

end
-- ==== Proof.Spec.lean ====
/-
  The quantity both programs compute, written once on the extended reals.

  A network  u(x) = tanh(W4ᵀ tanh(W3ᵀ tanh(W2ᵀ tanh(W1ᵀ x + b1) + b2) + b3) + b4)  of one real variable is
  differentiated twice in x at every sample point, and the mean over the samples of (u''(x) − sin x)² is formed.
  Through one layer  a ↦ tanh(Wᵀ a + b)  three arrays travel: the activations a, their derivative d and their
  second derivative q. The affine part acts on the three alike (lin: a contraction with W, the bias only on the
  activations); only the way the derivatives of tanh are spelt differs between the two programs:

    • the hand-derived form, with h = tanh z and t = 1 − h·h:   d' = t·g,   q' = ((−2)·h)·t·(g·g) + t·p;
    • the form automatic differentiation gives, from the rule  ∂tanh: g ↦ (g + g·h)·(1 − h)  applied and then
      differentiated once more:   d' = (g + g·h)·(1 − h),
      q' = (p + (p·h + g·d'))·(1 − h) + (g + g·h)·(−d').

  On real numbers the two agree (expand the products); on the extended reals the expansion needs every quantity
  finite, which is why the equality is stated for real weights and real sample points only (PointMath).
  chain is the computation through the four layers with the spelling left as a parameter, resid the residual
  u''(x) − sin x at one sample.
-/
import Idealize.ShloMosaic.PureOps.Ideal

noncomputable section

open scoped BigOperators

namespace Cert.Pde

open Idealize.ShloMosaic

/-- The network's weights on plain indices: w1 j is W1[0, j], w2 k j is W2[k, j] (input feature k, output
    feature j), w4 k is W4[k, 0]. -/
structure Net where
  w1 : Fin 32 → EReal
  b1 : Fin 32 → EReal
  w2 : Fin 32 → Fin 32 → EReal
  b2 : Fin 32 → EReal
  w3 : Fin 32 → Fin 32 → EReal
  b3 : Fin 32 → EReal
  w4 : Fin 32 → EReal
  b4 : EReal

/-- The contraction of a feature vector with a weight matrix: output feature j is ∑ₖ a k · w k j. -/
def lin {K J : Type} [Fintype K] (w : K → J → EReal) (a : K → EReal) (j : J) : EReal := ∑ k, a k * w k j

/-- How a program spells the first and second derivative of tanh z along a direction: D z g from the
    pre-activation z and its derivative g; Q z g p also from its second derivative p; Q1 z g where the
    pre-activation is affine in x and has no second derivative. -/
structure Spelling where
  D : EReal → EReal → EReal
  Q1 : EReal → EReal → EReal
  Q : EReal → EReal → EReal → EReal

/-- The hand-derived spelling: t = 1 − h·h, d' = t·g, q' = ((−2)·h)·t·(g·g) + t·p. -/
def handForm : Spelling where
  D z g := (1 - Ideal.tanh z * Ideal.tanh z) * g
  Q1 z g := (-2 : EReal) * Ideal.tanh z * (1 - Ideal.tanh z * Ideal.tanh z) * (g * g)
  Q z g p := (-2 : EReal) * Ideal.tanh z * (1 - Ideal.tanh z * Ideal.tanh z) * (g * g)
    + (1 - Ideal.tanh z * Ideal.tanh z) * p

/-- The spelling automatic differentiation produces from the rule g ↦ (g + g·h)·(1 − h). -/
def autoForm : Spelling where
  D z g := (g + g * Ideal.tanh z) * (1 - Ideal.tanh z)
  Q1 z g := g * ((g + g * Ideal.tanh z) * (1 - Ideal.tanh z)) * (1 - Ideal.tanh z)
    + (g + g * Ideal.tanh z) * -((g + g * Ideal.tanh z) * (1 - Ideal.tanh z))
  Q z g p := (p + (p * Ideal.tanh z + g * ((g + g * Ideal.tanh z) * (1 - Ideal.tanh z)))) * (1 - Ideal.tanh z)
    + (g + g * Ideal.tanh z) * -((g + g * Ideal.tanh z) * (1 - Ideal.tanh z))

/-- What travels through a layer: the activations, their derivative in x and their second derivative. -/
structure Jet (J : Type) where
  a : J → EReal
  d : J → EReal
  q : J → EReal

/-- The first layer, whose pre-activation x·w1 + b1 is affine in x: derivative w1, no second derivative. -/
def layer1 (S : Spelling) (N : Net) (x : EReal) : Jet (Fin 32) where
  a j := Ideal.tanh (x * N.w1 j + N.b1 j)
  d j := S.D (x * N.w1 j + N.b1 j) (N.w1 j)
  q j := S.Q1 (x * N.w1 j + N.b1 j) (N.w1 j)

/-- A later layer: contract the three arrays with the weights, add the bias to the activations' one, apply tanh
    and its derivatives in the program's spelling. -/
def layer {K J : Type} [Fintype K] (S : Spelling) (w : K → J → EReal) (b : J → EReal) (s : Jet K) : Jet J where
  a j := Ideal.tanh (lin w s.a j + b j)
  d j := S.D (lin w s.a j + b j) (lin w s.d j)
  q j := S.Q (lin w s.a j + b j) (lin w s.d j) (lin w s.q j)

/-- The four layers: 1 → 32 → 32 → 32 → 1. -/
def chain (S : Spelling) (N : Net) (x : EReal) : Jet Unit :=
  layer S (fun k _ => N.w4 k) (fun _ => N.b4) (layer S N.w3 N.b3 (layer S N.w2 N.b2 (layer1 S N x)))

/-- The residual of the equation u'' = sin at the sample x. -/
def resid (S : Spelling) (N : Net) (x : EReal) : EReal := (chain S N x).q () - Ideal.sin x

/-- Every weight and bias is a real number. -/
structure Net.Real (N : Net) : Prop where
  w1 : ∀ j, ∃ r : ℝ, N.w1 j = r
  b1 : ∀ j, ∃ r : ℝ, N.b1 j = r
  w2 : ∀ k j, ∃ r : ℝ, N.w2 k j = r
  b2 : ∀ j, ∃ r : ℝ, N.b2 j = r
  w3 : ∀ k j, ∃ r : ℝ, N.w3 k j = r
  b3 : ∀ j, ∃ r : ℝ, N.b3 j = r
  w4 : ∀ k, ∃ r : ℝ, N.w4 k = r
  b4 : ∃ r : ℝ, N.b4 = r

end Cert.Pde

end
-- ==== Proof.Net.lean ====
/-
  The network's weights read off the argument arrays.

  The arrays arrive as W1 : [1, 32], b1 : [32], W2, W3 : [32, 32], b2, b3 : [32], W4 : [32, 1], b4 : [1], every matrix
  laid out as (input feature, output feature); the sample points as x : [1000000].
-/
import proofs.«115291_j3839700763115_2_alg».proof.Proof.Spec
import Idealize.ShloMosaic.Lib.ValueIdx

noncomputable section

namespace Cert.Pde

open Idealize.ShloMosaic Idealize.ShloMosaic.ValueIdx

/-- The weights of the network, each read at its coordinates in the argument arrays. -/
def netOf (W1 : (⟨2, ![1, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (W4 : (⟨2, ![32, 1]⟩ : Shape).Idx → EReal) (b4 : (⟨1, ![1]⟩ : Shape).Idx → EReal) : Net where
  w1 j := W1 (ix2 (0 : Fin 1) j)
  b1 j := b1 (ix1 j)
  w2 k j := W2 (ix2 k j)
  b2 j := b2 (ix1 j)
  w3 k j := W3 (ix2 k j)
  b3 j := b3 (ix1 j)
  w4 k := W4 (ix2 k (0 : Fin 1))
  b4 := b4 (ix1 (0 : Fin 1))

/-- Real argument arrays give real weights. -/
theorem netOf_real {W1 : (⟨2, ![1, 32]⟩ : Shape).Idx → EReal} {b1 : (⟨1, ![32]⟩ : Shape).Idx → EReal}
    {W2 : (⟨2, ![32, 32]⟩ : Shape).Idx → EReal} {b2 : (⟨1, ![32]⟩ : Shape).Idx → EReal}
    {W3 : (⟨2, ![32, 32]⟩ : Shape).Idx → EReal} {b3 : (⟨1, ![32]⟩ : Shape).Idx → EReal}
    {W4 : (⟨2, ![32, 1]⟩ : Shape).Idx → EReal} {b4 : (⟨1, ![1]⟩ : Shape).Idx → EReal}
    (h1 : ∀ i, ∃ r : ℝ, W1 i = r) (h2 : ∀ i, ∃ r : ℝ, b1 i = r) (h3 : ∀ i, ∃ r : ℝ, W2 i = r)
    (h4 : ∀ i, ∃ r : ℝ, b2 i = r) (h5 : ∀ i, ∃ r : ℝ, W3 i = r) (h6 : ∀ i, ∃ r : ℝ, b3 i = r)
    (h7 : ∀ i, ∃ r : ℝ, W4 i = r) (h8 : ∀ i, ∃ r : ℝ, b4 i = r) :
    (netOf W1 b1 W2 b2 W3 b3 W4 b4).Real :=
  ⟨fun _ => h1 _, fun _ => h2 _, fun _ _ => h3 _, fun _ => h4 _, fun _ _ => h5 _, fun _ => h6 _, fun _ => h7 _, h8 _⟩

end Cert.Pde

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.RefLayers.lean ====
/-
  The arrays that travel through the network, each as a function of the arrays before it, and each read at one entry.

  Through a layer  a ↦ tanh(a·W + b)  go the activations, their derivative along x and their second derivative. The
  derivative of tanh z along a direction g is formed as (g + g·h)·(1 − h) with h = tanh z; differentiating that
  expression once more along the same direction, with p the second derivative of z, gives
  (p + (p·h + g·d))·(1 − h) + (g + g·h)·(−d), d being the first derivative just formed. In the first layer z = x·W1 + b1
  is affine in x: its derivative is the row W1 and it has no second derivative, so the p-terms are absent.

  The first half of this file names these elementwise expressions once, for arrays of any shape, and reads them at an
  entry: they are the spelling `autoForm` of the specification. The second half names the contractions with the weight
  matrices at the program's shapes and reads a whole layer at the entry (n, j): row n of the three incoming arrays is
  all that entry depends on, and it is the specification's `layer` applied to that row.
-/
import proofs.«115291_j3839700763115_2_alg».proof.ReferenceIdeal
import proofs.«115291_j3839700763115_2_alg».proof.Proof.Spec
import proofs.«115291_j3839700763115_2_alg».proof.Proof.Net
import proofs.«115291_j3839700763115_2_alg».proof.Proof.LibPlainDot
import Idealize.ShloMosaic.Lib.IdealHost
import Idealize.ShloMosaic.Lib.Pipeline.Value
import Idealize.ShloMosaic.Lib.ValueIdx

noncomputable section

open scoped BigOperators

namespace Cert.RefSide

open Cert.ReferenceIdeal Cert.ReferenceIdeal.Facts₀ Idealize.ShloMosaic Idealize.ShloMosaic.ValueIdx Cert.Pde

variable [Facts]

/-! ## The derivatives of tanh, elementwise, on arrays of any shape -/

section Elementwise

variable {s : Shape} (hb : S_.BroadcastsInDim s (![] : Fin 0 → Fin s.rank))

/-- The array of ones: the scalar word of 1.0 spread over the shape. -/
def ones : FVec Ideal s .f32 := broadcastInDim s ![] hb (constant (F := Ideal) S_ .f32 0x3F800000#32)

/-- Every entry of it is the extended real 1. -/
theorem ones_apply (i : s.Idx) : ones hb i = 1 := by
  unfold ones
  rw [broadcastInDim_scalar_apply]
  exact Ideal.ofBits_one_f32

/-- The derivative of tanh z along g: (g + g·h)·(1 − h), h = tanh z. -/
def dOf (z g : FVec Ideal s .f32) : FVec Ideal s .f32 :=
  mulf (addf g (mulf g (Host.tanh z))) (subf (ones hb) (Host.tanh z))

/-- The second derivative of tanh z along g when z has none of its own: (g·d)·(1 − h) + (g + g·h)·(−d), where d is
    the first derivative. -/
def q1Of (z g d : FVec Ideal s .f32) : FVec Ideal s .f32 :=
  addf (mulf (mulf g d) (subf (ones hb) (Host.tanh z))) (mulf (addf g (mulf g (Host.tanh z))) (Host.negf d))

/-- The second derivative of tanh z along g when z has second derivative p:
    (p + (p·h + g·d))·(1 − h) + (g + g·h)·(−d). -/
def qOf (z g p d : FVec Ideal s .f32) : FVec Ideal s .f32 :=
  addf (mulf (addf p (addf (mulf p (Host.tanh z)) (mulf g d))) (subf (ones hb) (Host.tanh z)))
    (mulf (addf g (mulf g (Host.tanh z))) (Host.negf d))

/-- At an entry the first derivative is the specification's D: sums, products and differences of arrays are entry by
    entry, tanh too, and the ones are 1. -/
theorem dOf_apply (z g : FVec Ideal s .f32) (i : s.Idx) : dOf hb z g i = autoForm.D (z i) (g i) := by
  show (g i + g i * Ideal.tanh (z i)) * (ones hb i - Ideal.tanh (z i)) = _
  rw [ones_apply]
  rfl

/-- At an entry the second derivative without p, fed the first derivative along the same direction, is the
    specification's Q1. -/
theorem q1Of_apply (z g : FVec Ideal s .f32) (i : s.Idx) : q1Of hb z g (dOf hb z g) i = autoForm.Q1 (z i) (g i) := by
  show g i * dOf hb z g i * (ones hb i - Ideal.tanh (z i)) + (g i + g i * Ideal.tanh (z i)) * -(dOf hb z g i) = _
  rw [dOf_apply, ones_apply]
  rfl

/-- At an entry the second derivative with p, fed the first derivative along the same direction, is the
    specification's Q. -/
theorem qOf_apply (z g p : FVec Ideal s .f32) (i : s.Idx) :
    qOf hb z g p (dOf hb z g) i = autoForm.Q (z i) (g i) (p i) := by
  show (p i + (p i * Ideal.tanh (z i) + g i * dOf hb z g i)) * (ones hb i - Ideal.tanh (z i))
      + (g i + g i * Ideal.tanh (z i)) * -(dOf hb z g i) = _
  rw [dOf_apply, ones_apply]
  rfl

end Elementwise

/-! ## A bias spread over the rows -/

/-- A bias vector of 32 entries laid along every row of a [1000000, 32] array. -/
def bias32 (b : FVec Ideal S32 .f32) : FVec Ideal S1000000x32 .f32 :=
  broadcastInDim S1000000x32 ![0, 1] bcast_S1x32_S1000000x32_0_1 (broadcastInDim S1x32 ![1] bcast_S32_S1x32_1 b)

/-- Entry (n, j) of it is b j, whatever the row. -/
theorem bias32_apply (b : FVec Ideal S32 .f32) (n : Fin 1000000) (j : Fin 32) : bias32 b (ix2 n j) = b (ix1 j) := by
  unfold bias32
  rw [broadcastInDim_apply _ _ _ (ix2 n j) (ix2 (0 : Fin 1) j) fun a => by
        match a with
        | ⟨0, _⟩ => rfl
        | ⟨1, _⟩ => rfl,
      broadcastInDim_apply _ _ _ (ix2 (0 : Fin 1) j) (ix1 j) fun a => by
        match a with
        | ⟨0, _⟩ => rfl]

/-- The one bias of the last layer laid along the one column of a [1000000, 1] array. -/
def bias1 (b : FVec Ideal S1 .f32) : FVec Ideal S1000000x1 .f32 :=
  broadcastInDim S1000000x1 ![0, 1] bcast_S1x1_S1000000x1_0_1 (broadcastInDim S1x1 ![1] bcast_S1_S1x1_1 b)

/-- Every entry of it is that bias. -/
theorem bias1_apply (b : FVec Ideal S1 .f32) (n : Fin 1000000) : bias1 b (ix2 n (0 : Fin 1)) = b (ix1 (0 : Fin 1)) := by
  unfold bias1
  rw [broadcastInDim_apply _ _ _ (ix2 n (0 : Fin 1)) (ix2 (0 : Fin 1) (0 : Fin 1)) fun a => by
        match a with
        | ⟨0, _⟩ => rfl
        | ⟨1, _⟩ => rfl,
      broadcastInDim_apply _ _ _ (ix2 (0 : Fin 1) (0 : Fin 1)) (ix1 (0 : Fin 1)) fun a => by
        match a with
        | ⟨0, _⟩ => rfl]

/-! ## The first layer: one input feature -/

/-- The sample points as a column: a [1000000, 1] array whose entry (n, 0) is x n. -/
def col (x : FVec Ideal S1000000 .f32) : FVec Ideal S1000000x1 .f32 :=
  broadcastInDim S1000000x1 ![0] bcast_S1000000_S1000000x1_0 x

theorem col_apply (x : FVec Ideal S1000000 .f32) (n : Fin 1000000) : col x (ix2 n (0 : Fin 1)) = x (ix1 n) := by
  unfold col
  exact broadcastInDim_apply _ _ _ (ix2 n (0 : Fin 1)) (ix1 n) fun a => by
    match a with
    | ⟨0, _⟩ => rfl

/-- A column times the one-row matrix W1. -/
def dot1 (c : FVec Ideal S1000000x1 .f32) (W : FVec Ideal S1x32 .f32) : FVec Ideal S1000000x32 .f32 :=
  Host.dotGeneral (F := Ideal) dot_S1000000x1_S1x32_S1000000x32_1_0_0_1_n_n none c W

/-- The contraction runs over the single input feature: entry (n, j) is c n · W1[0, j]. -/
theorem dot1_apply (c : FVec Ideal S1000000x1 .f32) (W : FVec Ideal S1x32 .f32) (n : Fin 1000000) (j : Fin 32) :
    dot1 c W (ix2 n j) = c (ix2 n (0 : Fin 1)) * W (ix2 (0 : Fin 1) j) := by
  unfold dot1
  rw [Cert.PlainDot.dotGeneral_apply _ ⟨rfl, rfl, rfl, rfl, rfl, rfl⟩, Fin.sum_univ_one]

/-- The first layer's pre-activation x·W1 + b1. -/
def pre1 (x : FVec Ideal S1000000 .f32) (W : FVec Ideal S1x32 .f32) (b : FVec Ideal S32 .f32) : FVec Ideal S1000000x32 .f32 :=
  addf (dot1 (col x) W) (bias32 b)

theorem pre1_apply (x : FVec Ideal S1000000 .f32) (W : FVec Ideal S1x32 .f32) (b : FVec Ideal S32 .f32)
    (n : Fin 1000000) (j : Fin 32) : pre1 x W b (ix2 n j) = x (ix1 n) * W (ix2 (0 : Fin 1) j) + b (ix1 j) := by
  show dot1 (col x) W (ix2 n j) + bias32 b (ix2 n j) = _
  rw [dot1_apply, col_apply, bias32_apply]

/-- The derivative of the pre-activation along x: the direction 1 at every sample, as a column, times W1. -/
def tan1 (W : FVec Ideal S1x32 .f32) : FVec Ideal S1000000x32 .f32 := dot1 (col (ones bcast_S_S1000000)) W

/-- It is the row W1 at every sample: 1 · W1[0, j]. -/
theorem tan1_apply (W : FVec Ideal S1x32 .f32) (n : Fin 1000000) (j : Fin 32) : tan1 W (ix2 n j) = W (ix2 (0 : Fin 1) j) := by
  unfold tan1
  rw [dot1_apply, col_apply, ones_apply, one_mul]

/-- What leaves the first layer: the activations, their derivative and their second derivative. -/
def act1 (x : FVec Ideal S1000000 .f32) (W : FVec Ideal S1x32 .f32) (b : FVec Ideal S32 .f32) : FVec Ideal S1000000x32 .f32 :=
  Host.tanh (pre1 x W b)
def der1 (x : FVec Ideal S1000000 .f32) (W : FVec Ideal S1x32 .f32) (b : FVec Ideal S32 .f32) : FVec Ideal S1000000x32 .f32 :=
  dOf bcast_S_S1000000x32 (pre1 x W b) (tan1 W)
def sec1 (x : FVec Ideal S1000000 .f32) (W : FVec Ideal S1x32 .f32) (b : FVec Ideal S32 .f32) : FVec Ideal S1000000x32 .f32 :=
  q1Of bcast_S_S1000000x32 (pre1 x W b) (tan1 W) (der1 x W b)

/-- Row n of the three arrays leaving the first layer is the specification's first layer at the sample x n, for a
    network whose first weights and biases are W1[0, ·] and b1. -/
theorem layer1_read (x : FVec Ideal S1000000 .f32) (W : FVec Ideal S1x32 .f32) (b : FVec Ideal S32 .f32) (N : Net)
    (hw : ∀ j, N.w1 j = W (ix2 (0 : Fin 1) j)) (hbias : ∀ j, N.b1 j = b (ix1 j)) (n : Fin 1000000) (j : Fin 32) :
    act1 x W b (ix2 n j) = (layer1 autoForm N (x (ix1 n))).a j
      ∧ der1 x W b (ix2 n j) = (layer1 autoForm N (x (ix1 n))).d j
      ∧ sec1 x W b (ix2 n j) = (layer1 autoForm N (x (ix1 n))).q j := by
  refine ⟨?_, ?_, ?_⟩
  · show Ideal.tanh (pre1 x W b (ix2 n j)) = Ideal.tanh (x (ix1 n) * N.w1 j + N.b1 j)
    rw [pre1_apply, hw, hbias]
  · show dOf bcast_S_S1000000x32 (pre1 x W b) (tan1 W) (ix2 n j) = autoForm.D (x (ix1 n) * N.w1 j + N.b1 j) (N.w1 j)
    rw [dOf_apply, pre1_apply, tan1_apply, hw, hbias]
  · show q1Of bcast_S_S1000000x32 (pre1 x W b) (tan1 W) (dOf bcast_S_S1000000x32 (pre1 x W b) (tan1 W)) (ix2 n j)
        = autoForm.Q1 (x (ix1 n) * N.w1 j + N.b1 j) (N.w1 j)
    rw [q1Of_apply, pre1_apply, tan1_apply, hw, hbias]

/-! ## A middle layer: 32 features in, 32 out -/

/-- A [1000000, 32] array times a [32, 32] weight matrix. -/
def dot32 (a : FVec Ideal S1000000x32 .f32) (W : FVec Ideal S32x32 .f32) : FVec Ideal S1000000x32 .f32 :=
  Host.dotGeneral (F := Ideal) dot_S1000000x32_S32x32_S1000000x32_1_0_0_1_n_n none a W

/-- Entry (n, j) of the product contracts row n with column j of the weights: the specification's `lin`. -/
theorem dot32_apply (a : FVec Ideal S1000000x32 .f32) (W : FVec Ideal S32x32 .f32) (n : Fin 1000000) (j : Fin 32) :
    dot32 a W (ix2 n j) = lin (fun k j => W (ix2 k j)) (fun k => a (ix2 n k)) j := by
  unfold dot32 lin
  exact Cert.PlainDot.dotGeneral_apply _ ⟨rfl, rfl, rfl, rfl, rfl, rfl⟩ none a W n j

/-- The pre-activation a·W + b. -/
def pre32 (W : FVec Ideal S32x32 .f32) (b : FVec Ideal S32 .f32) (a : FVec Ideal S1000000x32 .f32) : FVec Ideal S1000000x32 .f32 :=
  addf (dot32 a W) (bias32 b)

theorem pre32_apply (W : FVec Ideal S32x32 .f32) (b : FVec Ideal S32 .f32) (a : FVec Ideal S1000000x32 .f32)
    (n : Fin 1000000) (j : Fin 32) :
    pre32 W b a (ix2 n j) = lin (fun k j => W (ix2 k j)) (fun k => a (ix2 n k)) j + b (ix1 j) := by
  show dot32 a W (ix2 n j) + bias32 b (ix2 n j) = _
  rw [dot32_apply, bias32_apply]

/-- What leaves a middle layer, from the activations a, a first derivative o, and for the second derivative the first
    derivative g once more (the program carries the first derivative in two buffers) and the second derivative q. -/
def actL (W : FVec Ideal S32x32 .f32) (b : FVec Ideal S32 .f32) (a : FVec Ideal S1000000x32 .f32) : FVec Ideal S1000000x32 .f32 :=
  Host.tanh (pre32 W b a)
def derL (W : FVec Ideal S32x32 .f32) (b : FVec Ideal S32 .f32) (a o : FVec Ideal S1000000x32 .f32) : FVec Ideal S1000000x32 .f32 :=
  dOf bcast_S_S1000000x32 (pre32 W b a) (dot32 o W)
def secL (W : FVec Ideal S32x32 .f32) (b : FVec Ideal S32 .f32) (a o g q : FVec Ideal S1000000x32 .f32) : FVec Ideal S1000000x32 .f32 :=
  qOf bcast_S_S1000000x32 (pre32 W b a) (dot32 g W) (dot32 q W) (derL W b a o)

/-- Row n of the three arrays leaving a middle layer is the specification's layer applied to row n of the three arrays
    entering it (given as a jet s), the two copies of the first derivative being the same array d. -/
theorem layer32_read (W : FVec Ideal S32x32 .f32) (b : FVec Ideal S32 .f32) (a d q : FVec Ideal S1000000x32 .f32)
    (n : Fin 1000000) (s : Jet (Fin 32)) (ha : ∀ k, a (ix2 n k) = s.a k) (hd : ∀ k, d (ix2 n k) = s.d k)
    (hq : ∀ k, q (ix2 n k) = s.q k) (j : Fin 32) :
    actL W b a (ix2 n j) = (layer autoForm (fun k j => W (ix2 k j)) (fun j => b (ix1 j)) s).a j
      ∧ derL W b a d (ix2 n j) = (layer autoForm (fun k j => W (ix2 k j)) (fun j => b (ix1 j)) s).d j
      ∧ secL W b a d d q (ix2 n j) = (layer autoForm (fun k j => W (ix2 k j)) (fun j => b (ix1 j)) s).q j := by
  have ea : (fun k => a (ix2 n k)) = s.a := funext ha
  have ed : (fun k => d (ix2 n k)) = s.d := funext hd
  have eq : (fun k => q (ix2 n k)) = s.q := funext hq
  refine ⟨?_, ?_, ?_⟩
  · show Ideal.tanh (pre32 W b a (ix2 n j)) = Ideal.tanh (lin (fun k j => W (ix2 k j)) s.a j + b (ix1 j))
    rw [pre32_apply, ea]
  · show dOf bcast_S_S1000000x32 (pre32 W b a) (dot32 d W) (ix2 n j)
        = autoForm.D (lin (fun k j => W (ix2 k j)) s.a j + b (ix1 j)) (lin (fun k j => W (ix2 k j)) s.d j)
    rw [dOf_apply, pre32_apply, dot32_apply, ea, ed]
  · show qOf bcast_S_S1000000x32 (pre32 W b a) (dot32 d W) (dot32 q W) (dOf bcast_S_S1000000x32 (pre32 W b a) (dot32 d W)) (ix2 n j)
        = autoForm.Q (lin (fun k j => W (ix2 k j)) s.a j + b (ix1 j)) (lin (fun k j => W (ix2 k j)) s.d j)
            (lin (fun k j => W (ix2 k j)) s.q j)
    rw [qOf_apply, pre32_apply, dot32_apply, dot32_apply, ea, ed, eq]

/-! ## The last layer: 32 features in, one out -/

/-- A [1000000, 32] array times the one-column matrix W4. -/
def dot4 (a : FVec Ideal S1000000x32 .f32) (W : FVec Ideal S32x1 .f32) : FVec Ideal S1000000x1 .f32 :=
  Host.dotGeneral (F := Ideal) dot_S1000000x32_S32x1_S1000000x1_1_0_0_1_n_n none a W

theorem dot4_apply (a : FVec Ideal S1000000x32 .f32) (W : FVec Ideal S32x1 .f32) (n : Fin 1000000) :
    dot4 a W (ix2 n (0 : Fin 1)) = lin (fun k (_ : Unit) => W (ix2 k (0 : Fin 1))) (fun k => a (ix2 n k)) () := by
  unfold dot4 lin
  exact Cert.PlainDot.dotGeneral_apply _ ⟨rfl, rfl, rfl, rfl, rfl, rfl⟩ none a W n (0 : Fin 1)

def pre4 (W : FVec Ideal S32x1 .f32) (b : FVec Ideal S1 .f32) (a : FVec Ideal S1000000x32 .f32) : FVec Ideal S1000000x1 .f32 :=
  addf (dot4 a W) (bias1 b)

theorem pre4_apply (W : FVec Ideal S32x1 .f32) (b : FVec Ideal S1 .f32) (a : FVec Ideal S1000000x32 .f32) (n : Fin 1000000) :
    pre4 W b a (ix2 n (0 : Fin 1))
      = lin (fun k (_ : Unit) => W (ix2 k (0 : Fin 1))) (fun k => a (ix2 n k)) () + b (ix1 (0 : Fin 1)) := by
  show dot4 a W (ix2 n (0 : Fin 1)) + bias1 b (ix2 n (0 : Fin 1)) = _
  rw [dot4_apply, bias1_apply]

/-- The first and second derivative leaving the last layer (its activations are not used further on this path). -/
def der4 (W : FVec Ideal S32x1 .f32) (b : FVec Ideal S1 .f32) (a o : FVec Ideal S1000000x32 .f32) : FVec Ideal S1000000x1 .f32 :=
  dOf bcast_S_S1000000x1 (pre4 W b a) (dot4 o W)
def sec4 (W : FVec Ideal S32x1 .f32) (b : FVec Ideal S1 .f32) (a o g q : FVec Ideal S1000000x32 .f32) : FVec Ideal S1000000x1 .f32 :=
  qOf bcast_S_S1000000x1 (pre4 W b a) (dot4 g W) (dot4 q W) (der4 W b a o)

/-- Entry (n, 0) of the second derivative leaving the last layer is the specification's layer with the one output
    feature, applied to row n of the arrays entering it. -/
theorem layer4_read (W : FVec Ideal S32x1 .f32) (b : FVec Ideal S1 .f32) (a d q : FVec Ideal S1000000x32 .f32)
    (n : Fin 1000000) (s : Jet (Fin 32)) (ha : ∀ k, a (ix2 n k) = s.a k) (hd : ∀ k, d (ix2 n k) = s.d k)
    (hq : ∀ k, q (ix2 n k) = s.q k) :
    sec4 W b a d d q (ix2 n (0 : Fin 1))
      = (layer autoForm (fun k (_ : Unit) => W (ix2 k (0 : Fin 1))) (fun _ => b (ix1 (0 : Fin 1))) s).q () := by
  have ea : (fun k => a (ix2 n k)) = s.a := funext ha
  have ed : (fun k => d (ix2 n k)) = s.d := funext hd
  have eq : (fun k => q (ix2 n k)) = s.q := funext hq
  show qOf bcast_S_S1000000x1 (pre4 W b a) (dot4 d W) (dot4 q W) (dOf bcast_S_S1000000x1 (pre4 W b a) (dot4 d W)) (ix2 n (0 : Fin 1))
      = autoForm.Q (lin (fun k (_ : Unit) => W (ix2 k (0 : Fin 1))) s.a () + b (ix1 (0 : Fin 1)))
          (lin (fun k (_ : Unit) => W (ix2 k (0 : Fin 1))) s.d ()) (lin (fun k (_ : Unit) => W (ix2 k (0 : Fin 1))) s.q ())
  rw [qOf_apply, pre4_apply, dot4_apply, dot4_apply, ea, ed, eq]

/-! ## The column flattened, the residual, and the sum of its squares -/

/-- A [1000000, 1] array read as a vector of 1000000 entries. -/
def flat (y : FVec Ideal S1000000x1 .f32) : FVec Ideal S1000000 .f32 :=
  shapeCast S1000000 y shapeCasts_S1000000x1_S1000000

/-- Entry n of the vector is entry (n, 0) of the column: both are at position n in row-major order. -/
theorem flat_apply (y : FVec Ideal S1000000x1 .f32) (n : Fin 1000000) : flat y (ix1 n) = y (ix2 n (0 : Fin 1)) := by
  unfold flat
  refine shapeCast_apply y _ (ix1 n) (ix2 n (0 : Fin 1)) ?_
  rw [Shape.rowMajor_val_two, Shape.rowMajor_val_one]
  show n.val * 1 + 0 = n.val
  omega

/-- The sum over the samples, from the zero word, of the squared difference between a vector y and the sine of x. -/
def sumSq (y x : FVec Ideal S1000000 .f32) : FVec Ideal S_ .f32 :=
  Host.reduceAdd (F := Ideal) (mulf (subf y (Host.sin x)) (subf y (Host.sin x)))
    (constant (F := Ideal) S_ .f32 0x00000000#32) reducesTo_S1000000_S_d0 h_S_

/-- The indices of a vector of 1000000 entries are the numbers below 1000000. -/
def idx1Equiv : S1000000.Idx ≃ Fin 1000000 where
  toFun i := i 0
  invFun n := ix1 n
  left_inv i := (eq_ix1 i).symm
  right_inv _ := rfl

/-- The host's sum into the scalar shape is the initial value plus the sum over every index; the initial value is the
    word of 0.0, and the indices are re-indexed by the sample number. -/
theorem sumSq_eq (y x : FVec Ideal S1000000 .f32) :
    sumSq y x = fun _ => ∑ n : Fin 1000000,
      (y (ix1 n) - Ideal.sin (x (ix1 n))) * (y (ix1 n) - Ideal.sin (x (ix1 n))) := by
  funext j
  unfold sumSq
  rw [hostReduceAdd_apply, Ideal.hostReduceAdd_total _ (fun b => b.elim0)]
  show Ideal.ofBits .f32 0x00000000#32 + _ = _
  rw [Ideal.ofBits_zero_f32, zero_add, ← Equiv.sum_comp idx1Equiv.symm]
  rfl

end Cert.RefSide

end
-- ==== Proof.RefChunks.lean ====
/-
  What each of the six pieces of the program leaves in the buffers the later pieces read, as a function of what the
  buffers held before it — for any contents V, so that the pieces can be chained.

  A piece's results are read off its operations one after the other: each operation puts its function of its operands'
  contents into its own buffer and touches no other. Composing a layer's operations gives exactly the layer functions
  named with the layers: the activations tanh(a·W + b), the first derivative of tanh along the incoming derivative
  (held twice by the program, in two buffers with the same contents), and the second derivative. The last piece is the
  mean and the two boundary terms; it is kept as the literal composition of its operations.
-/
import proofs.«115291_j3839700763115_2_alg».proof.Proof.RefOps
import proofs.«115291_j3839700763115_2_alg».proof.Proof.RefLayers

noncomputable section

namespace Cert.RefSide

open Cert.ReferenceIdeal Cert.ReferenceIdeal.Facts₀ Idealize.ShloMosaic Idealize.ShloMosaic.TcCoe Idealize.SL.Sem
  Idealize.ShloMosaic.StableHlo Idealize.ShloMosaic.ValueIdx Cert.Pde

variable [Facts]

/-- A TensorCore reference as a buffer of the device. -/
local notation "⟪" r "⟫" => Proc.devRef (τ := τ) (sig := sig) Proc.tc r

/-! ## The first layer -/

section
variable (V : Valuation τ sig (Elt Ideal))

theorem C1_v11 : after C1 V ⟪main_v11⟫ = act1 (V ⟪main_arg0⟫) (V ⟪main_arg1⟫) (V ⟪main_arg2⟫) := by
  after_results_simp
  rfl

/-- The first derivative, in the buffer the next layer's first derivative reads … -/
theorem C1_v16 : after C1 V ⟪main_v16⟫ = der1 (V ⟪main_arg0⟫) (V ⟪main_arg1⟫) (V ⟪main_arg2⟫) := by
  after_results_simp
  rfl

/-- … and in the buffer its second derivative reads: the same array. -/
theorem C1_v23 : after C1 V ⟪main_v23⟫ = der1 (V ⟪main_arg0⟫) (V ⟪main_arg1⟫) (V ⟪main_arg2⟫) := by
  after_results_simp
  rfl

theorem C1_v26 : after C1 V ⟪main_v26⟫ = sec1 (V ⟪main_arg0⟫) (V ⟪main_arg1⟫) (V ⟪main_arg2⟫) := by
  after_results_simp
  rfl

/-- The table of the two boundary points, written by the first operation and read by the last piece. -/
theorem C1_cst : after C1 V ⟪main_cst⟫ = fun i => FloatOps.ofBits (F := Ideal) .f32 (lit0 (S2.rowMajor i)) := by
  after_results_simp
  rfl

/-! ## The second layer -/

theorem C2_v34 : after C2 V ⟪main_v34⟫ = actL (V ⟪main_arg3⟫) (V ⟪main_arg4⟫) (V ⟪main_v11⟫) := by
  after_results_simp
  rfl

theorem C2_v39 : after C2 V ⟪main_v39⟫ = derL (V ⟪main_arg3⟫) (V ⟪main_arg4⟫) (V ⟪main_v11⟫) (V ⟪main_v16⟫) := by
  after_results_simp
  rfl

theorem C2_v49 : after C2 V ⟪main_v49⟫ = derL (V ⟪main_arg3⟫) (V ⟪main_arg4⟫) (V ⟪main_v11⟫) (V ⟪main_v23⟫) := by
  after_results_simp
  rfl

theorem C2_v52 : after C2 V ⟪main_v52⟫
    = secL (V ⟪main_arg3⟫) (V ⟪main_arg4⟫) (V ⟪main_v11⟫) (V ⟪main_v16⟫) (V ⟪main_v23⟫) (V ⟪main_v26⟫) := by
  after_results_simp
  rfl

/-! ## The third layer: the same functions, of W3, b3 and the second layer's arrays -/

theorem C3_v60 : after C3 V ⟪main_v60⟫ = actL (V ⟪main_arg5⟫) (V ⟪main_arg6⟫) (V ⟪main_v34⟫) := by
  after_results_simp
  rfl

theorem C3_v65 : after C3 V ⟪main_v65⟫ = derL (V ⟪main_arg5⟫) (V ⟪main_arg6⟫) (V ⟪main_v34⟫) (V ⟪main_v39⟫) := by
  after_results_simp
  rfl

theorem C3_v75 : after C3 V ⟪main_v75⟫ = derL (V ⟪main_arg5⟫) (V ⟪main_arg6⟫) (V ⟪main_v34⟫) (V ⟪main_v49⟫) := by
  after_results_simp
  rfl

theorem C3_v78 : after C3 V ⟪main_v78⟫
    = secL (V ⟪main_arg5⟫) (V ⟪main_arg6⟫) (V ⟪main_v34⟫) (V ⟪main_v39⟫) (V ⟪main_v49⟫) (V ⟪main_v52⟫) := by
  after_results_simp
  rfl

/-! ## The fourth layer, its second derivative flattened to a vector -/

theorem C4_v108 : after C4 V ⟪main_v108⟫
    = flat (sec4 (V ⟪main_arg7⟫) (V ⟪main_arg8⟫) (V ⟪main_v60⟫) (V ⟪main_v65⟫) (V ⟪main_v75⟫) (V ⟪main_v78⟫)) := by
  after_results_simp
  rfl

/-! ## The sum of the squared residuals -/

theorem C5_v112 : after C5 V ⟪main_v112⟫ = sumSq (V ⟪main_v108⟫) (V ⟪main_arg0⟫) := by
  after_results_simp
  rfl

end

/-! ## The mean and the boundary terms -/

/-- The last piece as a function of the sum s of the squared residuals and of the weights: s divided by the number of
    samples, plus the square of the network at the first boundary point, plus its square at the second. One line per
    operation, in the program's order; the network's activations at the two boundary points form a [2, ·] array. -/
def tailOf (s : FVec Ideal S_ .f32) (W1 : FVec Ideal S1x32 .f32) (b1 : FVec Ideal S32 .f32) (W2 : FVec Ideal S32x32 .f32)
    (b2 : FVec Ideal S32 .f32) (W3 : FVec Ideal S32x32 .f32) (b3 : FVec Ideal S32 .f32) (W4 : FVec Ideal S32x1 .f32)
    (b4 : FVec Ideal S1 .f32) : FVec Ideal S_ .f32 :=
  let cst : FVec Ideal S2 .f32 := fun i => FloatOps.ofBits (F := Ideal) .f32 (lit0 (S2.rowMajor i))
  let cst_11 : FVec Ideal S_ .f32 := constant (F := Ideal) S_ .f32 0x49742400#32
  let v113 : FVec Ideal S_ .f32 := Host.divf (F := Ideal) s cst_11
  let v114 : FVec Ideal S2x1 .f32 := broadcastInDim S2x1 ![0] bcast_S2_S2x1_0 cst
  let v115 : FVec Ideal S2x32 .f32 := Host.dotGeneral (F := Ideal) dot_S2x1_S1x32_S2x32_1_0_0_1_n_n none v114 W1
  let v116 : FVec Ideal S1x32 .f32 := broadcastInDim S1x32 ![1] bcast_S32_S1x32_1 b1
  let v117 : FVec Ideal S2x32 .f32 := broadcastInDim S2x32 ![0, 1] bcast_S1x32_S2x32_0_1 v116
  let v118 : FVec Ideal S2x32 .f32 := addf (F := Ideal) v115 v117
  let v119 : FVec Ideal S2x32 .f32 := Host.tanh (F := Ideal) v118
  let v120 : FVec Ideal S2x32 .f32 := Host.dotGeneral (F := Ideal) dot_S2x32_S32x32_S2x32_1_0_0_1_n_n none v119 W2
  let v121 : FVec Ideal S1x32 .f32 := broadcastInDim S1x32 ![1] bcast_S32_S1x32_1 b2
  let v122 : FVec Ideal S2x32 .f32 := broadcastInDim S2x32 ![0, 1] bcast_S1x32_S2x32_0_1 v121
  let v123 : FVec Ideal S2x32 .f32 := addf (F := Ideal) v120 v122
  let v124 : FVec Ideal S2x32 .f32 := Host.tanh (F := Ideal) v123
  let v125 : FVec Ideal S2x32 .f32 := Host.dotGeneral (F := Ideal) dot_S2x32_S32x32_S2x32_1_0_0_1_n_n none v124 W3
  let v126 : FVec Ideal S1x32 .f32 := broadcastInDim S1x32 ![1] bcast_S32_S1x32_1 b3
  let v127 : FVec Ideal S2x32 .f32 := broadcastInDim S2x32 ![0, 1] bcast_S1x32_S2x32_0_1 v126
  let v128 : FVec Ideal S2x32 .f32 := addf (F := Ideal) v125 v127
  let v129 : FVec Ideal S2x32 .f32 := Host.tanh (F := Ideal) v128
  let v130 : FVec Ideal S2x1 .f32 := Host.dotGeneral (F := Ideal) dot_S2x32_S32x1_S2x1_1_0_0_1_n_n none v129 W4
  let v131 : FVec Ideal S1x1 .f32 := broadcastInDim S1x1 ![1] bcast_S1_S1x1_1 b4
  let v132 : FVec Ideal S2x1 .f32 := broadcastInDim S2x1 ![0, 1] bcast_S1x1_S2x1_0_1 v131
  let v133 : FVec Ideal S2x1 .f32 := addf (F := Ideal) v130 v132
  let v134 : FVec Ideal S2x1 .f32 := Host.tanh (F := Ideal) v133
  let v135 : FVec Ideal S2 .f32 := shapeCast S2 v134 shapeCasts_S2x1_S2
  let v136 : FVec Ideal S1 .f32 := extractStridedSlice S1 ![0] v135 slices_S2_S1_0
  let v137 : FVec Ideal S_ .f32 := shapeCast S_ v136 shapeCasts_S1_S_
  let v138 : FVec Ideal S_ .f32 := mulf (F := Ideal) v137 v137
  let v139 : FVec Ideal S_ .f32 := addf (F := Ideal) v113 v138
  let v140 : FVec Ideal S1 .f32 := extractStridedSlice S1 ![1] v135 slices_S2_S1_1
  let v141 : FVec Ideal S_ .f32 := shapeCast S_ v140 shapeCasts_S1_S_
  let v142 : FVec Ideal S_ .f32 := mulf (F := Ideal) v141 v141
  addf (F := Ideal) v139 v142

/-- The last piece leaves that function of the sum and of the weights in the result buffer, provided the table of the
    boundary points is still what the first operation wrote. -/
theorem C6_v143 (V : Valuation τ sig (Elt Ideal))
    (hc : V ⟪main_cst⟫ = fun i => FloatOps.ofBits (F := Ideal) .f32 (lit0 (S2.rowMajor i))) :
    after C6 V ⟪main_v143⟫
      = tailOf (V ⟪main_v112⟫) (V ⟪main_arg1⟫) (V ⟪main_arg2⟫) (V ⟪main_arg3⟫) (V ⟪main_arg4⟫) (V ⟪main_arg5⟫)
          (V ⟪main_arg6⟫) (V ⟪main_arg7⟫) (V ⟪main_arg8⟫) := by
  after_results_simp
  rw [hc]
  rfl

end Cert.RefSide

end
-- ==== Proof.RefRun.lean ====
/-
  The reference program's run, read as the specification: every execution ends with the result buffer holding the
  mean of the squared residuals u''(x) − sin x over the samples plus the two boundary terms, the network's derivatives
  being the specification's `chain` in the spelling automatic differentiation produces, and with the nine argument
  arrays unchanged.

  The six pieces are chained: what a piece leaves is a named function of what the piece before it left, so the buffer
  with the flattened second derivative holds a nesting of the layer functions applied to the argument arrays. Read at
  the sample n that nesting unfolds layer by layer: row n of the three arrays leaving a layer is the specification's
  layer applied to row n of the three arrays entering it. The sum over the samples is then the sum of the squared
  residuals.
-/
import proofs.«115291_j3839700763115_2_alg».proof.Proof.RefChunks

noncomputable section

open scoped BigOperators

namespace Cert.RefSide

open Cert.ReferenceIdeal Cert.ReferenceIdeal.Facts₀ Idealize.ShloMosaic Idealize.ShloMosaic.TcCoe Idealize.SL.Sem
  Idealize.ShloMosaic.StableHlo Idealize.ShloMosaic.ValueIdx Cert.Pde

variable [Facts]

local notation "⟪" r "⟫" => Proc.devRef (τ := τ) (sig := sig) Proc.tc r

/-! ## The arrays after each layer, as functions of the argument arrays -/

section Stages

variable (x : FVec Ideal S1000000 .f32) (W1 : FVec Ideal S1x32 .f32) (b1 : FVec Ideal S32 .f32)
  (W2 : FVec Ideal S32x32 .f32) (b2 : FVec Ideal S32 .f32) (W3 : FVec Ideal S32x32 .f32) (b3 : FVec Ideal S32 .f32)
  (W4 : FVec Ideal S32x1 .f32) (b4 : FVec Ideal S1 .f32)

/-- After the second layer: activations, first derivative, second derivative. -/
def A2 : FVec Ideal S1000000x32 .f32 := actL W2 b2 (act1 x W1 b1)
def D2 : FVec Ideal S1000000x32 .f32 := derL W2 b2 (act1 x W1 b1) (der1 x W1 b1)
def Q2 : FVec Ideal S1000000x32 .f32 := secL W2 b2 (act1 x W1 b1) (der1 x W1 b1) (der1 x W1 b1) (sec1 x W1 b1)

/-- After the third layer. -/
def A3 : FVec Ideal S1000000x32 .f32 := actL W3 b3 (A2 x W1 b1 W2 b2)
def D3 : FVec Ideal S1000000x32 .f32 := derL W3 b3 (A2 x W1 b1 W2 b2) (D2 x W1 b1 W2 b2)
def Q3 : FVec Ideal S1000000x32 .f32 :=
  secL W3 b3 (A2 x W1 b1 W2 b2) (D2 x W1 b1 W2 b2) (D2 x W1 b1 W2 b2) (Q2 x W1 b1 W2 b2)

/-- The second derivative of the network's output, a column. -/
def Q4 : FVec Ideal S1000000x1 .f32 :=
  sec4 W4 b4 (A3 x W1 b1 W2 b2 W3 b3) (D3 x W1 b1 W2 b2 W3 b3) (D3 x W1 b1 W2 b2 W3 b3) (Q3 x W1 b1 W2 b2 W3 b3)

/-- Row n after the first layer is the specification's first layer at the sample x n. -/
theorem jet1 (n : Fin 1000000) (j : Fin 32) :
    act1 x W1 b1 (ix2 n j) = (layer1 autoForm (netOf W1 b1 W2 b2 W3 b3 W4 b4) (x (ix1 n))).a j
      ∧ der1 x W1 b1 (ix2 n j) = (layer1 autoForm (netOf W1 b1 W2 b2 W3 b3 W4 b4) (x (ix1 n))).d j
      ∧ sec1 x W1 b1 (ix2 n j) = (layer1 autoForm (netOf W1 b1 W2 b2 W3 b3 W4 b4) (x (ix1 n))).q j :=
  layer1_read x W1 b1 (netOf W1 b1 W2 b2 W3 b3 W4 b4) (fun _ => rfl) (fun _ => rfl) n j

/-- Row n after the second layer is the specification's second layer applied to the first. -/
theorem jet2 (n : Fin 1000000) (j : Fin 32) :
    A2 x W1 b1 W2 b2 (ix2 n j)
        = (layer autoForm (netOf W1 b1 W2 b2 W3 b3 W4 b4).w2 (netOf W1 b1 W2 b2 W3 b3 W4 b4).b2
            (layer1 autoForm (netOf W1 b1 W2 b2 W3 b3 W4 b4) (x (ix1 n)))).a j
      ∧ D2 x W1 b1 W2 b2 (ix2 n j)
        = (layer autoForm (netOf W1 b1 W2 b2 W3 b3 W4 b4).w2 (netOf W1 b1 W2 b2 W3 b3 W4 b4).b2
            (layer1 autoForm (netOf W1 b1 W2 b2 W3 b3 W4 b4) (x (ix1 n)))).d j
      ∧ Q2 x W1 b1 W2 b2 (ix2 n j)
        = (layer autoForm (netOf W1 b1 W2 b2 W3 b3 W4 b4).w2 (netOf W1 b1 W2 b2 W3 b3 W4 b4).b2
            (layer1 autoForm (netOf W1 b1 W2 b2 W3 b3 W4 b4) (x (ix1 n)))).q j :=
  layer32_read W2 b2 (act1 x W1 b1) (der1 x W1 b1) (sec1 x W1 b1) n
    (layer1 autoForm (netOf W1 b1 W2 b2 W3 b3 W4 b4) (x (ix1 n)))
    (fun k => (jet1 x W1 b1 W2 b2 W3 b3 W4 b4 n k).1) (fun k => (jet1 x W1 b1 W2 b2 W3 b3 W4 b4 n k).2.1)
    (fun k => (jet1 x W1 b1 W2 b2 W3 b3 W4 b4 n k).2.2) j

/-- Row n after the third layer. -/
theorem jet3 (n : Fin 1000000) (j : Fin 32) :
    A3 x W1 b1 W2 b2 W3 b3 (ix2 n j)
        = (layer autoForm (netOf W1 b1 W2 b2 W3 b3 W4 b4).w3 (netOf W1 b1 W2 b2 W3 b3 W4 b4).b3
            (layer autoForm (netOf W1 b1 W2 b2 W3 b3 W4 b4).w2 (netOf W1 b1 W2 b2 W3 b3 W4 b4).b2
              (layer1 autoForm (netOf W1 b1 W2 b2 W3 b3 W4 b4) (x (ix1 n))))).a j
      ∧ D3 x W1 b1 W2 b2 W3 b3 (ix2 n j)
        = (layer autoForm (netOf W1 b1 W2 b2 W3 b3 W4 b4).w3 (netOf W1 b1 W2 b2 W3 b3 W4 b4).b3
            (layer autoForm (netOf W1 b1 W2 b2 W3 b3 W4 b4).w2 (netOf W1 b1 W2 b2 W3 b3 W4 b4).b2
              (layer1 autoForm (netOf W1 b1 W2 b2 W3 b3 W4 b4) (x (ix1 n))))).d j
      ∧ Q3 x W1 b1 W2 b2 W3 b3 (ix2 n j)
        = (layer autoForm (netOf W1 b1 W2 b2 W3 b3 W4 b4).w3 (netOf W1 b1 W2 b2 W3 b3 W4 b4).b3
            (layer autoForm (netOf W1 b1 W2 b2 W3 b3 W4 b4).w2 (netOf W1 b1 W2 b2 W3 b3 W4 b4).b2
              (layer1 autoForm (netOf W1 b1 W2 b2 W3 b3 W4 b4) (x (ix1 n))))).q j :=
  layer32_read W3 b3 (A2 x W1 b1 W2 b2) (D2 x W1 b1 W2 b2) (Q2 x W1 b1 W2 b2) n
    (layer autoForm (netOf W1 b1 W2 b2 W3 b3 W4 b4).w2 (netOf W1 b1 W2 b2 W3 b3 W4 b4).b2
      (layer1 autoForm (netOf W1 b1 W2 b2 W3 b3 W4 b4) (x (ix1 n))))
    (fun k => (jet2 x W1 b1 W2 b2 W3 b3 W4 b4 n k).1) (fun k => (jet2 x W1 b1 W2 b2 W3 b3 W4 b4 n k).2.1)
    (fun k => (jet2 x W1 b1 W2 b2 W3 b3 W4 b4 n k).2.2) j

/-- Entry (n, 0) of the output's second derivative is the specification's u'' at the sample x n. -/
theorem Q4_read (n : Fin 1000000) :
    Q4 x W1 b1 W2 b2 W3 b3 W4 b4 (ix2 n (0 : Fin 1))
      = (chain autoForm (netOf W1 b1 W2 b2 W3 b3 W4 b4) (x (ix1 n))).q () :=
  layer4_read W4 b4 (A3 x W1 b1 W2 b2 W3 b3) (D3 x W1 b1 W2 b2 W3 b3) (Q3 x W1 b1 W2 b2 W3 b3) n
    (layer autoForm (netOf W1 b1 W2 b2 W3 b3 W4 b4).w3 (netOf W1 b1 W2 b2 W3 b3 W4 b4).b3
      (layer autoForm (netOf W1 b1 W2 b2 W3 b3 W4 b4).w2 (netOf W1 b1 W2 b2 W3 b3 W4 b4).b2
        (layer1 autoForm (netOf W1 b1 W2 b2 W3 b3 W4 b4) (x (ix1 n)))))
    (fun k => (jet3 x W1 b1 W2 b2 W3 b3 W4 b4 n k).1) (fun k => (jet3 x W1 b1 W2 b2 W3 b3 W4 b4 n k).2.1)
    (fun k => (jet3 x W1 b1 W2 b2 W3 b3 W4 b4 n k).2.2)

/-- The sum of squares the program forms is the sum over the samples of the squared residual. -/
theorem sum_read :
    sumSq (flat (Q4 x W1 b1 W2 b2 W3 b3 W4 b4)) x
      = fun _ => ∑ n : Fin 1000000, resid autoForm (netOf W1 b1 W2 b2 W3 b3 W4 b4) (x (ix1 n))
          * resid autoForm (netOf W1 b1 W2 b2 W3 b3 W4 b4) (x (ix1 n)) := by
  rw [sumSq_eq]
  funext _
  refine Finset.sum_congr rfl fun n _ => ?_
  rw [flat_apply, Q4_read]
  rfl

end Stages

/-! ## The pieces chained -/

section Chain

variable (V : Valuation τ sig (Elt Ideal))

/-- A buffer none of the first two, three, four, five pieces writes still holds what it held at the start. -/
theorem keeps2 {r : Ref sig .tc} (h1 : r ∉ W1) (h2 : r ∉ W2) : after C2 (after C1 V) ⟪r⟫ = V ⟪r⟫ := by
  rw [C2_keeps _ h2, C1_keeps _ h1]
theorem keeps3 {r : Ref sig .tc} (h1 : r ∉ W1) (h2 : r ∉ W2) (h3 : r ∉ W3) :
    after C3 (after C2 (after C1 V)) ⟪r⟫ = V ⟪r⟫ := by
  rw [C3_keeps _ h3, keeps2 V h1 h2]
theorem keeps4 {r : Ref sig .tc} (h1 : r ∉ W1) (h2 : r ∉ W2) (h3 : r ∉ W3) (h4 : r ∉ W4) :
    after C4 (after C3 (after C2 (after C1 V))) ⟪r⟫ = V ⟪r⟫ := by
  rw [C4_keeps _ h4, keeps3 V h1 h2 h3]
theorem keeps5 {r : Ref sig .tc} (h1 : r ∉ W1) (h2 : r ∉ W2) (h3 : r ∉ W3) (h4 : r ∉ W4) (h5 : r ∉ W5) :
    after C5 (after C4 (after C3 (after C2 (after C1 V)))) ⟪r⟫ = V ⟪r⟫ := by
  rw [C5_keeps _ h5, keeps4 V h1 h2 h3 h4]
/-- … and a buffer no piece writes — each of the nine arguments — holds it at the end. -/
theorem keeps_all {r : Ref sig .tc} (h1 : r ∉ W1) (h2 : r ∉ W2) (h3 : r ∉ W3) (h4 : r ∉ W4) (h5 : r ∉ W5) (h6 : r ∉ W6) :
    after ops V ⟪r⟫ = V ⟪r⟫ := by
  rw [after_ops, C6_keeps _ h6, keeps5 V h1 h2 h3 h4 h5]

/-- After the second piece: the second layer's arrays, as functions of the arguments. -/
theorem st2_a : after C2 (after C1 V) ⟪main_v34⟫
    = A2 (V ⟪main_arg0⟫) (V ⟪main_arg1⟫) (V ⟪main_arg2⟫) (V ⟪main_arg3⟫) (V ⟪main_arg4⟫) := by
  rw [C2_v34, C1_keeps V (r := main_arg3) (by decide), C1_keeps V (r := main_arg4) (by decide), C1_v11]
  rfl
theorem st2_o : after C2 (after C1 V) ⟪main_v39⟫
    = D2 (V ⟪main_arg0⟫) (V ⟪main_arg1⟫) (V ⟪main_arg2⟫) (V ⟪main_arg3⟫) (V ⟪main_arg4⟫) := by
  rw [C2_v39, C1_keeps V (r := main_arg3) (by decide), C1_keeps V (r := main_arg4) (by decide), C1_v11, C1_v16]
  rfl
theorem st2_g : after C2 (after C1 V) ⟪main_v49⟫
    = D2 (V ⟪main_arg0⟫) (V ⟪main_arg1⟫) (V ⟪main_arg2⟫) (V ⟪main_arg3⟫) (V ⟪main_arg4⟫) := by
  rw [C2_v49, C1_keeps V (r := main_arg3) (by decide), C1_keeps V (r := main_arg4) (by decide), C1_v11, C1_v23]
  rfl
theorem st2_q : after C2 (after C1 V) ⟪main_v52⟫
    = Q2 (V ⟪main_arg0⟫) (V ⟪main_arg1⟫) (V ⟪main_arg2⟫) (V ⟪main_arg3⟫) (V ⟪main_arg4⟫) := by
  rw [C2_v52, C1_keeps V (r := main_arg3) (by decide), C1_keeps V (r := main_arg4) (by decide), C1_v11, C1_v16, C1_v23,
    C1_v26]
  rfl

/-- After the third piece. -/
theorem st3_a : after C3 (after C2 (after C1 V)) ⟪main_v60⟫
    = A3 (V ⟪main_arg0⟫) (V ⟪main_arg1⟫) (V ⟪main_arg2⟫) (V ⟪main_arg3⟫) (V ⟪main_arg4⟫) (V ⟪main_arg5⟫) (V ⟪main_arg6⟫) := by
  rw [C3_v60, keeps2 V (r := main_arg5) (by decide) (by decide), keeps2 V (r := main_arg6) (by decide) (by decide), st2_a]
  rfl
theorem st3_o : after C3 (after C2 (after C1 V)) ⟪main_v65⟫
    = D3 (V ⟪main_arg0⟫) (V ⟪main_arg1⟫) (V ⟪main_arg2⟫) (V ⟪main_arg3⟫) (V ⟪main_arg4⟫) (V ⟪main_arg5⟫) (V ⟪main_arg6⟫) := by
  rw [C3_v65, keeps2 V (r := main_arg5) (by decide) (by decide), keeps2 V (r := main_arg6) (by decide) (by decide), st2_a,
    st2_o]
  rfl
theorem st3_g : after C3 (after C2 (after C1 V)) ⟪main_v75⟫
    = D3 (V ⟪main_arg0⟫) (V ⟪main_arg1⟫) (V ⟪main_arg2⟫) (V ⟪main_arg3⟫) (V ⟪main_arg4⟫) (V ⟪main_arg5⟫) (V ⟪main_arg6⟫) := by
  rw [C3_v75, keeps2 V (r := main_arg5) (by decide) (by decide), keeps2 V (r := main_arg6) (by decide) (by decide), st2_a,
    st2_g]
  rfl
theorem st3_q : after C3 (after C2 (after C1 V)) ⟪main_v78⟫
    = Q3 (V ⟪main_arg0⟫) (V ⟪main_arg1⟫) (V ⟪main_arg2⟫) (V ⟪main_arg3⟫) (V ⟪main_arg4⟫) (V ⟪main_arg5⟫) (V ⟪main_arg6⟫) := by
  rw [C3_v78, keeps2 V (r := main_arg5) (by decide) (by decide), keeps2 V (r := main_arg6) (by decide) (by decide), st2_a,
    st2_o, st2_g, st2_q]
  rfl

/-- After the fourth piece: the flattened second derivative of the output. -/
theorem st4 : after C4 (after C3 (after C2 (after C1 V))) ⟪main_v108⟫
    = flat (Q4 (V ⟪main_arg0⟫) (V ⟪main_arg1⟫) (V ⟪main_arg2⟫) (V ⟪main_arg3⟫) (V ⟪main_arg4⟫) (V ⟪main_arg5⟫)
        (V ⟪main_arg6⟫) (V ⟪main_arg7⟫) (V ⟪main_arg8⟫)) := by
  rw [C4_v108, keeps3 V (r := main_arg7) (by decide) (by decide) (by decide),
    keeps3 V (r := main_arg8) (by decide) (by decide) (by decide), st3_a, st3_o, st3_g, st3_q]
  rfl

/-- After the fifth piece: the sum of the squared residuals. -/
theorem st5 : after C5 (after C4 (after C3 (after C2 (after C1 V)))) ⟪main_v112⟫
    = fun _ => ∑ n : Fin 1000000,
        resid autoForm (netOf (V ⟪main_arg1⟫) (V ⟪main_arg2⟫) (V ⟪main_arg3⟫) (V ⟪main_arg4⟫) (V ⟪main_arg5⟫)
          (V ⟪main_arg6⟫) (V ⟪main_arg7⟫) (V ⟪main_arg8⟫)) (V ⟪main_arg0⟫ (ix1 n))
        * resid autoForm (netOf (V ⟪main_arg1⟫) (V ⟪main_arg2⟫) (V ⟪main_arg3⟫) (V ⟪main_arg4⟫) (V ⟪main_arg5⟫)
          (V ⟪main_arg6⟫) (V ⟪main_arg7⟫) (V ⟪main_arg8⟫)) (V ⟪main_arg0⟫ (ix1 n)) := by
  rw [C5_v112, st4, keeps4 V (r := main_arg0) (by decide) (by decide) (by decide) (by decide)]
  exact sum_read _ _ _ _ _ _ _ _ _

/-- After the whole program: the result. -/
theorem result_eq : after ops V ⟪main_v143⟫
    = tailOf (fun _ => ∑ n : Fin 1000000,
        resid autoForm (netOf (V ⟪main_arg1⟫) (V ⟪main_arg2⟫) (V ⟪main_arg3⟫) (V ⟪main_arg4⟫) (V ⟪main_arg5⟫)
          (V ⟪main_arg6⟫) (V ⟪main_arg7⟫) (V ⟪main_arg8⟫)) (V ⟪main_arg0⟫ (ix1 n))
        * resid autoForm (netOf (V ⟪main_arg1⟫) (V ⟪main_arg2⟫) (V ⟪main_arg3⟫) (V ⟪main_arg4⟫) (V ⟪main_arg5⟫)
          (V ⟪main_arg6⟫) (V ⟪main_arg7⟫) (V ⟪main_arg8⟫)) (V ⟪main_arg0⟫ (ix1 n)))
      (V ⟪main_arg1⟫) (V ⟪main_arg2⟫) (V ⟪main_arg3⟫) (V ⟪main_arg4⟫) (V ⟪main_arg5⟫) (V ⟪main_arg6⟫) (V ⟪main_arg7⟫)
      (V ⟪main_arg8⟫) := by
  rw [after_ops, C6_v143 _ (by
        rw [C5_keeps _ (r := main_cst) (by decide), C4_keeps _ (r := main_cst) (by decide),
          C3_keeps _ (r := main_cst) (by decide), C2_keeps _ (r := main_cst) (by decide), C1_cst]),
    st5,
    keeps5 V (r := main_arg1) (by decide) (by decide) (by decide) (by decide) (by decide),
    keeps5 V (r := main_arg2) (by decide) (by decide) (by decide) (by decide) (by decide),
    keeps5 V (r := main_arg3) (by decide) (by decide) (by decide) (by decide) (by decide),
    keeps5 V (r := main_arg4) (by decide) (by decide) (by decide) (by decide) (by decide),
    keeps5 V (r := main_arg5) (by decide) (by decide) (by decide) (by decide) (by decide),
    keeps5 V (r := main_arg6) (by decide) (by decide) (by decide) (by decide) (by decide),
    keeps5 V (r := main_arg7) (by decide) (by decide) (by decide) (by decide) (by decide),
    keeps5 V (r := main_arg8) (by decide) (by decide) (by decide) (by decide) (by decide)]
  rfl

end Chain

/-! ## The run -/

/-- %113 … %143 with the sum %112 given — `tailOf`, defined with the pieces — and the run: on every device, from any
    memory with zero counters, every weakly fair execution of the reference program terminates with the result buffer
    at `tailOf` of the sum over the samples of the squared residual, and with the nine arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143)
          = tailOf (fun _ => ∑ n : Fin 1000000,
              resid autoForm (netOf (m ((c.tc : Thread nD τ).loc main_arg1)) (m ((c.tc : Thread nD τ).loc main_arg2))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7)) (m ((c.tc : Thread nD τ).loc main_arg8)))
                (m ((c.tc : Thread nD τ).loc main_arg0) (ix1 n))
              * resid autoForm (netOf (m ((c.tc : Thread nD τ).loc main_arg1)) (m ((c.tc : Thread nD τ).loc main_arg2))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7)) (m ((c.tc : Thread nD τ).loc main_arg8)))
                (m ((c.tc : Thread nD τ).loc main_arg0) (ix1 n)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run defs _ _).mono (fun _ h c => ⟨(h c main_v143).trans (result_eq (launchContents m c)),
      (h c main_arg0).trans (keeps_all (launchContents m c) (by decide) (by decide) (by decide) (by decide) (by decide) (by decide)),
      (h c main_arg1).trans (keeps_all (launchContents m c) (by decide) (by decide) (by decide) (by decide) (by decide) (by decide)),
      (h c main_arg2).trans (keeps_all (launchContents m c) (by decide) (by decide) (by decide) (by decide) (by decide) (by decide)),
      (h c main_arg3).trans (keeps_all (launchContents m c) (by decide) (by decide) (by decide) (by decide) (by decide) (by decide)),
      (h c main_arg4).trans (keeps_all (launchContents m c) (by decide) (by decide) (by decide) (by decide) (by decide) (by decide)),
      (h c main_arg5).trans (keeps_all (launchContents m c) (by decide) (by decide) (by decide) (by decide) (by decide) (by decide)),
      (h c main_arg6).trans (keeps_all (launchContents m c) (by decide) (by decide) (by decide) (by decide) (by decide) (by decide)),
      (h c main_arg7).trans (keeps_all (launchContents m c) (by decide) (by decide) (by decide) (by decide) (by decide) (by decide)),
      (h c main_arg8).trans (keeps_all (launchContents m c) (by decide) (by decide) (by decide) (by decide) (by decide) (by decide))⟩)
    (run_seq scopedRefs_eq scopedSems_eq defs main (fun _ => ops) main_eq (fun _ => ops_sub) m ρ (fun _ => ops_fresh))

end Cert.RefSide

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.KerReads.lean ====
/-
  The tiled unit's body read entry by entry, at the extended reals: the operations that are not pointwise.

  A tile of 4096 samples is processed with features on the rows and samples on the columns, so every array is
  [32, 4096] or [1, 4096] and column l belongs to sample l of the tile. A matrix product with the transposed weights
  on the left reads, at row j and column l, the sum over the input features k of (the operand at (k, l)) · (the
  weight at (j, k)); a column [32,1] spread along the samples reads its row; the row of samples spread along the
  features reads its column; the sum along the samples of a [1, 4096] row is the sum over its 4096 entries.
-/
import proofs.«115291_j3839700763115_2_alg».proof.Proof.Gen.KernelIdeal
import proofs.«115291_j3839700763115_2_alg».proof.Proof.LibPlainDot
import proofs.«115291_j3839700763115_2_alg».proof.Proof.LibIndexReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerSide

open Cert.KernelIdeal Idealize.ShloMosaic Idealize.ShloMosaic.ValueIdx

open Cert.KernelIdeal.Facts₀ Cert.KernelIdeal.Facts

/-- [32,32] · [32,4096] into the zero accumulator, at (j, l): ∑ₖ B (k, l) · A (j, k). -/
theorem mm32 (A : S32x32.Idx → EReal) (B : S32x4096.Idx → EReal) (j : Fin 32) (l : Fin 4096) :
    matmul (F := Ideal) (φ₁ := .bf16) (φ₂ := .bf16) dot_S32x32_S32x4096_S32x4096_1_0_0_1_n_n none A B
        (constant (F := Ideal) S32x4096 .f32 0x00000000#32) (ix2 j l)
      = ∑ k : Fin 32, B (ix2 k l) * A (ix2 j k) :=
  ((Ideal.matmul_constant_zero_apply (φ₁ := .bf16) (φ₂ := .bf16) _ none A B (ix2 j l)).trans
    (Cert.PlainDot.sum_contr _ ⟨rfl, rfl, rfl, rfl, rfl, rfl⟩ A B j l)).trans
    (Finset.sum_congr rfl fun _ _ => mul_comm _ _)

/-- [1,32] · [32,4096] into the zero accumulator, at (0, l): ∑ₖ B (k, l) · A (0, k). -/
theorem mm1 (A : S1x32.Idx → EReal) (B : S32x4096.Idx → EReal) (j : Fin 1) (l : Fin 4096) :
    matmul (F := Ideal) (φ₁ := .bf16) (φ₂ := .bf16) dot_S1x32_S32x4096_S1x4096_1_0_0_1_n_n none A B
        (constant (F := Ideal) S1x4096 .f32 0x00000000#32) (ix2 j l)
      = ∑ k : Fin 32, B (ix2 k l) * A (ix2 j k) :=
  ((Ideal.matmul_constant_zero_apply (φ₁ := .bf16) (φ₂ := .bf16) _ none A B (ix2 j l)).trans
    (Cert.PlainDot.sum_contr _ ⟨rfl, rfl, rfl, rfl, rfl, rfl⟩ A B j l)).trans
    (Finset.sum_congr rfl fun _ _ => mul_comm _ _)

/-- A [32,1] column spread along the 4096 samples reads its row. -/
theorem col_apply (v : S32x1.Idx → EReal) (h : S32x1.Broadcasts S32x4096) (j : Fin 32) (l : Fin 4096) :
    broadcastTo S32x4096 v h (ix2 j l) = v (ix2 j (0 : Fin 1)) :=
  Cert.Lib.IndexReads.broadcastTo_a1_ab_apply v h j l

/-- The [1,4096] row of samples spread along the 32 features reads its column. -/
theorem row_apply (v : S1x4096.Idx → EReal) (h : S1x4096.Broadcasts S32x4096) (j : Fin 32) (l : Fin 4096) :
    broadcastTo S32x4096 v h (ix2 j l) = v (ix2 (0 : Fin 1) l) :=
  broadcastTo_1b_ab_apply v h j l

/-- The [1,1] bias spread along the samples reads its one entry. -/
theorem one_apply (v : S1x1.Idx → EReal) (h : S1x1.Broadcasts S1x4096) (j : Fin 1) (l : Fin 4096) :
    broadcastTo S1x4096 v h (ix2 j l) = v (ix2 (0 : Fin 1) (0 : Fin 1)) := by
  have := Cert.Lib.IndexReads.broadcastTo_a1_ab_apply v h j l
  rw [this]; congr 1; funext a; apply Fin.ext; match a with | ⟨0, _⟩ => exact Fin.val_eq_zero _ | ⟨1, _⟩ => rfl

/-- The sum along the samples of a [1,4096] row, from the zero word, is the sum of its 4096 entries. -/
theorem lanesum (v : S1x4096.Idx → EReal) (hφ : FKind.Formats .f32)
    (hacc : (0x00000000#32 : BitVec 32) = FKind.add.neutral .f32 hφ) (j : S1.Idx) :
    multiReduction (F := Ideal) .add [1] S1 v 0x00000000#32 reduces_S1x4096_S1 hφ hacc j
      = ∑ l : Fin 4096, v (ix2 (0 : Fin 1) l) :=
  (Ideal.multiReduction_add_single v _ reduces_S1x4096_S1 hφ hacc j).trans
    (Finset.sum_congr rfl fun l _ => congrArg v (funext fun a => Fin.ext (by
      match a with
      | ⟨0, _⟩ => exact Fin.val_eq_zero _
      | ⟨1, _⟩ => rfl)))

end Cert.KerSide

end
-- ==== Proof.Consts.lean ====
/-
  The three float words the two programs' arithmetic uses, as extended reals: the words of 1, of −2 and of 0.
  (The sample count 1000000 and the abscissa nearest π occur in both programs alike and are never evaluated.)
-/
import Idealize.ShloMosaic.PureOps.Ideal
import Idealize.ShloMosaic.PureOps.Ideal.Laws

noncomputable section

namespace Cert.Pde.Consts

open Idealize.ShloMosaic

/-- The word 0x3F800000 (sign 0, biased exponent 127, fraction 0) is the number 1. -/
theorem ofBits_one : Ideal.ofBits .f32 0x3F800000#32 = 1 := by
  simp [Ideal.ofBits, Ideal.ieee]
  exact_mod_cast (by norm_num : (8388608 : ℝ) * (2 ^ 23)⁻¹ = 1)

/-- The word 0xC0000000 (sign 1, biased exponent 128, fraction 0) is the number −2. -/
theorem ofBits_neg_two : Ideal.ofBits .f32 0xC0000000#32 = -2 := by
  simp [Ideal.ofBits, Ideal.ieee]
  rw [← EReal.coe_mul]
  norm_num
  first | rfl | norm_cast

end Cert.Pde.Consts

end
-- ==== Proof.KerPoint.lean ====
/-
  One tile of the tiled unit, lane by lane.

  The unit's body is a fixed composition of 21 array expressions of the tile's nine blocks (the samples, and the
  transposed weights and bias columns). Read at feature j and lane l, each of them is a quantity of the hand-derived
  computation at the one sample x = (block of samples) (0, l): the activations, derivatives and second derivatives
  after layers 1, 2, 3 (the jets jet1, jet2, jet3 below), contracted with the next layer's weights where a matrix
  product stands. The last expression adds to entry (0, 0) of the running sums the sum over the lanes of the squared
  residual u''(x) − sin x, a lane past the last sample contributing zero. No arithmetic law beyond the commutativity
  of a product inside the contractions is used: this module only reads.
-/
import proofs.«115291_j3839700763115_2_alg».proof.Proof.Gen.KernelIdeal.Skeleton
import proofs.«115291_j3839700763115_2_alg».proof.Proof.KerReads
import proofs.«115291_j3839700763115_2_alg».proof.Proof.Spec
import proofs.«115291_j3839700763115_2_alg».proof.Proof.Consts
import Idealize.ShloMosaic.Lib.Affine

noncomputable section

open scoped BigOperators

namespace Cert.KerSide

open Cert.KernelIdeal Cert.KernelIdeal.Gen Idealize.ShloMosaic Idealize.ShloMosaic.ValueIdx Cert.Pde

/-- The nine blocks a grid point's body finds in its staging buffers: the tile of samples [1,4096]; W1ᵀ and b1 as
    columns [32,1]; W2ᵀ [32,32] and b2; W3ᵀ and b3; W4ᵀ [1,32]; b4 [1,1]. -/
structure Blocks where
  x0 : S1x4096.Idx → EReal
  x1 : S32x1.Idx → EReal
  x2 : S32x1.Idx → EReal
  x3 : S32x32.Idx → EReal
  x4 : S32x1.Idx → EReal
  x5 : S32x32.Idx → EReal
  x6 : S32x1.Idx → EReal
  x7 : S1x32.Idx → EReal
  x8 : S1x1.Idx → EReal

/-- The network these blocks hold: the weight from input feature k to output feature j sits at (j, k) of the
    transposed block. -/
def Blocks.net (b : Blocks) : Net where
  w1 j := b.x1 (ix2 j (0 : Fin 1))
  b1 j := b.x2 (ix2 j (0 : Fin 1))
  w2 k j := b.x3 (ix2 j k)
  b2 j := b.x4 (ix2 j (0 : Fin 1))
  w3 k j := b.x5 (ix2 j k)
  b3 j := b.x6 (ix2 j (0 : Fin 1))
  w4 k := b.x7 (ix2 (0 : Fin 1) k)
  b4 := b.x8 (ix2 (0 : Fin 1) (0 : Fin 1))

/-- The sample in lane l of the tile. -/
def Blocks.pt (b : Blocks) (l : Fin 4096) : EReal := b.x0 (ix2 (0 : Fin 1) l)

/-- Activations, derivative and second derivative after layer 1, 2, 3 at the sample of lane l (hand-derived form). -/
def Blocks.jet1 (b : Blocks) (l : Fin 4096) : Jet (Fin 32) := layer1 handForm b.net (b.pt l)
def Blocks.jet2 (b : Blocks) (l : Fin 4096) : Jet (Fin 32) := layer handForm b.net.w2 b.net.b2 (b.jet1 l)
def Blocks.jet3 (b : Blocks) (l : Fin 4096) : Jet (Fin 32) := layer handForm b.net.w3 b.net.b3 (b.jet2 l)

variable (b : Blocks) (j : Fin 32) (l : Fin 4096)

/-! ## Layer 1 and the contractions into layer 2 -/

theorem pay4_at : k0_pay4 (F := Ideal) b.x1 (ix2 j l) = b.net.w1 j := by
  simp only [k0_pay4, k0_pay3, shapeCast_self, col_apply]
  rfl

theorem pay5_at : k0_pay5 (F := Ideal) b.x0 b.x1 b.x2 (ix2 j l) = (b.jet1 l).a j := by
  simp only [k0_pay5, k0_pay3, k0_pay2, tanh, addf, mulf, shapeCast_self, col_apply, row_apply]
  show Ideal.tanh (b.x1 (ix2 j (0 : Fin 1)) * b.x0 (ix2 (0 : Fin 1) l) + b.x2 (ix2 j (0 : Fin 1)))
    = Ideal.tanh (b.x0 (ix2 (0 : Fin 1) l) * b.x1 (ix2 j (0 : Fin 1)) + b.x2 (ix2 j (0 : Fin 1)))
  rw [mul_comm]

theorem pay6_at : k0_pay6 (F := Ideal) b.x0 b.x1 b.x2 (ix2 j l) = 1 - (b.jet1 l).a j * (b.jet1 l).a j := by
  simp only [k0_pay6, subf, mulf, broadcast_apply, pay5_at, Scalar.ofBits, Ideal.ofBits_def, Consts.ofBits_one]
  rfl

theorem pay8_at : k0_pay8 (F := Ideal) b.x0 b.x1 b.x2 b.x3 (ix2 j l) = lin b.net.w2 (b.jet1 l).d j := by
  simp only [k0_pay8, k0_pay7, shapeCast_self, mm32, truncf, mulf, pay6_at, pay4_at]
  rfl

theorem pay9_at : k0_pay9 (F := Ideal) b.x0 b.x1 b.x2 b.x3 (ix2 j l) = lin b.net.w2 (b.jet1 l).q j := by
  simp only [k0_pay9, k0_pay7, shapeCast_self, mm32, truncf, mulf, broadcast_apply, pay5_at, pay6_at, pay4_at,
    Scalar.ofBits, Ideal.ofBits_def, Consts.ofBits_neg_two]
  rfl

theorem pay10_at : k0_pay10 (F := Ideal) b.x0 b.x1 b.x2 b.x3 b.x4 (ix2 j l) = (b.jet2 l).a j := by
  simp only [k0_pay10, k0_pay7, shapeCast_self, mm32, truncf, tanh, addf, col_apply, pay5_at]
  rfl

theorem pay11_at : k0_pay11 (F := Ideal) b.x0 b.x1 b.x2 b.x3 b.x4 (ix2 j l) = (b.jet2 l).a j * (b.jet2 l).a j := by
  simp only [k0_pay11, mulf, pay10_at]
  rfl

/-! ## Layer 2, the contractions into layer 3, layer 3, and the contraction into the output -/

theorem pay12_at : k0_pay12 (F := Ideal) (k0_pay11 b.x0 b.x1 b.x2 b.x3 b.x4) (ix2 j l)
    = 1 - (b.jet2 l).a j * (b.jet2 l).a j := by
  simp only [k0_pay12, subf, broadcast_apply, pay11_at, Scalar.ofBits, Ideal.ofBits_def, Consts.ofBits_one]
  rfl

theorem pay14_at : k0_pay14 (F := Ideal) (k0_pay8 b.x0 b.x1 b.x2 b.x3) (k0_pay11 b.x0 b.x1 b.x2 b.x3 b.x4) b.x5 (ix2 j l)
    = lin b.net.w3 (b.jet2 l).d j := by
  simp only [k0_pay14, k0_pay13, shapeCast_self, mm32, truncf, mulf, pay12_at, pay8_at]
  rfl

theorem pay15_at : k0_pay15 (F := Ideal) (k0_pay10 b.x0 b.x1 b.x2 b.x3 b.x4) b.x5 b.x6 (ix2 j l) = (b.jet3 l).a j := by
  simp only [k0_pay15, k0_pay13, shapeCast_self, mm32, truncf, tanh, addf, col_apply, pay10_at]
  rfl

theorem pay16_at : k0_pay16 (F := Ideal) (k0_pay10 b.x0 b.x1 b.x2 b.x3 b.x4) b.x5 b.x6 (ix2 j l)
    = 1 - (b.jet3 l).a j * (b.jet3 l).a j := by
  simp only [k0_pay16, subf, mulf, broadcast_apply, pay15_at, Scalar.ofBits, Ideal.ofBits_def, Consts.ofBits_one]
  rfl

theorem pay17_at : k0_pay17 (F := Ideal) (k0_pay8 b.x0 b.x1 b.x2 b.x3) (k0_pay9 b.x0 b.x1 b.x2 b.x3)
      (k0_pay10 b.x0 b.x1 b.x2 b.x3 b.x4) (k0_pay11 b.x0 b.x1 b.x2 b.x3 b.x4) b.x5 b.x6 (ix2 j l)
    = (b.jet3 l).q j := by
  simp only [k0_pay17, k0_pay13, shapeCast_self, mm32, truncf, mulf, addf, broadcast_apply, pay12_at, pay14_at,
    pay15_at, pay16_at, pay8_at, pay9_at, pay10_at, Scalar.ofBits, Ideal.ofBits_def, Consts.ofBits_neg_two]
  rfl

theorem pay20_at : k0_pay20 (F := Ideal) (k0_pay8 b.x0 b.x1 b.x2 b.x3) (k0_pay10 b.x0 b.x1 b.x2 b.x3 b.x4)
      (k0_pay11 b.x0 b.x1 b.x2 b.x3 b.x4) b.x5 b.x6 (ix2 j l)
    = (b.jet3 l).d j := by
  simp only [k0_pay20, truncf, mulf, pay16_at, pay14_at]
  rfl

/-- The pre-activation of the output layer at lane l. -/
theorem pay19_at : k0_pay19 (F := Ideal) (k0_pay10 b.x0 b.x1 b.x2 b.x3 b.x4) b.x5 b.x6 b.x7 b.x8 (ix2 (0 : Fin 1) l)
    = lin (fun k (_ : Unit) => b.net.w4 k) (b.jet3 l).a () + b.net.b4 := by
  simp only [k0_pay19, k0_pay18, shapeCast_self, mm1, truncf, addf, one_apply, pay15_at]
  rfl

/-! ## The running sums' update -/

/-- Row 0 of the [8,1] running sums is the one that accumulates: the selector "row number = 0", as a float, is 1 there. -/
theorem row0_one (h : S8x1.Iotas .tc 32 [0]) (h' : 1 < 32) :
    (sitofp (F := Ideal) .f32 (extui 32 (cmpi .eq (iota .tc S8x1 32 [0] h) (broadcast S8x1 (0#32 : BitVec 32))) h')
      : S8x1.Idx → EReal) (ix2 (0 : Fin 8) (0 : Fin 1)) = 1 := by
  show FloatOps.sitofp (F := Ideal) .f32
    (BitVec.setWidth 32 (IntOp.cmpi .eq (iota .tc S8x1 32 [0] h (ix2 (0 : Fin 8) (0 : Fin 1))) 0#32)) = 1
  rw [iota_single_apply .tc S8x1 32 0 h]
  show ((((BitVec.setWidth 32 (IntOp.cmpi .eq (BitVec.ofNat 32 0) 0#32)).toInt : ℤ) : ℝ) : EReal) = 1
  have e : (BitVec.setWidth 32 (IntOp.cmpi .eq (BitVec.ofNat 32 0) 0#32)).toInt = 1 := by decide
  rw [e]
  norm_num

/-- The lane number along the samples' axis. -/
theorem lane_iota (h : S1x4096.Iotas .tc 32 [1]) (l : Fin 4096) :
    iota .tc S1x4096 32 [1] h (ix2 (0 : Fin 1) l) = BitVec.ofNat 32 l.val :=
  iota_single_apply .tc S1x4096 32 1 h (ix2 (0 : Fin 1) l)

/-- The [1,1] bias of the running sums spread down the 8 rows reads its one entry at row 0. -/
theorem up8_apply (v : S1x1.Idx → EReal) (h : S1x1.Broadcasts S8x1) :
    broadcastTo S8x1 v h (ix2 (0 : Fin 8) (0 : Fin 1)) = v (ix2 (0 : Fin 1) (0 : Fin 1)) :=
  broadcastTo_1b_ab_apply v h (0 : Fin 8) (0 : Fin 1)

/-- A one-entry vector viewed as a [1,1] array. -/
theorem unit_apply (v : S1.Idx → EReal) (h : S1.ShapeCasts S1x1) (i : S1x1.Idx) :
    shapeCast S1x1 v h i = v (fun a => i a.succ) :=
  shapeCast_addUnit_apply ![1] v h i

/-- The sum along the samples with the accumulator's word and its proofs spelt as the body spells them. -/
theorem lanesum0 (v : S1x4096.Idx → EReal) (h : S1x4096.Reduces [1] S1)
    (hacc : (0x00000000#32 : BitVec 32) = 0x00000000#32) (i : S1.Idx) :
    multiReduction (F := Ideal) .add [1] S1 v 0x00000000#32 h (.inl rfl) hacc i
      = ∑ l : Fin 4096, v (ix2 (0 : Fin 1) l) :=
  lanesum v (.inl rfl) hacc i

/-- The bit "lane l of the tile numbered a0·123 + a1 is a sample": its position (a0·123 + a1)·4096 + l, computed in
    32-bit words as the body does, is below the sample count (a signed comparison). -/
def laneBit (a0 a1 : BitVec 32) (l : Fin 4096) : BitVec 1 :=
  IntOp.cmpi .slt (IntOp.addi (BitVec.ofNat 32 l.val) (Scalar.muli (Scalar.addi (Scalar.muli a0 123#32) a1) 4096#32))
    1000000#32

/-- What lane l contributes before squaring: the residual at its sample if the lane is a sample, else zero. -/
def sel (a0 a1 : BitVec 32) (b : Blocks) (l : Fin 4096) : EReal :=
  Scalar.select (laneBit a0 a1 l) (resid handForm b.net (b.pt l)) 0

/-- The body's last expression as the composition of the earlier ones that a grid point's run finds: the new
    contents of the running sums from the old ones xs. -/
def accNext (a0 a1 : BitVec 32) (b : Blocks) (xs : S8x1.Idx → EReal) : S8x1.Idx → EReal :=
  k0_pay21 (F := Ideal) a0 a1 (k0_pay2 b.x0)
    (k0_pay17 (k0_pay8 b.x0 b.x1 b.x2 b.x3) (k0_pay9 b.x0 b.x1 b.x2 b.x3) (k0_pay10 b.x0 b.x1 b.x2 b.x3 b.x4)
      (k0_pay11 b.x0 b.x1 b.x2 b.x3 b.x4) b.x5 b.x6)
    (k0_pay18 b.x7)
    (k0_pay19 (k0_pay10 b.x0 b.x1 b.x2 b.x3 b.x4) b.x5 b.x6 b.x7 b.x8)
    (k0_pay20 (k0_pay8 b.x0 b.x1 b.x2 b.x3) (k0_pay10 b.x0 b.x1 b.x2 b.x3 b.x4) (k0_pay11 b.x0 b.x1 b.x2 b.x3 b.x4)
      b.x5 b.x6)
    (constant (F := Ideal) S1x4096 .f32 0#32) xs

/-- Entry (0,0) of the running sums after a grid point: the old entry plus the sum over the 4096 lanes of the squared
    contributions. -/
theorem accNext_at (a0 a1 : BitVec 32) (xs : S8x1.Idx → EReal) :
    accNext a0 a1 b xs (ix2 (0 : Fin 8) (0 : Fin 1))
      = xs (ix2 (0 : Fin 8) (0 : Fin 1)) + ∑ l : Fin 4096, sel a0 a1 b l * sel a0 a1 b l := by
  unfold accNext
  simp only [k0_pay21, k0_pay18, k0_pay2, shapeCast_self, addf, mulf, up8_apply, unit_apply]
  rw [row0_one]
  refine (congrArg (fun s : EReal => xs (ix2 (0 : Fin 8) (0 : Fin 1)) + s * 1) (lanesum _ _ _ _)).trans ?_
  rw [mul_one]
  refine congrArg (xs (ix2 (0 : Fin 8) (0 : Fin 1)) + ·) (Finset.sum_congr rfl fun l _ => ?_)
  simp only [mulf, subf, addf, tanh, sin, select, cmpi, addi, truncf, broadcast_apply, lane_iota, mm1, pay17_at,
    pay19_at, pay20_at, Ideal.ofBits_def, Consts.ofBits_one, Consts.ofBits_neg_two, Ideal.ofBits_zero_f32]
  rw [lane_iota]
  rfl

/-- What the lane bit says, for the tile of core c and number i within the core: lane l is a sample exactly when its
    position (c·123 + i)·4096 + l is below the sample count. The position stays far below 2³¹, so the 32-bit words
    hold it exactly and the signed comparison is the comparison of numbers. -/
theorem laneBit_iff (c i : ℕ) (hc : c < 2) (hi : i < 123) (l : Fin 4096) :
    laneBit (BitVec.ofNat 32 c) (BitVec.ofNat 32 i) l = 1#1 ↔ (c * 123 + i) * 4096 + l.val < 1000000 := by
  unfold laneBit
  rw [IntOp.cmpi_slt]
  have e : IntOp.addi (BitVec.ofNat 32 l.val)
        (Scalar.muli (Scalar.addi (Scalar.muli (BitVec.ofNat 32 c) 123#32) (BitVec.ofNat 32 i)) 4096#32)
      = BitVec.ofNat 32 (l.val + (c * 123 + i) * 4096) := by
    show BitVec.ofNat 32 l.val + (BitVec.ofNat 32 c * BitVec.ofNat 32 123 + BitVec.ofNat 32 i) * BitVec.ofNat 32 4096 = _
    rw [← BitVec.ofNat_mul, ← BitVec.ofNat_add, ← BitVec.ofNat_mul, ← BitVec.ofNat_add]
  rw [e]
  have hl := l.isLt
  have hn : l.val + (c * 123 + i) * 4096 < 2 ^ 31 := by omega
  have h1 : (BitVec.ofNat 32 (l.val + (c * 123 + i) * 4096)).toInt = ((l.val + (c * 123 + i) * 4096 : ℕ) : ℤ) := by
    rw [BitVec.toInt_eq_toNat_of_lt (by rw [BitVec.toNat_ofNat]; omega), BitVec.toNat_ofNat]
    congr 1
    omega
  have h2 : (1000000#32 : BitVec 32).toInt = 1000000 := by decide
  rw [h1, h2]
  omega

end Cert.KerSide

end
-- ==== Proof.KerPieces.lean ====
/-
  What one grid point's body leaves behind, case by case.

  The body stores the running sums whole, once (or twice at a core's first tile, where it first stores zeros and reads
  them back), so what the scratch holds afterwards is the one expression accNext of the point's blocks and of the
  sums found there: of the zero block at a core's first tile, of what the point before left otherwise. At a core's
  last tile the body also copies the fresh sums into the output block, which therefore holds the same expression.
-/
import proofs.«115291_j3839700763115_2_alg».proof.Proof.Gen.KernelIdeal.Frame
import proofs.«115291_j3839700763115_2_alg».proof.Proof.KerPoint

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz : (![0, 0] : Fin 2 → Nat) = fun _ => 0 := funext fun a => by fin_cases a <;> rfl

/-- The zero block a core's first tile stores before accumulating. -/
abbrev zeros : S8x1.Idx → EReal := k0_pay1 (F := Ideal)

/-- A tile that is neither a core's first nor its last: the sums found, updated. -/
theorem sout_B (c : Dev nD) (i : grid0.Coords) (arg2 : Memref sig .tc .vmem S1x4096 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S1x32 .bf16) (harg9 : arg9.IsWhole) (arg10 : Memref sig .tc .vmem S1x1 .f32) (harg10 : arg10.IsWhole) (arg11 : Memref sig .tc .vmem S8x1 .f32) (harg11 : arg11.IsWhole) (arg12 : Memref sig .tc .vmem S8x1 .f32) (harg12 : arg12.IsWhole) (hc0 : ¬cond0_0 i) (hc1 : ¬cond0_1 i) (x0 : Vec Ideal S1x4096 .f32) (x1 : Vec Ideal S32x1 .f32) (x2 : Vec Ideal S32x1 .f32) (x3 : Vec Ideal S32x32 .bf16) (x4 : Vec Ideal S32x1 .f32) (x5 : Vec Ideal S32x32 .bf16) (x6 : Vec Ideal S32x1 .f32) (x7 : Vec Ideal S1x32 .bf16) (x8 : Vec Ideal S1x1 .f32) (xs0 : Vec Ideal S8x1 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = accNext (BitVec.ofNat 32 (i 0).val) (BitVec.ofNat 32 (i 1).val) ⟨x0, x1, x2, x3, x4, x5, x6, x7, x8⟩ xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz, View.ld_unit_zero (S := S32x1) hz, View.ld_unit_zero (S := S32x32) hz, View.ld_unit_zero (S := S1x32) hz, View.ld_unit_zero (S := S1x1) hz, View.ld_unit_zero (S := S8x1) hz]
  rfl

/-- A core's last tile: the scratch as in the middle tiles. -/
theorem sout_C (c : Dev nD) (i : grid0.Coords) (arg2 : Memref sig .tc .vmem S1x4096 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S1x32 .bf16) (harg9 : arg9.IsWhole) (arg10 : Memref sig .tc .vmem S1x1 .f32) (harg10 : arg10.IsWhole) (arg11 : Memref sig .tc .vmem S8x1 .f32) (harg11 : arg11.IsWhole) (arg12 : Memref sig .tc .vmem S8x1 .f32) (harg12 : arg12.IsWhole) (hc0 : ¬cond0_0 i) (hc1 : cond0_1 i) (x0 : Vec Ideal S1x4096 .f32) (x1 : Vec Ideal S32x1 .f32) (x2 : Vec Ideal S32x1 .f32) (x3 : Vec Ideal S32x32 .bf16) (x4 : Vec Ideal S32x1 .f32) (x5 : Vec Ideal S32x32 .bf16) (x6 : Vec Ideal S32x1 .f32) (x7 : Vec Ideal S1x32 .bf16) (x8 : Vec Ideal S1x1 .f32) (xs0 : Vec Ideal S8x1 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = accNext (BitVec.ofNat 32 (i 0).val) (BitVec.ofNat 32 (i 1).val) ⟨x0, x1, x2, x3, x4, x5, x6, x7, x8⟩ xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz, View.ld_unit_zero (S := S32x1) hz, View.ld_unit_zero (S := S32x32) hz, View.ld_unit_zero (S := S1x32) hz, View.ld_unit_zero (S := S1x1) hz, View.ld_unit_zero (S := S8x1) hz]
  rfl

/-- A core's last tile: the output block receives the fresh sums, read back from the scratch. -/
theorem out_C (c : Dev nD) (i : grid0.Coords) (arg2 : Memref sig .tc .vmem S1x4096 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S1x32 .bf16) (harg9 : arg9.IsWhole) (arg10 : Memref sig .tc .vmem S1x1 .f32) (harg10 : arg10.IsWhole) (arg11 : Memref sig .tc .vmem S8x1 .f32) (harg11 : arg11.IsWhole) (arg12 : Memref sig .tc .vmem S8x1 .f32) (harg12 : arg12.IsWhole) (hc0 : ¬cond0_0 i) (hc1 : cond0_1 i) (x0 : Vec Ideal S1x4096 .f32) (x1 : Vec Ideal S32x1 .f32) (x2 : Vec Ideal S32x1 .f32) (x3 : Vec Ideal S32x32 .bf16) (x4 : Vec Ideal S32x1 .f32) (x5 : Vec Ideal S32x32 .bf16) (x6 : Vec Ideal S32x1 .f32) (x7 : Vec Ideal S1x32 .bf16) (x8 : Vec Ideal S1x1 .f32) (xs0 : Vec Ideal S8x1 .f32) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = accNext (BitVec.ofNat 32 (i 0).val) (BitVec.ofNat 32 (i 1).val) ⟨x0, x1, x2, x3, x4, x5, x6, x7, x8⟩ xs0 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz, View.readCov_unit_zero (S := S8x1) _ hz]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz, View.ld_unit_zero (S := S32x1) hz, View.ld_unit_zero (S := S32x32) hz, View.ld_unit_zero (S := S1x32) hz, View.ld_unit_zero (S := S1x1) hz, View.ld_unit_zero (S := S8x1) hz]
  rfl

/-- A core's first tile: zeros are stored, read back, and updated. -/
theorem sout_A (c : Dev nD) (i : grid0.Coords) (arg2 : Memref sig .tc .vmem S1x4096 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S1x32 .bf16) (harg9 : arg9.IsWhole) (arg10 : Memref sig .tc .vmem S1x1 .f32) (harg10 : arg10.IsWhole) (arg11 : Memref sig .tc .vmem S8x1 .f32) (harg11 : arg11.IsWhole) (arg12 : Memref sig .tc .vmem S8x1 .f32) (harg12 : arg12.IsWhole) (hc0 : cond0_0 i) (hc1 : ¬cond0_1 i) (x0 : Vec Ideal S1x4096 .f32) (x1 : Vec Ideal S32x1 .f32) (x2 : Vec Ideal S32x1 .f32) (x3 : Vec Ideal S32x32 .bf16) (x4 : Vec Ideal S32x1 .f32) (x5 : Vec Ideal S32x32 .bf16) (x6 : Vec Ideal S32x1 .f32) (x7 : Vec Ideal S1x32 .bf16) (x8 : Vec Ideal S1x1 .f32) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = accNext (BitVec.ofNat 32 (i 0).val) (BitVec.ofNat 32 (i 1).val) ⟨x0, x1, x2, x3, x4, x5, x6, x7, x8⟩ zeros := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S8x1) hz, View.readCov_unit_zero (S := S8x1) _ hz]
  simp only [View.readAt_eq_ld, harg2.read_unread, harg3.read_unread, harg4.read_unread, harg5.read_unread, harg6.read_unread, harg7.read_unread, harg8.read_unread, harg9.read_unread, harg10.read_unread, View.ld_unit_zero (S := S1x4096) hz, View.ld_unit_zero (S := S32x1) hz, View.ld_unit_zero (S := S32x32) hz, View.ld_unit_zero (S := S1x32) hz, View.ld_unit_zero (S := S1x1) hz, View.ld_unit_zero (S := S8x1) hz]
  rfl

end Cert.KerSide

end
-- ==== Proof.KerBlocks.lean ====
/-
  What each input window's block holds at a grid point, in terms of the argument arrays.

  Before the region the host prepares the buffers the windows stage: the 1 000 000 samples are padded with 7616
  zeros (the pad value is the integer 0 converted to a float, the real number 0) and reshaped to one row of
  1 007 616; the weight matrices are transposed (and three of them converted to a narrower format, which on the
  extended reals is the identity); the biases are reshaped to columns. Window 0 walks the padded row in blocks of
  4096 columns, block t at grid point t; windows 1 to 8 each take their whole array at every point.

  For each window: first what the region finds in the staged buffer, as the host operations' term of the launch
  arrays (the fold of the host operations read at that buffer); then that term read at one index (a reshape keeps
  the row-major position, a transpose swaps the two coordinates, the pad splits at the last sample); then the
  block: an entry of a block sits in the array at block index × block size + its coordinate inside the block, and
  the block indices are decided once over the 246 grid points.
-/
import proofs.«115291_j3839700763115_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KerSide

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (c : Dev nD)

/-! ### The samples: window 0 -/

/-- What the region finds in the buffer window 0 stages: the samples, padded by the host with 7616 entries of the
    pad value to 1 007 616 and reshaped to one row. The host operations before the region are folded over the launch
    memory; reading the fold at this buffer leaves the pad and the reshape. -/
theorem V_v1 : (V (F := Ideal) m c main_v1 : S1x1007616.Idx → EReal)
    = shapeCast S1x1007616
        (pad S1007616 ![0] ![7616] ![0] (m ((c : Thread nD τ).loc main_arg0))
          (sitofp (F := Ideal) .f32 (constantI S_ 32 0#32)) pads_S1000000_S1007616_076160 h_S_)
        shapeCasts_S1007616_S1x1007616 := by
  dsimp only [Gen.V, Gen.V0]
  simp only [Gen.hostOps0, Gen.hostOps0_1, Gen.hostOps0_2, List.flatten_cons, List.flatten_nil, List.append_nil,
    List.cons_append, List.nil_append]
  after_results
  simp only [StableHlo.TRef.toBuf, StableHlo.TRef.ofBuf, cast_eq]
  rfl

/-- The pad value: the integer 0 converted to a float is the real number 0. -/
theorem pad_value : (sitofp (F := Ideal) .f32 (constantI S_ 32 0#32)) (Shape.Idx.first h_S_) = (0 : EReal) := by
  show (((0#32 : BitVec 32).toInt : ℝ) : EReal) = 0
  have h0 : (0#32 : BitVec 32).toInt = 0 := by decide
  rw [h0, Int.cast_zero, EReal.coe_zero]

/-- The padded row read at column n: sample n while n < 1 000 000, the pad value 0 after. The reshape keeps the
    row-major position (column n of the one row is position n), and the pad, with no low padding and no interior
    padding, keeps position n for the samples and fills the rest. -/
theorem padded_row_apply (x : S1000000.Idx → EReal) (j : S1x1007616.Idx) (n : ℕ) (hn : (j 1).val = n) :
    shapeCast S1x1007616
        (pad S1007616 ![0] ![7616] ![0] x (sitofp (F := Ideal) .f32 (constantI S_ 32 0#32))
          pads_S1000000_S1007616_076160 h_S_)
        shapeCasts_S1007616_S1x1007616 j
      = if h : n < 1000000 then x (ix1 ⟨n, h⟩) else 0 := by
  subst hn
  have hj0 : (j 0).val = 0 := by have h := idx2_lt0 j; omega
  have hj1 : (j 1).val < 1007616 := idx2_lt1 j
  rw [shapeCast_apply _ _ j (ix1 ⟨(j 1).val, hj1⟩) (by
    rw [Shape.rowMajor_val_one, Shape.rowMajor_val_two]
    show (j 1).val = (j 0).val * 1007616 + (j 1).val
    omega)]
  by_cases h : (j 1).val < 1000000
  · rw [dif_pos h]
    exact pad_apply_of_inside _ _ _ x _ _ _ _ (ix1 ⟨(j 1).val, h⟩) (fun a => by
      match a with
      | ⟨0, _⟩ => show (j 1).val = 0 + (j 1).val * (0 + 1); omega)
  · rw [dif_neg h, pad_apply_of_not_inside _ _ _ x _ _ _ _ (0 : Fin 1) (by
      show ¬(0 ≤ (j 1).val ∧ ((j 1).val - 0) % (0 + 1) = 0 ∧ ((j 1).val - 0) / (0 + 1) < 1000000)
      omega)]
    exact pad_value

/-- Window 0's index map, decided over the 246 grid points: block (0, t) at point t (core t / 123, tile t % 123,
    and core · 123 + tile = t). -/
theorem win0_index : ∀ t : Fin cfg0.N, win0_0.index t (0 : Fin 2) = 0 ∧ win0_0.index t (1 : Fin 2) = t.val :=
  (by decide +kernel : ∀ t : Fin grid0.N, _)

/-- Window 0's block at point t: lane l holds sample t·4096 + l, and 0 past the last sample. A block's coordinate
    in the array is block index × block size + the coordinate inside the block: row 0·1 + 0, column t·4096 + l. -/
theorem iblk0_apply (t : Fin cfg0.N) (l : Fin 4096) :
    (iblk (F := Ideal) m c 0 t : S1x4096.Idx → EReal) (ix2 (0 : Fin 1) l)
      = if h : t.val * 4096 + l.val < 1000000 then
          m ((c : Thread nD τ).loc main_arg0) (ix1 ⟨t.val * 4096 + l.val, h⟩) else (0 : EReal) := by
  obtain ⟨-, e1⟩ := win0_index t
  show V (F := Ideal) m c main_v1 (((cfg0.win 0).blk t).view.emb (ix2 (0 : Fin 1) l)) = _
  rw [V_v1]
  refine padded_row_apply (m ((c : Thread nD τ).loc main_arg0)) _ (t.val * 4096 + l.val) ?_
  show win0_0.index t (1 : Fin 2) * 4096 + 1 * l.val = t.val * 4096 + l.val
  rw [e1, Nat.one_mul]

/-! ### The weights and biases: each window's block is its whole array -/

/-- A vector of 32 entries reshaped to a column reads, at (i, 0), its entry i: the row-major position i·1 + 0. -/
theorem column_apply (x : S32.Idx → EReal) (h : S32.ShapeCasts S32x1) (i : Fin 32) (u : Fin 1) :
    shapeCast S32x1 x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The buffer window 1 stages: W1, a row of 32, transposed to a column. -/
theorem V_v2 : (V (F := Ideal) m c main_v2 : S32x1.Idx → EReal)
    = transpose S32x1 [1, 0] (m ((c : Thread nD τ).loc main_arg1)) transposes_S1x32_S32x1_1_0 := by
  dsimp only [Gen.V, Gen.V0]
  simp only [Gen.hostOps0, Gen.hostOps0_1, Gen.hostOps0_2, List.flatten_cons, List.flatten_nil, List.append_nil,
    List.cons_append, List.nil_append]
  after_results

/-- The buffer window 2 stages: b1 reshaped to a column. -/
theorem V_v3 : (V (F := Ideal) m c main_v3 : S32x1.Idx → EReal)
    = shapeCast S32x1 (m ((c : Thread nD τ).loc main_arg2)) shapeCasts_S32_S32x1 := by
  dsimp only [Gen.V, Gen.V0]
  simp only [Gen.hostOps0, Gen.hostOps0_1, Gen.hostOps0_2, List.flatten_cons, List.flatten_nil, List.append_nil,
    List.cons_append, List.nil_append]
  after_results
  simp only [cast_eq]
  rfl

/-- The buffer window 3 stages: W2 transposed, then converted to the narrower format, which on the extended reals
    changes nothing. -/
theorem V_v5 : (V (F := Ideal) m c main_v5 : S32x32.Idx → EReal)
    = truncf (F := Ideal) .bf16 (transpose S32x32 [1, 0] (m ((c : Thread nD τ).loc main_arg3)) transposes_S32x32_S32x32_1_0)
        bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- The buffer window 4 stages: b2 reshaped to a column. -/
theorem V_v6 : (V (F := Ideal) m c main_v6 : S32x1.Idx → EReal)
    = shapeCast S32x1 (m ((c : Thread nD τ).loc main_arg4)) shapeCasts_S32_S32x1 := by
  dsimp only [Gen.V, Gen.V0]
  simp only [Gen.hostOps0, Gen.hostOps0_1, Gen.hostOps0_2, List.flatten_cons, List.flatten_nil, List.append_nil,
    List.cons_append, List.nil_append]
  after_results
  simp only [cast_eq]
  rfl

/-- The buffer window 5 stages: W3 transposed and converted. -/
theorem V_v8 : (V (F := Ideal) m c main_v8 : S32x32.Idx → EReal)
    = truncf (F := Ideal) .bf16 (transpose S32x32 [1, 0] (m ((c : Thread nD τ).loc main_arg5)) transposes_S32x32_S32x32_1_0)
        bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- The buffer window 6 stages: b3 reshaped to a column. -/
theorem V_v9 : (V (F := Ideal) m c main_v9 : S32x1.Idx → EReal)
    = shapeCast S32x1 (m ((c : Thread nD τ).loc main_arg6)) shapeCasts_S32_S32x1 := by
  dsimp only [Gen.V, Gen.V0]
  simp only [Gen.hostOps0, Gen.hostOps0_1, Gen.hostOps0_2, List.flatten_cons, List.flatten_nil, List.append_nil,
    List.cons_append, List.nil_append]
  after_results
  simp only [cast_eq]
  rfl

/-- The buffer window 7 stages: W4, a column of 32, transposed to a row and converted. -/
theorem V_v11 : (V (F := Ideal) m c main_v11 : S1x32.Idx → EReal)
    = truncf (F := Ideal) .bf16 (transpose S1x32 [1, 0] (m ((c : Thread nD τ).loc main_arg7)) transposes_S32x1_S1x32_1_0)
        bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- The buffer window 8 stages: b4 reshaped to one row of one entry. -/
theorem V_v12 : (V (F := Ideal) m c main_v12 : S1x1.Idx → EReal)
    = shapeCast S1x1 (m ((c : Thread nD τ).loc main_arg8)) shapeCasts_S1_S1x1 := by
  dsimp only [Gen.V, Gen.V0]
  simp only [Gen.hostOps0, Gen.hostOps0_1, Gen.hostOps0_2, List.flatten_cons, List.flatten_nil, List.append_nil,
    List.cons_append, List.nil_append]
  after_results
  simp only [cast_eq]
  rfl

/-- The index maps of windows 1 to 8, decided over the 246 grid points: block (0, 0) at every point. -/
theorem win1_index : ∀ t : Fin cfg0.N, win0_1.index t (0 : Fin 2) = 0 ∧ win0_1.index t (1 : Fin 2) = 0 :=
  (by decide +kernel : ∀ t : Fin grid0.N, _)
theorem win2_index : ∀ t : Fin cfg0.N, win0_2.index t (0 : Fin 2) = 0 ∧ win0_2.index t (1 : Fin 2) = 0 :=
  (by decide +kernel : ∀ t : Fin grid0.N, _)
theorem win3_index : ∀ t : Fin cfg0.N, win0_3.index t (0 : Fin 2) = 0 ∧ win0_3.index t (1 : Fin 2) = 0 :=
  (by decide +kernel : ∀ t : Fin grid0.N, _)
theorem win4_index : ∀ t : Fin cfg0.N, win0_4.index t (0 : Fin 2) = 0 ∧ win0_4.index t (1 : Fin 2) = 0 :=
  (by decide +kernel : ∀ t : Fin grid0.N, _)
theorem win5_index : ∀ t : Fin cfg0.N, win0_5.index t (0 : Fin 2) = 0 ∧ win0_5.index t (1 : Fin 2) = 0 :=
  (by decide +kernel : ∀ t : Fin grid0.N, _)
theorem win6_index : ∀ t : Fin cfg0.N, win0_6.index t (0 : Fin 2) = 0 ∧ win0_6.index t (1 : Fin 2) = 0 :=
  (by decide +kernel : ∀ t : Fin grid0.N, _)
theorem win7_index : ∀ t : Fin cfg0.N, win0_7.index t (0 : Fin 2) = 0 ∧ win0_7.index t (1 : Fin 2) = 0 :=
  (by decide +kernel : ∀ t : Fin grid0.N, _)
theorem win8_index : ∀ t : Fin cfg0.N, win0_8.index t (0 : Fin 2) = 0 ∧ win0_8.index t (1 : Fin 2) = 0 :=
  (by decide +kernel : ∀ t : Fin grid0.N, _)

/-- Window 1's block, a column: entry (j, 0) is W1[0, j]. The block is the whole transposed array (block index 0 on
    both axes, so a coordinate inside the block is the coordinate in the array). -/
theorem iblk1_apply (t : Fin cfg0.N) (j : Fin 32) :
    (iblk (F := Ideal) m c 1 t : S32x1.Idx → EReal) (ix2 j (0 : Fin 1))
      = m ((c : Thread nD τ).loc main_arg1) (ix2 (0 : Fin 1) j) := by
  obtain ⟨e0, e1⟩ := win1_index t
  show V (F := Ideal) m c main_v2 (((cfg0.win 1).blk t).view.emb (ix2 j (0 : Fin 1))) = _
  have hemb : ((cfg0.win 1).blk t).view.emb (ix2 j (0 : Fin 1)) = ix2 j (0 : Fin 1) := by
    funext a; apply Fin.ext
    match a with
    | ⟨0, _⟩ => show win0_1.index t (0 : Fin 2) * 32 + 1 * j.val = j.val; omega
    | ⟨1, _⟩ => show win0_1.index t (1 : Fin 2) * 1 + 1 * (0 : Fin 1).val = (0 : Fin 1).val; omega
  rw [hemb, V_v2]
  exact transpose_ix2_apply _ _ j (0 : Fin 1)

/-- Window 2's block, a column: entry (j, 0) is b1[j]. The block is the whole reshaped array. -/
theorem iblk2_apply (t : Fin cfg0.N) (j : Fin 32) :
    (iblk (F := Ideal) m c 2 t : S32x1.Idx → EReal) (ix2 j (0 : Fin 1))
      = m ((c : Thread nD τ).loc main_arg2) (ix1 j) := by
  obtain ⟨e0, e1⟩ := win2_index t
  show V (F := Ideal) m c main_v3 (((cfg0.win 2).blk t).view.emb (ix2 j (0 : Fin 1))) = _
  have hemb : ((cfg0.win 2).blk t).view.emb (ix2 j (0 : Fin 1)) = ix2 j (0 : Fin 1) := by
    funext a; apply Fin.ext
    match a with
    | ⟨0, _⟩ => show win0_2.index t (0 : Fin 2) * 32 + 1 * j.val = j.val; omega
    | ⟨1, _⟩ => show win0_2.index t (1 : Fin 2) * 1 + 1 * (0 : Fin 1).val = (0 : Fin 1).val; omega
  rw [hemb, V_v3]
  exact column_apply _ _ j (0 : Fin 1)

/-- Window 3's block: entry (j, k) is W2[k, j] — the array was transposed by the host, and the conversion to
    the narrower format is the identity on the extended reals. The block is the whole array. -/
theorem iblk3_apply (t : Fin cfg0.N) (j k : Fin 32) :
    (iblk (F := Ideal) m c 3 t : S32x32.Idx → EReal) (ix2 j k)
      = m ((c : Thread nD τ).loc main_arg3) (ix2 k j) := by
  obtain ⟨e0, e1⟩ := win3_index t
  show V (F := Ideal) m c main_v5 (((cfg0.win 3).blk t).view.emb (ix2 j k)) = _
  have hemb : ((cfg0.win 3).blk t).view.emb (ix2 j k) = ix2 j k := by
    funext a; apply Fin.ext
    match a with
    | ⟨0, _⟩ => show win0_3.index t (0 : Fin 2) * 32 + 1 * j.val = j.val; omega
    | ⟨1, _⟩ => show win0_3.index t (1 : Fin 2) * 32 + 1 * k.val = k.val; omega
  rw [hemb, V_v5]
  refine Eq.trans (truncf_apply (ψ := .bf16) _ bitsLt_bf16_f32 _) ?_
  exact transpose_ix2_apply _ _ j k

/-- Window 4's block, a column: entry (j, 0) is b2[j]. The block is the whole reshaped array. -/
theorem iblk4_apply (t : Fin cfg0.N) (j : Fin 32) :
    (iblk (F := Ideal) m c 4 t : S32x1.Idx → EReal) (ix2 j (0 : Fin 1))
      = m ((c : Thread nD τ).loc main_arg4) (ix1 j) := by
  obtain ⟨e0, e1⟩ := win4_index t
  show V (F := Ideal) m c main_v6 (((cfg0.win 4).blk t).view.emb (ix2 j (0 : Fin 1))) = _
  have hemb : ((cfg0.win 4).blk t).view.emb (ix2 j (0 : Fin 1)) = ix2 j (0 : Fin 1) := by
    funext a; apply Fin.ext
    match a with
    | ⟨0, _⟩ => show win0_4.index t (0 : Fin 2) * 32 + 1 * j.val = j.val; omega
    | ⟨1, _⟩ => show win0_4.index t (1 : Fin 2) * 1 + 1 * (0 : Fin 1).val = (0 : Fin 1).val; omega
  rw [hemb, V_v6]
  exact column_apply _ _ j (0 : Fin 1)

/-- Window 5's block: entry (j, k) is W3[k, j] — the array was transposed by the host, and the conversion to
    the narrower format is the identity on the extended reals. The block is the whole array. -/
theorem iblk5_apply (t : Fin cfg0.N) (j k : Fin 32) :
    (iblk (F := Ideal) m c 5 t : S32x32.Idx → EReal) (ix2 j k)
      = m ((c : Thread nD τ).loc main_arg5) (ix2 k j) := by
  obtain ⟨e0, e1⟩ := win5_index t
  show V (F := Ideal) m c main_v8 (((cfg0.win 5).blk t).view.emb (ix2 j k)) = _
  have hemb : ((cfg0.win 5).blk t).view.emb (ix2 j k) = ix2 j k := by
    funext a; apply Fin.ext
    match a with
    | ⟨0, _⟩ => show win0_5.index t (0 : Fin 2) * 32 + 1 * j.val = j.val; omega
    | ⟨1, _⟩ => show win0_5.index t (1 : Fin 2) * 32 + 1 * k.val = k.val; omega
  rw [hemb, V_v8]
  refine Eq.trans (truncf_apply (ψ := .bf16) _ bitsLt_bf16_f32 _) ?_
  exact transpose_ix2_apply _ _ j k

/-- Window 6's block, a column: entry (j, 0) is b3[j]. The block is the whole reshaped array. -/
theorem iblk6_apply (t : Fin cfg0.N) (j : Fin 32) :
    (iblk (F := Ideal) m c 6 t : S32x1.Idx → EReal) (ix2 j (0 : Fin 1))
      = m ((c : Thread nD τ).loc main_arg6) (ix1 j) := by
  obtain ⟨e0, e1⟩ := win6_index t
  show V (F := Ideal) m c main_v9 (((cfg0.win 6).blk t).view.emb (ix2 j (0 : Fin 1))) = _
  have hemb : ((cfg0.win 6).blk t).view.emb (ix2 j (0 : Fin 1)) = ix2 j (0 : Fin 1) := by
    funext a; apply Fin.ext
    match a with
    | ⟨0, _⟩ => show win0_6.index t (0 : Fin 2) * 32 + 1 * j.val = j.val; omega
    | ⟨1, _⟩ => show win0_6.index t (1 : Fin 2) * 1 + 1 * (0 : Fin 1).val = (0 : Fin 1).val; omega
  rw [hemb, V_v9]
  exact column_apply _ _ j (0 : Fin 1)

/-- Window 7's block, a row: entry (0, k) is W4[k, 0] (transposed by the host, the conversion the identity). -/
theorem iblk7_apply (t : Fin cfg0.N) (k : Fin 32) :
    (iblk (F := Ideal) m c 7 t : S1x32.Idx → EReal) (ix2 (0 : Fin 1) k)
      = m ((c : Thread nD τ).loc main_arg7) (ix2 k (0 : Fin 1)) := by
  obtain ⟨e0, e1⟩ := win7_index t
  show V (F := Ideal) m c main_v11 (((cfg0.win 7).blk t).view.emb (ix2 (0 : Fin 1) k)) = _
  have hemb : ((cfg0.win 7).blk t).view.emb (ix2 (0 : Fin 1) k) = ix2 (0 : Fin 1) k := by
    funext a; apply Fin.ext
    match a with
    | ⟨0, _⟩ => show win0_7.index t (0 : Fin 2) * 1 + 1 * (0 : Fin 1).val = (0 : Fin 1).val; omega
    | ⟨1, _⟩ => show win0_7.index t (1 : Fin 2) * 32 + 1 * k.val = k.val; omega
  rw [hemb, V_v11]
  refine Eq.trans (truncf_apply (ψ := .bf16) _ bitsLt_bf16_f32 _) ?_
  exact transpose_ix2_apply _ _ (0 : Fin 1) k

/-- Window 8's block: its one entry is b4. -/
theorem iblk8_apply (t : Fin cfg0.N) :
    (iblk (F := Ideal) m c 8 t : S1x1.Idx → EReal) (ix2 (0 : Fin 1) (0 : Fin 1))
      = m ((c : Thread nD τ).loc main_arg8) (ix1 (0 : Fin 1)) := by
  obtain ⟨e0, e1⟩ := win8_index t
  show V (F := Ideal) m c main_v12 (((cfg0.win 8).blk t).view.emb (ix2 (0 : Fin 1) (0 : Fin 1))) = _
  have hemb : ((cfg0.win 8).blk t).view.emb (ix2 (0 : Fin 1) (0 : Fin 1)) = ix2 (0 : Fin 1) (0 : Fin 1) := by
    funext a; apply Fin.ext
    match a with
    | ⟨0, _⟩ => show win0_8.index t (0 : Fin 2) * 1 + 1 * (0 : Fin 1).val = (0 : Fin 1).val; omega
    | ⟨1, _⟩ => show win0_8.index t (1 : Fin 2) * 1 + 1 * (0 : Fin 1).val = (0 : Fin 1).val; omega
  rw [hemb, V_v12]
  exact shapeCast_a_1a_apply _ _ (0 : Fin 1) (0 : Fin 1)

end Cert.KerSide

end
-- ==== Proof.Tiles.lean ====
/-
  The samples arranged in tiles, and the sum of squares taken tile by tile.

  The 1 000 000 samples are padded to 246 tiles of 4096 lanes; lane l of tile t holds sample t·4096 + l, and a lane
  past the last sample contributes nothing. The two halves of the tiles (123 each) are summed apart and the halves
  added. That this is the sum over the samples is a re-indexing of a finite sum in a commutative monoid: it holds on
  the extended reals as it stands, with no finiteness asked.
-/
import Idealize.ShloMosaic.PureOps.Ideal

noncomputable section

open scoped BigOperators

namespace Cert.Pde

/-- What lane number n contributes before squaring: f at sample n, and zero past the last sample. -/
def masked (f : EReal → EReal) (x : Fin 1000000 → EReal) (n : ℕ) : EReal :=
  if h : n < 1000000 then f (x ⟨n, h⟩) else 0

/-- The sum of the squared contributions of the 4096 lanes of tile t. -/
def tile (f : EReal → EReal) (x : Fin 1000000 → EReal) (t : ℕ) : EReal :=
  ∑ l : Fin 4096, masked f x (t * 4096 + l.val) * masked f x (t * 4096 + l.val)

/-- What a half's running sum holds after its tiles 0 … i: the tiles base, base + 1, …, base + i added up. -/
def partialSum (f : EReal → EReal) (x : Fin 1000000 → EReal) (base i : ℕ) : EReal :=
  ∑ s ∈ Finset.range (i + 1), tile f x (base + s)

end Cert.Pde

end
-- ==== Proof.KerInv.lean ====
/-
  The running sums over the grid.

  The 246 grid points are the tiles in order; points 0 … 122 belong to the first core's half, 123 … 245 to the second's.
  At a half's first tile the running sums restart from zero; at every tile entry (0, 0) grows by that tile's sum of
  squared contributions. So after point n entry (0, 0) is the sum of the tiles of n's half up to n, by induction on n:
  the blocks a point finds are the padded samples' columns n·4096 … n·4096 + 4095 and the transposed weights, the lane
  bit says which columns are samples, and a padded column contributes zero.
-/
import proofs.«115291_j3839700763115_2_alg».proof.Proof.Gen.KernelIdeal.Frame
import proofs.«115291_j3839700763115_2_alg».proof.Proof.KerPieces
import proofs.«115291_j3839700763115_2_alg».proof.Proof.KerBlocks
import proofs.«115291_j3839700763115_2_alg».proof.Proof.Tiles
import proofs.«115291_j3839700763115_2_alg».proof.Proof.Net

set_option maxRecDepth 16384

noncomputable section

open scoped BigOperators

namespace Cert.KerSide

open Cert.KernelIdeal Cert.KernelIdeal.Gen Cert.Pde
open Idealize.ShloMosaic Idealize.ShloMosaic.TcCoe Idealize.ShloMosaic.ValueIdx Idealize.SL.Sem

variable (m : (ℓ : Loc nD τ sig) → Buf (Elt Ideal) ℓ) (c : Dev nD)

/-- The sample points. -/
def samples : Fin 1000000 → EReal := fun n => m ((c : Thread nD τ).loc main_arg0) (ix1 n)

/-- The network of the argument arrays. -/
def net : Net :=
  netOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The residual of the hand-derived form, as a function of the sample. -/
def resHand : EReal → EReal := resid handForm (net m c)

/-- The nine blocks grid point t finds. -/
def blocksAt (t : Fin cfg0.N) : Blocks :=
  ⟨iblk m c 0 t, iblk m c 1 t, iblk m c 2 t, iblk m c 3 t, iblk m c 4 t, iblk m c 5 t, iblk m c 6 t, iblk m c 7 t,
    iblk m c 8 t⟩

/-- Every point finds the same network: the transposed weight blocks are whole arrays. -/
theorem net_eq (t : Fin cfg0.N) : (blocksAt m c t).net = net m c := by
  unfold Blocks.net net netOf blocksAt
  simp only [Net.mk.injEq]
  exact ⟨funext fun j => iblk1_apply m c t j, funext fun j => iblk2_apply m c t j,
    funext fun k => funext fun j => iblk3_apply m c t j k, funext fun j => iblk4_apply m c t j,
    funext fun k => funext fun j => iblk5_apply m c t j k, funext fun j => iblk6_apply m c t j,
    funext fun k => iblk7_apply m c t k, iblk8_apply m c t⟩

/-- Lane l of point t holds sample t·4096 + l, or the padding's zero past the last sample. -/
theorem pt_eq (t : Fin cfg0.N) (l : Fin 4096) :
    (blocksAt m c t).pt l
      = if h : t.val * 4096 + l.val < 1000000 then samples m c ⟨t.val * 4096 + l.val, h⟩ else (0 : EReal) :=
  iblk0_apply m c t l

/-- The grid's coordinates of point t: core t / 123 and tile t % 123, so that core · 123 + tile = t. -/
theorem coords_facts : ∀ t : Fin cfg0.N,
    (grid0.coords t 0).val * 123 + (grid0.coords t 1).val = t.val ∧ (grid0.coords t 0).val < 2 ∧ (grid0.coords t 1).val < 123 :=
  (by decide +kernel : ∀ t : Fin grid0.N,
    (grid0.coords t 0).val * 123 + (grid0.coords t 1).val = t.val ∧ (grid0.coords t 0).val < 2 ∧ (grid0.coords t 1).val < 123)

/-- What lane l of point t contributes is the masked residual at position t·4096 + l. -/
theorem sel_eq (t : Fin cfg0.N) (l : Fin 4096) :
    sel (BitVec.ofNat 32 (grid0.coords t 0).val) (BitVec.ofNat 32 (grid0.coords t 1).val) (blocksAt m c t) l = masked (resHand m c) (samples m c) (t.val * 4096 + l.val) := by
  obtain ⟨hsum, hc, hi⟩ := coords_facts t
  unfold sel masked resHand
  rw [net_eq, pt_eq]
  by_cases hn : t.val * 4096 + l.val < 1000000
  · have hb : laneBit (BitVec.ofNat 32 (grid0.coords t 0).val) (BitVec.ofNat 32 (grid0.coords t 1).val) l = 1#1 := (laneBit_iff _ _ hc hi l).mpr (by rw [hsum]; exact hn)
    rw [hb, dif_pos hn, dif_pos hn]
    rfl
  · have hb : ¬ laneBit (BitVec.ofNat 32 (grid0.coords t 0).val) (BitVec.ofNat 32 (grid0.coords t 1).val) l = 1#1 := fun e => hn (by
      have := (laneBit_iff _ _ hc hi l).mp e
      rw [hsum] at this
      exact this)
    have hb' : ¬ laneBit (BitVec.ofNat 32 (grid0.coords t 0).val) (BitVec.ofNat 32 (grid0.coords t 1).val) l = (1 : BitVec 1) := hb
    rw [dif_neg hn, dif_neg hn]
    unfold Scalar.select
    rw [if_neg hb']

/-- One point's update of entry (0, 0): the tile's sum is added. -/
theorem step (t : Fin cfg0.N) (prev : S8x1.Idx → EReal) :
    accNext (BitVec.ofNat 32 (grid0.coords t 0).val) (BitVec.ofNat 32 (grid0.coords t 1).val) (blocksAt m c t) prev (ix2 (0 : Fin 8) (0 : Fin 1))
      = prev (ix2 (0 : Fin 8) (0 : Fin 1)) + tile (resHand m c) (samples m c) t.val := by
  rw [accNext_at]
  refine congrArg (prev (ix2 (0 : Fin 8) (0 : Fin 1)) + ·) (Finset.sum_congr rfl fun l _ => ?_)
  rw [sel_eq]

/-- The scratch after a half's first tile. -/
theorem scr_A (t : Fin cfg0.N) (h0 : t.val % 123 = 0) (h1 : ¬t.val % 123 = 122) :
    (outsAt0 m c t.val t.isLt).2 = accNext (BitVec.ofNat 32 (grid0.coords t 0).val) (BitVec.ofNat 32 (grid0.coords t 1).val) (blocksAt m c t) zeros := by
  rw [outsAt0_A m c t h0 h1]
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0)
    (fun h => h1 ((hcond0_1 t).mp h)) (iblk m c 0 t) (iblk m c 1 t) (iblk m c 2 t) (iblk m c 3 t) (iblk m c 4 t) (iblk m c 5 t) (iblk m c 6 t) (iblk m c 7 t) (iblk m c 8 t)

/-- The scratch after a middle tile, from what the point before left. -/
theorem scr_B (t : Fin cfg0.N) (h0 : ¬t.val % 123 = 0) (h1 : ¬t.val % 123 = 122) :
    (outsAt0 m c t.val t.isLt).2
      = accNext (BitVec.ofNat 32 (grid0.coords t 0).val) (BitVec.ofNat 32 (grid0.coords t 1).val) (blocksAt m c t) (outsAt0 m c (t.val - 1) (Nat.lt_of_le_of_lt (Nat.sub_le _ _) t.isLt)).2 := by
  rw [outsAt0_B m c t h0 h1]
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h))
    (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2

/-- The scratch and the output block after a half's last tile. -/
theorem scr_C (t : Fin cfg0.N) (h0 : ¬t.val % 123 = 0) (h1 : t.val % 123 = 122) :
    (outsAt0 m c t.val t.isLt).2
      = accNext (BitVec.ofNat 32 (grid0.coords t 0).val) (BitVec.ofNat 32 (grid0.coords t 1).val) (blocksAt m c t) (outsAt0 m c (t.val - 1) (Nat.lt_of_le_of_lt (Nat.sub_le _ _) t.isLt)).2 := by
  rw [outsAt0_C m c t h0 h1]
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h))
    ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2

theorem outb_C (t : Fin cfg0.N) (h0 : ¬t.val % 123 = 0) (h1 : t.val % 123 = 122) :
    (outsAt0 m c t.val t.isLt).1
      = accNext (BitVec.ofNat 32 (grid0.coords t 0).val) (BitVec.ofNat 32 (grid0.coords t 1).val) (blocksAt m c t) (outsAt0 m c (t.val - 1) (Nat.lt_of_le_of_lt (Nat.sub_le _ _) t.isLt)).2 := by
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h))
    ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2

/-- The zero block's entry. -/
theorem zeros_at : zeros (ix2 (0 : Fin 8) (0 : Fin 1)) = 0 := by
  unfold zeros k0_pay1
  simp only [shapeCast_self, broadcast_apply, Scalar.ofBits, Ideal.ofBits_def, Ideal.ofBits_zero_f32]

/-- After point n, entry (0, 0) of the running sums is the sum of the tiles of n's half from its first tile to n. -/
theorem scratch_eq : ∀ (n : ℕ) (h : n < cfg0.N),
    (outsAt0 m c n h).2 (ix2 (0 : Fin 8) (0 : Fin 1))
      = partialSum (resHand m c) (samples m c) (123 * (n / 123)) (n % 123)
  | n, h => by
    have hN : cfg0.N = 246 := N_0
    by_cases h0 : n % 123 = 0
    · have h1 : ¬n % 123 = 122 := by omega
      rw [show outsAt0 m c n h = outsAt0 m c (⟨n, h⟩ : Fin cfg0.N).val (⟨n, h⟩ : Fin cfg0.N).isLt from rfl,
        scr_A m c ⟨n, h⟩ h0 h1, step, zeros_at, zero_add]
      unfold partialSum
      rw [h0, Finset.sum_range_one]
      show tile _ _ n = tile _ _ (123 * (n / 123) + 0)
      congr 1
      omega
    · have hpos : 0 < n := by omega
      have ih := scratch_eq (n - 1) (by omega)
      have hdiv : (n - 1) / 123 = n / 123 := by omega
      have hmod : (n - 1) % 123 = n % 123 - 1 := by omega
      have hprev : (outsAt0 m c (n - 1) (Nat.lt_of_le_of_lt (Nat.sub_le _ _) h)).2 (ix2 (0 : Fin 8) (0 : Fin 1))
          = partialSum (resHand m c) (samples m c) (123 * (n / 123)) (n % 123 - 1) := by
        rw [← hdiv, ← hmod]; exact ih
      have key : (outsAt0 m c n h).2 (ix2 (0 : Fin 8) (0 : Fin 1))
          = (outsAt0 m c (n - 1) (Nat.lt_of_le_of_lt (Nat.sub_le _ _) h)).2 (ix2 (0 : Fin 8) (0 : Fin 1))
            + tile (resHand m c) (samples m c) n := by
        by_cases h1 : n % 123 = 122
        · rw [show outsAt0 m c n h = outsAt0 m c (⟨n, h⟩ : Fin cfg0.N).val (⟨n, h⟩ : Fin cfg0.N).isLt from rfl,
            scr_C m c ⟨n, h⟩ h0 h1, step]
        · rw [show outsAt0 m c n h = outsAt0 m c (⟨n, h⟩ : Fin cfg0.N).val (⟨n, h⟩ : Fin cfg0.N).isLt from rfl,
            scr_B m c ⟨n, h⟩ h0 h1, step]
      rw [key, hprev]
      unfold partialSum
      have e : n % 123 + 1 = (n % 123 - 1 + 1) + 1 := by omega
      rw [e, Finset.sum_range_succ _ (n % 123 - 1 + 1)]
      congr 2
      omega

end Cert.KerSide

end
-- ==== Proof.KerTail.lean ====
/-
  The end of the kernel program, after its one tiled computation: the two partial sums are picked out of the [16, 1]
  array the computation wrote (rows 0 and 8, one per half of the tiles), added, and the same mean and boundary terms as in the reference program
  follow, operation for operation. So the result buffer holds the reference program's closing function `tailOf` of that
  sum of two entries.

  A [16, 1] array sliced at the offset (r, 0) to a [1, 1] block and that block read as a scalar is the entry (r, 0): the
  scalar's one position and the block's one position are both position 0 in row-major order, and the block's entry
  (0, 0) is the array's entry (r + 0, 0 + 0).
-/
import proofs.«115291_j3839700763115_2_alg».proof.Proof.Gen.KernelIdeal.Launch
import proofs.«115291_j3839700763115_2_alg».proof.Proof.Gen.ReferenceIdeal
import proofs.«115291_j3839700763115_2_alg».proof.Proof.RefRun
import Idealize.ShloMosaic.Lib.Pipeline.Value
import Idealize.ShloMosaic.Lib.ValueIdx

noncomputable section

namespace Cert.KerSide

open Cert.KernelIdeal Cert.KernelIdeal.Gen Idealize.ShloMosaic Idealize.ShloMosaic.TcCoe Idealize.SL.Sem
  Idealize.ShloMosaic.StableHlo Idealize.ShloMosaic.ValueIdx

local notation "⟪" r "⟫" => Proc.devRef (τ := τ) (sig := sig) Proc.tc r

/-- The two partial sums taken out of the [16, 1] array and added: rows 0 and 8, each sliced to a [1, 1] block and read
    as a scalar. -/
def sliceSum (y : FVec Ideal S16x1 .f32) : FVec Ideal S_ .f32 :=
  addf (F := Ideal) (shapeCast S_ (extractStridedSlice S1x1 ![0, 0] y slices_S16x1_S1x1_0_0) shapeCasts_S1x1_S_)
    (shapeCast S_ (extractStridedSlice S1x1 ![8, 0] y slices_S16x1_S1x1_8_0) shapeCasts_S1x1_S_)

/-- A [1, 1] block read as a scalar is its entry (0, 0). -/
theorem scalar_of_block (z : FVec Ideal S1x1 .f32) (h : S1x1.ShapeCasts S_) (j : S_.Idx) :
    shapeCast S_ z h j = z (ix2 (0 : Fin 1) (0 : Fin 1)) :=
  shapeCast_apply z h j (ix2 (0 : Fin 1) (0 : Fin 1)) (by
    have h1 := (S1x1.rowMajor (ix2 (0 : Fin 1) (0 : Fin 1))).isLt
    have h2 := (S_.rowMajor j).isLt
    have e1 : S1x1.numel = 1 := by decide
    have e2 : S_.numel = 1 := by decide
    omega)

/-- The sum of the two slices is the sum of the entries (0, 0) and (8, 0). -/
theorem sliceSum_eq (y : FVec Ideal S16x1 .f32) :
    sliceSum y = fun _ => y (ix2 (0 : Fin 16) (0 : Fin 1)) + y (ix2 (8 : Fin 16) (0 : Fin 1)) := by
  funext j
  show shapeCast S_ (extractStridedSlice S1x1 ![0, 0] y slices_S16x1_S1x1_0_0) shapeCasts_S1x1_S_ j
      + shapeCast S_ (extractStridedSlice S1x1 ![8, 0] y slices_S16x1_S1x1_8_0) shapeCasts_S1x1_S_ j = _
  rw [scalar_of_block, scalar_of_block,
    extractStridedSlice_apply ![0, 0] y slices_S16x1_S1x1_0_0 (ix2 (0 : Fin 1) (0 : Fin 1)) (ix2 (0 : Fin 16) (0 : Fin 1))
      fun a => by
        match a with
        | ⟨0, _⟩ => rfl
        | ⟨1, _⟩ => rfl,
    extractStridedSlice_apply ![8, 0] y slices_S16x1_S1x1_8_0 (ix2 (0 : Fin 1) (0 : Fin 1)) (ix2 (8 : Fin 16) (0 : Fin 1))
      fun a => by
        match a with
        | ⟨0, _⟩ => rfl
        | ⟨1, _⟩ => rfl]

/-- The 37 closing operations leave in the result buffer the reference program's closing function of the sum of the
    two slices: from the division on, the two programs' operations are the same functions of the same operands (their
    shape facts differ only in their proofs, and the table of the two boundary points is the same table). -/
theorem tail_spelled (V : Valuation τ sig (Elt Ideal))
    (hc : V ⟪main_cst⟫ = fun i => FloatOps.ofBits (F := Ideal) .f32 (lit0 (S2.rowMajor i))) :
    after (hostOps1 (F := Ideal)) V ⟪main_v49⟫
      = @Cert.RefSide.tailOf Cert.ReferenceIdeal.Gen.facts (sliceSum (V ⟪main_v13⟫))
          (V ⟪main_arg1⟫) (V ⟪main_arg2⟫) (V ⟪main_arg3⟫) (V ⟪main_arg4⟫) (V ⟪main_arg5⟫) (V ⟪main_arg6⟫) (V ⟪main_arg7⟫)
          (V ⟪main_arg8⟫) := by
  after_results_simp
  rw [hc]
  rfl

/-- … that is, of the sum of the entries (0, 0) and (8, 0) of the array the tiled computation wrote. -/
theorem tail_v49 (V : Valuation τ sig (Elt Ideal))
    (hc : V (Proc.devRef .tc main_cst) = fun i => FloatOps.ofBits (F := Ideal) .f32 (lit0 (S2.rowMajor i))) :
    StableHlo.after (hostOps1 (F := Ideal)) V (Proc.devRef .tc main_v49)
      = @Cert.RefSide.tailOf Cert.ReferenceIdeal.Gen.facts
          (fun _ => (HAdd.hAdd : EReal → EReal → EReal)
            ((V (Proc.devRef .tc main_v13) : S16x1.Idx → EReal) (ix2 (0 : Fin 16) (0 : Fin 1)))
            ((V (Proc.devRef .tc main_v13) : S16x1.Idx → EReal) (ix2 (8 : Fin 16) (0 : Fin 1))))
          (V (Proc.devRef .tc main_arg1)) (V (Proc.devRef .tc main_arg2)) (V (Proc.devRef .tc main_arg3))
          (V (Proc.devRef .tc main_arg4)) (V (Proc.devRef .tc main_arg5)) (V (Proc.devRef .tc main_arg6))
          (V (Proc.devRef .tc main_arg7)) (V (Proc.devRef .tc main_arg8)) :=
  (tail_spelled V hc).trans
    (congrArg (fun s => @Cert.RefSide.tailOf Cert.ReferenceIdeal.Gen.facts s (V ⟪main_arg1⟫) (V ⟪main_arg2⟫) (V ⟪main_arg3⟫)
      (V ⟪main_arg4⟫) (V ⟪main_arg5⟫) (V ⟪main_arg6⟫) (V ⟪main_arg7⟫) (V ⟪main_arg8⟫)) (sliceSum_eq (V ⟪main_v13⟫)))

end Cert.KerSide

end
-- ==== Proof.KerRun.lean ====
/-
  The tiled program's run, read.

  The output array [16, 1] is written back twice: rows 0 … 7 after the first half's last tile (grid point 122), rows
  8 … 15 after the second half's (point 245); the two blocks do not meet, so after the run row 0 holds the first
  half's sum and row 8 the second's. The host then adds the two, divides by the number of samples and adds the squares
  of the network at the two boundary points: the same closing operations as the reference's, applied to the two
  halves' sum.
-/
import proofs.«115291_j3839700763115_2_alg».proof.Proof.Gen.KernelIdeal.Frame
import proofs.«115291_j3839700763115_2_alg».proof.Proof.KerInv
import proofs.«115291_j3839700763115_2_alg».proof.Proof.KerTail
import Idealize.ShloMosaic.Lib.Pipeline.Value
import Idealize.ShloMosaic.Lib.StableHlo.Run

set_option maxRecDepth 16384

noncomputable section

open scoped BigOperators

namespace Cert.KerSide

open Cert.KernelIdeal Cert.KernelIdeal.Gen Cert.Pde
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The two write-backs -/

/-- The output window's block index at point u: the half u / 123, column 0. -/
theorem idx9 : ∀ u : Fin cfg0.N, win0_9.index u 0 = u.val / 123 ∧ win0_9.index u 1 = 0 :=
  (by decide +kernel : ∀ u : Fin grid0.N, win0_9.index u 0 = u.val / 123 ∧ win0_9.index u 1 = 0)

/-- Its blocks are whole: 8 rows, 1 column, at every point. -/
theorem xsize9 : ∀ u : Fin cfg0.N, win0_9.xsize (grid0.coords u) 0 = 8 ∧ win0_9.xsize (grid0.coords u) 1 = 1 :=
  (by decide +kernel : ∀ u : Fin grid0.N, win0_9.xsize (grid0.coords u) 0 = 8 ∧ win0_9.xsize (grid0.coords u) 1 = 1)

/-- The blocks the two write-backs write do not meet: they are rows 0 … 7 and rows 8 … 15. -/
theorem flush_disj : ∀ t t' : Fin cfg0.N, (cfg0.win 9).flush t = true → (cfg0.win 9).flush t' = true → t ≠ t' →
    Disjoint ((cfg0.win 9).blk t).view.set ((cfg0.win 9).blk t').view.set := by
  intro t t' hf hf' hne
  have hN : cfg0.N = 246 := N_0
  have h1 := (flush0_9 t).mp hf
  have h2 := (flush0_9 t').mp hf'
  rw [Finset.disjoint_left]
  intro i hi hi'
  have a1 : i ∈ ((View.whole main_v13).slice (win0_9.rect t)).set := hi
  have a2 : i ∈ ((View.whole main_v13).slice (win0_9.rect t')).set := hi'
  rw [View.set_slice_whole, Rect.mem_set_unit] at a1 a2
  have b1 := a1 0
  have b2 := a2 0
  rw [(idx9 t).1, (xsize9 t).1, show win0_9.size 0 = 8 from rfl] at b1
  rw [(idx9 t').1, (xsize9 t').1, show win0_9.size 0 = 8 from rfl] at b2
  have ht := t.isLt
  have ht' := t'.isLt
  have hv : t.val ≠ t'.val := fun e => hne (Fin.ext e)
  omega

/-- What a half's last tile leaves in the output block at row 0: the sum of the half's 123 tiles. -/
theorem half_sum (t : Fin cfg0.N) (h1 : t.val % 123 = 122) :
    (outsAt0 m c t.val t.isLt).1 (ix2 (0 : Fin 8) (0 : Fin 1))
      = partialSum (resHand m c) (samples m c) (123 * (t.val / 123)) 122 := by
  have h0 : ¬t.val % 123 = 0 := by omega
  have hN : cfg0.N = 246 := N_0
  have ht := t.isLt
  rw [outb_C m c t h0 h1, step, scratch_eq m c (t.val - 1) (by omega)]
  have hdiv : (t.val - 1) / 123 = t.val / 123 := by omega
  have hmod : (t.val - 1) % 123 = 121 := by omega
  rw [hdiv, hmod]
  unfold partialSum
  show (∑ s ∈ Finset.range 122, _) + _ = ∑ s ∈ Finset.range (122 + 1), _
  rw [Finset.sum_range_succ _ 122]
  congr 2
  omega

/-- After the run, the first row of the block a half's last tile wrote back holds that half's sum: the block of
    point t sits at rows 8·(t / 123) …, its entry (0, 0) is what the tile left at (0, 0), and no later write-back
    touches it. -/
theorem out_half (t : Fin cfg0.N) (h1 : t.val % 123 = 122) (r : Fin 16) (hr : r.val = 8 * (t.val / 123)) :
    ((dats m 0 c).arrAt 9 cfg0.N : S16x1.Idx → EReal) (ix2 r (0 : Fin 1))
      = partialSum (resHand m c) (samples m c) (123 * (t.val / 123)) 122 := by
  have hf : (cfg0.win 9).flush t = true := (flush0_9 t).mpr h1
  have hx0 : 0 < win0_9.xsize (grid0.coords t) 0 := by rw [(xsize9 t).1]; decide
  have hx1 : 0 < win0_9.xsize (grid0.coords t) 1 := by rw [(xsize9 t).2]; decide
  let y : ((cfg0.win 9).xblock (cfg0.grid.coords t)).Idx := fun a =>
    match a with
    | ⟨0, _⟩ => ⟨0, hx0⟩
    | ⟨1, _⟩ => ⟨0, hx1⟩
  have h := (dats m 0 c).arrAt_emb_eq_flushed 9 flush_disj t hf y
  have hemb : ((cfg0.win 9).blk t).view.emb y = ix2 r (0 : Fin 1) := funext fun a => Fin.ext (by
    match a with
    | ⟨0, _⟩ =>
      show win0_9.index t 0 * 8 + 1 * 0 = r.val
      rw [(idx9 t).1, hr]; omega
    | ⟨1, _⟩ =>
      show win0_9.index t 1 * 1 + 1 * 0 = 0
      rw [(idx9 t).2])
  rw [hemb] at h
  have hy : (cfg0.win 9).xinj (cfg0.grid.coords t) y = ix2 (0 : Fin 8) (0 : Fin 1) := funext fun a => Fin.ext (by
    match a with
    | ⟨0, _⟩ => rfl
    | ⟨1, _⟩ => rfl)
  have hfl : (dats m 0 c).flushed 9 t y = (outsAt0 m c t.val t.isLt).1 (ix2 (0 : Fin 8) (0 : Fin 1)) := by
    show (dats m 0 c).after 9 t ((cfg0.win 9).xinj (cfg0.grid.coords t) y) = _
    rw [after0_9, hy]
  rw [hfl] at h
  exact (h.trans (cast_eq _ _)).trans (half_sum m c t h1)

/-- The last point of the first half and of the second. -/
abbrev tA : Fin cfg0.N := ⟨122, by rw [show cfg0.N = 246 from N_0]; decide⟩
abbrev tB : Fin cfg0.N := ⟨245, by rw [show cfg0.N = 246 from N_0]; decide⟩

/-- After the run row 0 of the output array holds the first half's sum … -/
theorem out_row0 : ((dats m 0 c).arrAt 9 cfg0.N : S16x1.Idx → EReal) (ix2 (0 : Fin 16) (0 : Fin 1))
    = partialSum (resHand m c) (samples m c) 0 122 :=
  out_half m c tA (by decide) (0 : Fin 16) (by decide)

/-- … and row 8 the second half's. -/
theorem out_row8 : ((dats m 0 c).arrAt 9 cfg0.N : S16x1.Idx → EReal) (ix2 (8 : Fin 16) (0 : Fin 1))
    = partialSum (resHand m c) (samples m c) 123 122 :=
  out_half m c tB (by decide) (8 : Fin 16) (by decide)

/-! ## The closing host operations -/

/-- The table of the two boundary abscissae, as the region finds it: written by the program's first operation and
    touched by none after. -/
theorem V_cst : V m c main_cst = fun i => FloatOps.ofBits (F := Ideal) .f32 (lit0 (S2.rowMajor i)) := by
  dsimp only [V, V0]
  simp only [hostOps0, hostOps0_1, hostOps0_2, List.flatten_cons, List.flatten_nil, List.append_nil, List.cons_append,
    List.nil_append]
  after_results
  rfl

/-- The program's result: the closing operations applied to the two halves' sum and to the weights. -/
theorem result_eq : Pipeline.afterTail₀ cfgs (dats m) 0 (V0 m) [hostOps1] c main_v49
    = @Cert.RefSide.tailOf Cert.ReferenceIdeal.Gen.facts
        (fun _ => partialSum (resHand m c) (samples m c) 0 122 + partialSum (resHand m c) (samples m c) 123 122)
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  have hc : (Pipeline.withArrays (cfgs (0 : Fin 1)).spec c (V0 m c) fun w => (dats m 0 c).arrAt w (cfgs (0 : Fin 1)).N) (Proc.devRef .tc main_cst) = fun i => FloatOps.ofBits (F := Ideal) .f32 (lit0 (S2.rowMajor i)) :=
    (Pipeline.withArrays_of_ne _ c (V0 m c) _ main_cst (by exact (by decide : ∀ w, Pipeline.arrRef spec0 w ≠ main_cst))).trans (V_cst m c)
  have e13 : (Pipeline.withArrays (cfgs (0 : Fin 1)).spec c (V0 m c) fun w => (dats m 0 c).arrAt w (cfgs (0 : Fin 1)).N) (Proc.devRef .tc main_v13) = (dats m 0 c).arrAt 9 cfg0.N :=
    Pipeline.withArrays_arr _ launch0.win.arr_inj c _ _ 9
  have ea1 : (Pipeline.withArrays (cfgs (0 : Fin 1)).spec c (V0 m c) fun w => (dats m 0 c).arrAt w (cfgs (0 : Fin 1)).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have ea2 : (Pipeline.withArrays (cfgs (0 : Fin 1)).spec c (V0 m c) fun w => (dats m 0 c).arrAt w (cfgs (0 : Fin 1)).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have ea3 : (Pipeline.withArrays (cfgs (0 : Fin 1)).spec c (V0 m c) fun w => (dats m 0 c).arrAt w (cfgs (0 : Fin 1)).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have ea4 : (Pipeline.withArrays (cfgs (0 : Fin 1)).spec c (V0 m c) fun w => (dats m 0 c).arrAt w (cfgs (0 : Fin 1)).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  have ea5 : (Pipeline.withArrays (cfgs (0 : Fin 1)).spec c (V0 m c) fun w => (dats m 0 c).arrAt w (cfgs (0 : Fin 1)).N) (Proc.devRef .tc main_arg5) = m ((c : Thread nD τ).loc main_arg5) :=
    (Pipeline.withArrays_of_ne _ c (V0 m c) _ main_arg5 (by exact (by decide : ∀ w, Pipeline.arrRef spec0 w ≠ main_arg5))).trans (V_main_arg5 m c)
  have ea6 : (Pipeline.withArrays (cfgs (0 : Fin 1)).spec c (V0 m c) fun w => (dats m 0 c).arrAt w (cfgs (0 : Fin 1)).N) (Proc.devRef .tc main_arg6) = m ((c : Thread nD τ).loc main_arg6) :=
    (Pipeline.withArrays_of_ne _ c (V0 m c) _ main_arg6 (by exact (by decide : ∀ w, Pipeline.arrRef spec0 w ≠ main_arg6))).trans (V_main_arg6 m c)
  have ea7 : (Pipeline.withArrays (cfgs (0 : Fin 1)).spec c (V0 m c) fun w => (dats m 0 c).arrAt w (cfgs (0 : Fin 1)).N) (Proc.devRef .tc main_arg7) = m ((c : Thread nD τ).loc main_arg7) :=
    (Pipeline.withArrays_of_ne _ c (V0 m c) _ main_arg7 (by exact (by decide : ∀ w, Pipeline.arrRef spec0 w ≠ main_arg7))).trans (V_main_arg7 m c)
  have ea8 : (Pipeline.withArrays (cfgs (0 : Fin 1)).spec c (V0 m c) fun w => (dats m 0 c).arrAt w (cfgs (0 : Fin 1)).N) (Proc.devRef .tc main_arg8) = m ((c : Thread nD τ).loc main_arg8) :=
    (Pipeline.withArrays_of_ne _ c (V0 m c) _ main_arg8 (by exact (by decide : ∀ w, Pipeline.arrRef spec0 w ≠ main_arg8))).trans (V_main_arg8 m c)
  refine (tail_v49 _ hc).trans ?_
  rw [e13, ea1, ea2, ea3, ea4, ea5, ea6, ea7, ea8]
  have o0 := out_row0 m c
  have o8 := out_row8 m c
  rw [o0, o8]

/-- The run: every fair execution terminates with the result above and the nine argument arrays as launched. -/
theorem ker_run : θ_run defs (onTc (τ := τ) (main (F := Ideal))) ⟨m, fun _ => 0, ρ⟩ (fun r => ∀ c : Dev nD,
      r.2.mem ((c.tc : Thread nD τ).loc main_v49)
        = @Cert.RefSide.tailOf Cert.ReferenceIdeal.Gen.facts
            (fun _ => partialSum (resHand m c) (samples m c) 0 122 + partialSum (resHand m c) (samples m c) 123 122)
            (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v49 (Pipeline.mem_restRefs_of main_v49 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KerSide

end
-- ==== Proof.PointMath.lean ====
/-
  Why the two spellings of the derivatives of tanh give the same residual at a real sample point.

  On the extended reals a product does not distribute over a sum in general (⊤·(1 − 1) is 0, ⊤·1 − ⊤·1 is ⊥), so
  the identities  (g + g·h)·(1 − h) = (1 − h·h)·g  and its second-order companion are not laws of EReal. They are
  laws of ℝ. The road taken here: show that with real weights and a real sample every array that travels through
  the network is the image of a REAL array under the inclusion ℝ → EReal, and that for either spelling it is the
  image of the same real array. Three ingredients:

    • the inclusion commutes with +, −, ·, negation and finite sums, so a contraction of real arrays with real
      weights is the image of the real contraction;
    • on real arguments each of the three fields of either spelling is the image of one real formula
      (rD, rQ1, rQ below); for the hand-derived spelling that is a reading, for the automatic one it is the
      polynomial identity in h = tanh z, checked in ℝ where the ring laws hold;
    • hence a layer maps the image of a real jet to the image of a real jet, the same one for both spellings;
      four layers give the network.
-/
import proofs.«115291_j3839700763115_2_alg».proof.Proof.Spec

noncomputable section

open scoped BigOperators

namespace Cert.Pde

open Idealize.ShloMosaic

/-! ### The inclusion ℝ → EReal and finite sums -/

/-- The inclusion of the reals commutes with a finite sum: induction on the index set, one coe_add a step. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert i s hi ih => rw [Finset.sum_insert hi, Finset.sum_insert hi, EReal.coe_add, ih]

/-- The contraction on real numbers. -/
def rlin {K J : Type} [Fintype K] (w : K → J → ℝ) (a : K → ℝ) (j : J) : ℝ := ∑ k, a k * w k j

/-- A contraction of the image of a real array with weights that are images of reals is the image of the real
    contraction: termwise coe_mul, then the sum. -/
theorem lin_coe {K J : Type} [Fintype K] (w : K → J → EReal) (wr : K → J → ℝ) (hw : ∀ k j, w k j = (wr k j : EReal))
    (a : K → ℝ) (j : J) :
    lin w (fun k => (a k : EReal)) j = (rlin wr a j : EReal) := by
  unfold lin rlin
  rw [coe_finset_sum]
  refine Finset.sum_congr rfl (fun k _ => ?_)
  rw [hw k j, EReal.coe_mul]

/-! ### The derivatives of tanh on real numbers -/

/-- d/dx tanh z = (1 − tanh² z)·g, where g = dz/dx. -/
def rD (z g : ℝ) : ℝ := (1 - Real.tanh z * Real.tanh z) * g

/-- d²/dx² tanh z when z is affine in x: −2·tanh z·(1 − tanh² z)·g². -/
def rQ1 (z g : ℝ) : ℝ := -2 * Real.tanh z * (1 - Real.tanh z * Real.tanh z) * (g * g)

/-- d²/dx² tanh z in general: −2·tanh z·(1 − tanh² z)·g² + (1 − tanh² z)·p, where p = d²z/dx². -/
def rQ (z g p : ℝ) : ℝ :=
  -2 * Real.tanh z * (1 - Real.tanh z * Real.tanh z) * (g * g) + (1 - Real.tanh z * Real.tanh z) * p

/-- A spelling is exact when, on real arguments, its three fields are the images of the three real formulas. -/
structure Spelling.Exact (S : Spelling) : Prop where
  D : ∀ z g : ℝ, S.D z g = (rD z g : EReal)
  Q1 : ∀ z g : ℝ, S.Q1 z g = (rQ1 z g : EReal)
  Q : ∀ z g p : ℝ, S.Q z g p = (rQ z g p : EReal)

/-- The constant −2 of the hand-derived spelling is the image of the real −2. -/
theorem neg_two_eq_coe : (-2 : EReal) = ((-2 : ℝ) : EReal) := by
  rw [EReal.coe_neg]
  rfl

/-- The hand-derived spelling is exact: its fields ARE the real formulas, read through the inclusion. Every
    constant and every tanh is the image of a real; the inclusion is then pulled outward across each operation. -/
theorem handForm_exact : handForm.Exact where
  D z g := by
    show (1 - Ideal.tanh (z : EReal) * Ideal.tanh (z : EReal)) * (g : EReal) = (rD z g : EReal)
    rw [Ideal.tanh_coe, ← EReal.coe_one, ← EReal.coe_mul, ← EReal.coe_sub, ← EReal.coe_mul]
    rfl
  Q1 z g := by
    show (-2 : EReal) * Ideal.tanh (z : EReal) * (1 - Ideal.tanh (z : EReal) * Ideal.tanh (z : EReal))
        * ((g : EReal) * (g : EReal)) = (rQ1 z g : EReal)
    rw [Ideal.tanh_coe, neg_two_eq_coe, ← EReal.coe_one, ← EReal.coe_mul, ← EReal.coe_mul, ← EReal.coe_sub,
      ← EReal.coe_mul, ← EReal.coe_mul, ← EReal.coe_mul]
    rfl
  Q z g p := by
    show (-2 : EReal) * Ideal.tanh (z : EReal) * (1 - Ideal.tanh (z : EReal) * Ideal.tanh (z : EReal))
        * ((g : EReal) * (g : EReal))
        + (1 - Ideal.tanh (z : EReal) * Ideal.tanh (z : EReal)) * (p : EReal) = (rQ z g p : EReal)
    rw [Ideal.tanh_coe, neg_two_eq_coe, ← EReal.coe_one, ← EReal.coe_mul, ← EReal.coe_mul, ← EReal.coe_sub,
      ← EReal.coe_mul, ← EReal.coe_mul, ← EReal.coe_mul, ← EReal.coe_mul, ← EReal.coe_add]
    rfl

/-- The automatic spelling is exact. Pull the inclusion outward as before; what remains is an identity between
    two real polynomials in g, p and h = tanh z, which the ring laws of ℝ decide:
      (g + g·h)·(1 − h) = (1 − h·h)·g,
      (p + (p·h + g·d))·(1 − h) + (g + g·h)·(−d) = −2·h·(1 − h·h)·g² + (1 − h·h)·p   with d = (g + g·h)·(1 − h). -/
theorem autoForm_exact : autoForm.Exact where
  D z g := by
    show ((g : EReal) + (g : EReal) * Ideal.tanh (z : EReal)) * (1 - Ideal.tanh (z : EReal)) = (rD z g : EReal)
    rw [Ideal.tanh_coe, ← EReal.coe_one, ← EReal.coe_mul, ← EReal.coe_add, ← EReal.coe_sub, ← EReal.coe_mul]
    refine congrArg _ ?_
    unfold rD
    ring
  Q1 z g := by
    show (g : EReal) * (((g : EReal) + (g : EReal) * Ideal.tanh (z : EReal)) * (1 - Ideal.tanh (z : EReal)))
          * (1 - Ideal.tanh (z : EReal))
        + ((g : EReal) + (g : EReal) * Ideal.tanh (z : EReal))
          * -(((g : EReal) + (g : EReal) * Ideal.tanh (z : EReal)) * (1 - Ideal.tanh (z : EReal)))
        = (rQ1 z g : EReal)
    rw [Ideal.tanh_coe, ← EReal.coe_one, ← EReal.coe_mul, ← EReal.coe_add, ← EReal.coe_sub, ← EReal.coe_mul,
      ← EReal.coe_mul, ← EReal.coe_mul, ← EReal.coe_neg, ← EReal.coe_mul, ← EReal.coe_add]
    refine congrArg _ ?_
    unfold rQ1
    ring
  Q z g p := by
    show ((p : EReal) + ((p : EReal) * Ideal.tanh (z : EReal)
            + (g : EReal) * (((g : EReal) + (g : EReal) * Ideal.tanh (z : EReal)) * (1 - Ideal.tanh (z : EReal)))))
          * (1 - Ideal.tanh (z : EReal))
        + ((g : EReal) + (g : EReal) * Ideal.tanh (z : EReal))
          * -(((g : EReal) + (g : EReal) * Ideal.tanh (z : EReal)) * (1 - Ideal.tanh (z : EReal)))
        = (rQ z g p : EReal)
    rw [Ideal.tanh_coe, ← EReal.coe_one, ← EReal.coe_mul, ← EReal.coe_mul, ← EReal.coe_add, ← EReal.coe_sub,
      ← EReal.coe_mul, ← EReal.coe_mul, ← EReal.coe_add, ← EReal.coe_add, ← EReal.coe_mul, ← EReal.coe_neg,
      ← EReal.coe_mul, ← EReal.coe_add]
    refine congrArg _ ?_
    unfold rQ
    ring

/-! ### Real jets and their images -/

/-- Activations, derivative and second derivative as real arrays. -/
structure RJet (J : Type) where
  a : J → ℝ
  d : J → ℝ
  q : J → ℝ

/-- The image of a real jet under the inclusion, entry by entry. -/
def RJet.coe {J : Type} (r : RJet J) : Jet J where
  a j := (r.a j : EReal)
  d j := (r.d j : EReal)
  q j := (r.q j : EReal)

/-- The first layer on real numbers. -/
def rlayer1 (w1 b1 : Fin 32 → ℝ) (x : ℝ) : RJet (Fin 32) where
  a j := Real.tanh (x * w1 j + b1 j)
  d j := rD (x * w1 j + b1 j) (w1 j)
  q j := rQ1 (x * w1 j + b1 j) (w1 j)

/-- A later layer on real numbers. -/
def rlayer {K J : Type} [Fintype K] (w : K → J → ℝ) (b : J → ℝ) (s : RJet K) : RJet J where
  a j := Real.tanh (rlin w s.a j + b j)
  d j := rD (rlin w s.a j + b j) (rlin w s.d j)
  q j := rQ (rlin w s.a j + b j) (rlin w s.d j) (rlin w s.q j)

/-- With real weights and a real sample, the first layer in an exact spelling is the image of the real first
    layer: the pre-activation x·w + b is the image of a real, and the spelling is exact there. -/
theorem layer1_coe (S : Spelling) (hS : S.Exact) (N : Net) (w1 b1 : Fin 32 → ℝ)
    (hw : ∀ j, N.w1 j = (w1 j : EReal)) (hb : ∀ j, N.b1 j = (b1 j : EReal)) (x : ℝ) :
    layer1 S N (x : EReal) = (rlayer1 w1 b1 x).coe := by
  have hz : ∀ j, (x : EReal) * N.w1 j + N.b1 j = ((x * w1 j + b1 j : ℝ) : EReal) := fun j => by
    rw [hw j, hb j, EReal.coe_add, EReal.coe_mul]
  unfold layer1 RJet.coe rlayer1
  refine congr (congr (congrArg Jet.mk ?_) ?_) ?_
  · funext j; rw [hz j, Ideal.tanh_coe]
  · funext j; rw [hz j, hw j, hS.D]
  · funext j; rw [hz j, hw j, hS.Q1]

/-- A later layer in an exact spelling maps the image of a real jet to the image of the real layer's jet: the
    three contractions are images of real contractions, the pre-activation is the image of a real, and the
    spelling is exact there. -/
theorem layer_coe {K J : Type} [Fintype K] (S : Spelling) (hS : S.Exact) (w : K → J → EReal) (b : J → EReal)
    (wr : K → J → ℝ) (br : J → ℝ) (hw : ∀ k j, w k j = (wr k j : EReal)) (hb : ∀ j, b j = (br j : EReal))
    (r : RJet K) :
    layer S w b r.coe = (rlayer wr br r).coe := by
  have hz : ∀ j, lin w r.coe.a j + b j = ((rlin wr r.a j + br j : ℝ) : EReal) := fun j => by
    rw [hb j, EReal.coe_add]
    exact congrArg (· + (br j : EReal)) (lin_coe w wr hw r.a j)
  have hd : ∀ j, lin w r.coe.d j = (rlin wr r.d j : EReal) := fun j => lin_coe w wr hw r.d j
  have hq : ∀ j, lin w r.coe.q j = (rlin wr r.q j : EReal) := fun j => lin_coe w wr hw r.q j
  unfold layer rlayer
  refine congr (congr (congrArg Jet.mk ?_) ?_) ?_
  · funext j; rw [hz j, Ideal.tanh_coe]
  · funext j; rw [hz j, hd j, hS.D]
  · funext j; rw [hz j, hd j, hq j, hS.Q]

/-- With real weights and a real sample, the residual in an exact spelling does not depend on the spelling: it is
    the image of the second derivative computed by the four real layers, minus the sine. -/
theorem resid_exact (S : Spelling) (hS : S.Exact) (N : Net)
    (w1 b1 : Fin 32 → ℝ) (w2 : Fin 32 → Fin 32 → ℝ) (b2 : Fin 32 → ℝ) (w3 : Fin 32 → Fin 32 → ℝ) (b3 : Fin 32 → ℝ)
    (w4 : Fin 32 → ℝ) (b4 : ℝ)
    (hw1 : ∀ j, N.w1 j = (w1 j : EReal)) (hb1 : ∀ j, N.b1 j = (b1 j : EReal))
    (hw2 : ∀ k j, N.w2 k j = (w2 k j : EReal)) (hb2 : ∀ j, N.b2 j = (b2 j : EReal))
    (hw3 : ∀ k j, N.w3 k j = (w3 k j : EReal)) (hb3 : ∀ j, N.b3 j = (b3 j : EReal))
    (hw4 : ∀ k, N.w4 k = (w4 k : EReal)) (hb4 : N.b4 = (b4 : EReal)) (x : ℝ) :
    resid S N (x : EReal)
      = (((rlayer (fun k (_ : Unit) => w4 k) (fun _ => b4)
            (rlayer w3 b3 (rlayer w2 b2 (rlayer1 w1 b1 x)))).q () : ℝ) : EReal) - Ideal.sin (x : EReal) := by
  unfold resid chain
  rw [layer1_coe S hS N w1 b1 hw1 hb1 x,
    layer_coe S hS N.w2 N.b2 w2 b2 hw2 hb2,
    layer_coe S hS N.w3 N.b3 w3 b3 hw3 hb3,
    layer_coe S hS (fun k _ => N.w4 k) (fun _ => N.b4) (fun k _ => w4 k) (fun _ => b4)
      (fun k _ => hw4 k) (fun _ => hb4)]
  rfl

/-- The two spellings give the same residual at a real sample of a network with real weights. Choose the real
    weights behind the network's entries; both residuals are then the same expression in those reals. -/
theorem resid_hand_eq_auto (N : Net) (hN : N.Real) (x : ℝ) :
    resid handForm N (x : EReal) = resid autoForm N (x : EReal) := by
  choose w1 hw1 using hN.w1
  choose b1 hb1 using hN.b1
  choose w2 hw2 using hN.w2
  choose b2 hb2 using hN.b2
  choose w3 hw3 using hN.w3
  choose b3 hb3 using hN.b3
  choose w4 hw4 using hN.w4
  obtain ⟨b4, hb4⟩ := hN.b4
  rw [resid_exact handForm handForm_exact N w1 b1 w2 b2 w3 b3 w4 b4 hw1 hb1 hw2 hb2 hw3 hb3 hw4 hb4 x,
    resid_exact autoForm autoForm_exact N w1 b1 w2 b2 w3 b3 w4 b4 hw1 hb1 hw2 hb2 hw3 hb3 hw4 hb4 x]

end Cert.Pde

end
-- ==== Proof.TileSum.lean ====
/-
  The sum over the tiles is the sum over the samples.

  Three re-indexings of a finite sum in the commutative monoid (EReal, +), none of which asks for finiteness:

    • the tiles 0 … 122 of the first half and 123 … 245 of the second are together the tiles 0 … 245;
    • lane l of tile t is position t·4096 + l, and as t runs over the first T tiles and l over the 4096 lanes the
      position runs once over everything below T·4096 (induction on T: one more tile appends one more block of
      4096 positions);
    • 246·4096 = 1 000 000 + 7616: the positions below 1 000 000 are the samples and contribute f(x n)·f(x n); the
      7616 positions after them are padding and contribute 0·0 = 0.
-/
import proofs.«115291_j3839700763115_2_alg».proof.Proof.Tiles

noncomputable section

open scoped BigOperators

namespace Cert.Pde

/-- The first T tiles of 4096 lanes, position t·4096 + l in lane l of tile t, cover the positions below T·4096
    once each. Induction on T: the tiles before the last cover the positions below T·4096 by hypothesis, and the
    last tile is the block of the 4096 positions T·4096 + l that follows. -/
theorem sum_tiles_eq_sum_range (g : ℕ → EReal) (T : ℕ) :
    ∑ t ∈ Finset.range T, ∑ l : Fin 4096, g (t * 4096 + l.val) = ∑ n ∈ Finset.range (T * 4096), g n := by
  induction T with
  | zero => simp only [Nat.zero_mul, Finset.range_zero, Finset.sum_empty]
  | succ T ih =>
    rw [Finset.sum_range_succ, ih, Nat.succ_mul, Finset.sum_range_add,
      Fin.sum_univ_eq_sum_range (fun l => g (T * 4096 + l)) 4096]

/-- The two halves' running sums, each after its 123 tiles, add up to the sum over the tiles 0 … 245. -/
theorem halves_eq_sum_tiles (f : EReal → EReal) (x : Fin 1000000 → EReal) :
    partialSum f x 0 122 + partialSum f x 123 122 = ∑ t ∈ Finset.range 246, tile f x t := by
  unfold partialSum
  have h0 : ∑ s ∈ Finset.range (122 + 1), tile f x (0 + s) = ∑ s ∈ Finset.range 123, tile f x s :=
    Finset.sum_congr rfl (fun s _ => by rw [Nat.zero_add])
  rw [h0]
  exact (Finset.sum_range_add (fun t => tile f x t) 123 123).symm

/-- A position that is a sample contributes the square of f at that sample. -/
theorem masked_of_lt (f : EReal → EReal) (x : Fin 1000000 → EReal) (n : Fin 1000000) :
    masked f x n.val = f (x n) := by
  unfold masked
  rw [dif_pos n.isLt]

/-- A position past the last sample contributes zero. -/
theorem masked_of_ge (f : EReal → EReal) (x : Fin 1000000 → EReal) (n : ℕ) :
    masked f x (1000000 + n) = 0 := by
  unfold masked
  rw [dif_neg (by omega)]

/-- The halves, summed tile by tile over the padded positions, give the sum of the squares over the samples. -/
theorem tiles_sum (f : EReal → EReal) (x : Fin 1000000 → EReal) :
    partialSum f x 0 122 + partialSum f x 123 122 = ∑ n : Fin 1000000, f (x n) * f (x n) := by
  -- all 246 tiles, then all positions below 246·4096
  rw [halves_eq_sum_tiles]
  unfold tile
  rw [sum_tiles_eq_sum_range (fun n => masked f x n * masked f x n) 246]
  -- split the positions into the samples and the padding
  have hsplit : 246 * 4096 = 1000000 + 7616 := by norm_num
  rw [hsplit, Finset.sum_range_add]
  -- the padding contributes nothing
  have hpad : ∑ n ∈ Finset.range 7616, masked f x (1000000 + n) * masked f x (1000000 + n) = 0 :=
    Finset.sum_eq_zero (fun n _ => by rw [masked_of_ge, mul_zero])
  rw [hpad, add_zero]
  -- the samples contribute their squares
  rw [Finset.sum_range (fun n => masked f x n * masked f x n)]
  exact Finset.sum_congr rfl (fun n _ => by rw [masked_of_lt])

end Cert.Pde

end
-- ==== Proof.Finite.lean ====
/-
  What the precondition says, read back: every entry of every argument array is a real number.

  The printed precondition is, for each of the nine argument arrays x, the test  all(|x| < +∞)  — the absolute
  value entry by entry, a comparison against the constant whose pattern is +∞, and a reduction of the resulting
  bits by "and" — and the nine tests joined by "and". It is stated to come out 1. Reading backwards:

    • an "and" of two bits is 1 only if both are, so each of the nine reductions is 1;
    • a reduction by "and" over all axes is 1 only if every bit reduced is 1, so |x i| < +∞ holds at every index i;
    • on the extended reals |x| = max x (−x), which is ⊤ at both ⊥ and ⊤; so |x i| < ⊤ leaves x i a real number.
-/
import proofs.«115291_j3839700763115_2_alg».proof.Defs
import Idealize.ShloMosaic.Lib.ReduceAll

noncomputable section

namespace Cert.Finite

open Idealize.ShloMosaic Idealize.SL.Sem
open Cert.Pre_finite_inputs (S_)

/-- The pattern 0x7F800000 (sign 0, exponent all ones, fraction 0) denotes +∞. -/
theorem inf_pattern : Ideal.ofBits .f32 0x7F800000#32 = (⊤ : EReal) := by
  simp [Ideal.ofBits, Ideal.ieee]

/-- The one comparison, at one entry: if |x| < +∞ came out 1 then x is a real number. At ⊥ and at ⊤ the absolute
    value max x (−x) is ⊤, and ⊤ < ⊤ is false, so the comparison's bit would be 0. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot =>
    exfalso
    rw [EReal.neg_bot, max_eq_right bot_le] at h
    have hlt : ¬ ((⊤ : EReal) < ⊤) := lt_irrefl _
    unfold Ideal.cmp at h
    rw [decide_eq_false hlt] at h
    exact absurd h (by decide)
  | coe r => exact ⟨r, rfl⟩
  | top =>
    exfalso
    rw [EReal.neg_top, max_eq_left bot_le] at h
    have hlt : ¬ ((⊤ : EReal) < ⊤) := lt_irrefl _
    unfold Ideal.cmp at h
    rw [decide_eq_false hlt] at h
    exact absurd h (by decide)

/-- The result of a reduction over all axes has no axis left, hence one index. -/
instance : Subsingleton S_.Idx := ⟨fun _ _ => funext fun d => d.elim0⟩

/-- One test, for an array of any shape: if the reduction by "and" of the bits |x i| < +∞ is 1 then every entry of
    x is a real number. -/
theorem entries_real {s : Shape} (hb : S_.BroadcastsInDim s (![] : Fin 0 → Fin s.rank))
    {axes : List (Fin s.rank)} (hr : s.ReducesTo axes S_) (hu : 0 < S_.numel)
    (x : FVec Ideal s .f32) (init : IVec S_ 1) (j : S_.Idx)
    (h : Host.reduce IntOp.andi
        (cmpf .olt (Host.absf x) (broadcastInDim s ![] hb (constant (F := Ideal) S_ .f32 0x7F800000#32)))
        init hr hu j = 1#1) :
    ∀ i, ∃ r : ℝ, x i = (r : EReal) := fun i =>
  real_of_abs_lt_inf (x i) (Host.reduce_andi_all _ init hr hu j h i)

/-- The precondition of the claim, decoded: on every device each of the nine argument arrays holds real numbers
    only. The nine tests are peeled off the chain of "and"s from the last to the first. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  -- the printed function at the one index of its result
  have hall := congrFun (h c) (fun a => a.elim0)
  dsimp only [Cert.Pre_finite_inputs.fn, Cert.Pre_finite_inputs.fn_part1, Cert.Pre_finite_inputs.fn_part2,
    andi] at hall
  -- the chain of "and"s, last test first
  obtain ⟨h07, h8⟩ := IntOp.andi_eq_one.1 hall
  obtain ⟨h06, h7⟩ := IntOp.andi_eq_one.1 h07
  obtain ⟨h05, h6⟩ := IntOp.andi_eq_one.1 h06
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0, h1⟩ := IntOp.andi_eq_one.1 h01
  exact ⟨entries_real _ _ _ _ _ _ h0, entries_real _ _ _ _ _ _ h1, entries_real _ _ _ _ _ _ h2,
    entries_real _ _ _ _ _ _ h3, entries_real _ _ _ _ _ _ h4, entries_real _ _ _ _ _ _ h5,
    entries_real _ _ _ _ _ _ h6, entries_real _ _ _ _ _ _ h7, entries_real _ _ _ _ _ _ h8⟩

end Cert.Finite

end
-- ==== Proof.lean ====
/-
  A physics-informed loss, computed two ways.

  Both programs evaluate, for a four-layer tanh network u of one variable and 1 000 000 sample points x,

      mean over the samples of (u''(x) − sin x)²  +  u(π)²  +  u(0)².

  The reference obtains u'' by differentiating the network twice with forward-mode automatic differentiation and sums
  over the samples at once. The tiled program carries the activations, their first and their second derivative
  through the layers by hand-derived formulas, 4096 samples at a time with the features on the rows, adds the squared
  residuals of each tile into a running sum per half of the tiles, and leaves the two halves' sums to be added,
  divided by the sample count and completed with the boundary terms by the same closing operations as the reference.

  Over the extended reals the two agree when every input is finite:
    • the closing operations are literally the same, applied to the sum of squared residuals (Proof/KerTail, RefRun);
    • the two halves' running sums add up to the sum over the samples: a re-indexing of a finite sum, the padded
      lanes contributing zero (Proof/Tiles, TileSum, KerInv, KerRun);
    • at each sample the hand-derived residual is the automatically differentiated one: the two spellings of the
      derivatives of tanh differ by expanding products over sums, which is valid because every weight and every sample
      is a real number (Proof/Spec, PointMath), and that is what the precondition says (Proof/Finite).
  Each program's run is read off its text: the reference's 157 host operations piece by piece (Proof/RefOps, RefLayers,
  RefChunks, RefRun), the tiled program's body lane by lane and its grid by induction on the tiles (Proof/KerReads,
  KerPoint, KerPieces, KerBlocks, KerInv, KerRun).
-/
import proofs.«115291_j3839700763115_2_alg».proof.Defs
import proofs.«115291_j3839700763115_2_alg».proof.Proof.Gen.Kernel.Frame
import proofs.«115291_j3839700763115_2_alg».proof.Proof.Gen.KernelIdeal.Frame
import proofs.«115291_j3839700763115_2_alg».proof.Proof.Gen.ReferenceIdeal
import proofs.«115291_j3839700763115_2_alg».proof.Proof.Gen.Pre_finite_inputs
import proofs.«115291_j3839700763115_2_alg».proof.Proof.RefRun
import proofs.«115291_j3839700763115_2_alg».proof.Proof.KerRun
import proofs.«115291_j3839700763115_2_alg».proof.Proof.PointMath
import proofs.«115291_j3839700763115_2_alg».proof.Proof.TileSum
import proofs.«115291_j3839700763115_2_alg».proof.Proof.Finite

noncomputable section

open scoped BigOperators

namespace Cert.Proof

open Idealize.ShloMosaic Idealize.ShloMosaic.TcCoe Idealize.SL.Sem Idealize.ShloMosaic.ValueIdx Cert.Pde

/-- The value both programs end at: the closing operations applied to the sum over the samples of the squared
    residuals, in the automatically differentiated spelling. -/
def value (m : (ℓ : Loc Cert.KernelIdeal.nD Cert.KernelIdeal.τ Cert.KernelIdeal.sig) → Buf (Elt Ideal) ℓ)
    (c : Dev Cert.KernelIdeal.nD) : FVec Ideal Cert.ReferenceIdeal.S_ .f32 :=
  Cert.RefSide.tailOf
    (fun _ => ∑ n : Fin 1000000, resid autoForm (Cert.KerSide.net m c) (Cert.KerSide.samples m c n)
      * resid autoForm (Cert.KerSide.net m c) (Cert.KerSide.samples m c n))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))

/-- The tiled program's result is that value: the halves' sums are the sum over the samples, and at a real sample
    with real weights the hand-derived residual is the automatically differentiated one. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.RefSide.tailOf
      (fun _ => partialSum (Cert.KerSide.resHand m c) (Cert.KerSide.samples m c) 0 122
        + partialSum (Cert.KerSide.resHand m c) (Cert.KerSide.samples m c) 123 122)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      = value m c := by
  obtain ⟨h0, h1, h2, h3, h4, h5, h6, h7, h8⟩ := Cert.Finite.real_of_pre m hpre c
  have hN : (Cert.KerSide.net m c).Real := netOf_real h1 h2 h3 h4 h5 h6 h7 h8
  have e : partialSum (Cert.KerSide.resHand m c) (Cert.KerSide.samples m c) 0 122
        + partialSum (Cert.KerSide.resHand m c) (Cert.KerSide.samples m c) 123 122
      = ∑ n : Fin 1000000, resid autoForm (Cert.KerSide.net m c) (Cert.KerSide.samples m c n)
          * resid autoForm (Cert.KerSide.net m c) (Cert.KerSide.samples m c n) := by
    rw [tiles_sum]
    refine Finset.sum_congr rfl fun n _ => ?_
    obtain ⟨r, hr⟩ := h0 (ix1 n)
    have hs : Cert.KerSide.samples m c n = (r : EReal) := hr
    unfold Cert.KerSide.resHand
    rw [hs, resid_hand_eq_auto _ hN r]
  unfold value
  rw [e]

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run (Cert.ReferenceIdeal.defs (F := Ideal)) _ _).mono (fun _ h c => (h c).2) (Cert.RefSide.ref_run m ρ)

/-- The idealization rewrote nothing: there is nothing to preserve. -/
theorem preserves : Cert.preserves_Kernel_KernelIdeal := trivial

/-- From memories agreeing on the nine arguments both programs end at value, with their arguments unchanged. -/
theorem algebraic : Cert.algebraic_KernelIdeal_ReferenceIdeal := by
  intro m ρ m' ρ' hpre hagree
  refine ⟨fun c => value m c, ?_, ?_⟩
  · exact (θ_run (Cert.KernelIdeal.defs (F := Ideal)) _ _).mono
      (fun r h c => ⟨(h c).1.trans (kernel_value m hpre c), (h c).2⟩) (Cert.KerSide.ker_run m ρ)
  · refine (θ_run (Cert.ReferenceIdeal.defs (F := Ideal)) _ _).mono (fun r h c => ⟨(h c).1.trans ?_, (h c).2⟩)
      (Cert.RefSide.ref_run m' ρ')
    obtain ⟨e0, e1, e2, e3, e4, e5, e6, e7, e8⟩ := hagree c
    rw [e0, e1, e2, e3, e4, e5, e6, e7, e8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
